-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v104_0)) (v1 : (c : Dev Cert.KernelIdeal.nD) → Buf (Elt Ideal) ((c.tc : Thread Cert.KernelIdeal.nD Cert.KernelIdeal.τ).loc Cert.KernelIdeal.main_v106_0)) (v2 : (c : Dev Cert.KernelIdeal.nD) → Buf (Elt Ideal) ((c.tc : Thread Cert.KernelIdeal.nD Cert.KernelIdeal.τ).loc Cert.KernelIdeal.main_v124)) (v3 : (c : Dev Cert.KernelIdeal.nD) → Buf (Elt Ideal) ((c.tc : Thread Cert.KernelIdeal.nD Cert.KernelIdeal.τ).loc Cert.KernelIdeal.main_v131)) (v4 : (c : Dev Cert.KernelIdeal.nD) → Buf (Elt Ideal) ((c.tc : Thread Cert.KernelIdeal.nD Cert.KernelIdeal.τ).loc Cert.KernelIdeal.main_v12)) (v5 : (c : Dev Cert.KernelIdeal.nD) → Buf (Elt Ideal) ((c.tc : Thread Cert.KernelIdeal.nD Cert.KernelIdeal.τ).loc Cert.KernelIdeal.main_v64)) (v6 : (c : Dev Cert.KernelIdeal.nD) → Buf (Elt Ideal) ((c.tc : Thread Cert.KernelIdeal.nD Cert.KernelIdeal.τ).loc Cert.KernelIdeal.main_v25)) (v7 : (c : Dev Cert.KernelIdeal.nD) → Buf (Elt Ideal) ((c.tc : Thread Cert.KernelIdeal.nD Cert.KernelIdeal.τ).loc Cert.KernelIdeal.main_v77)) (v8 : (c : Dev Cert.KernelIdeal.nD) → Buf (Elt Ideal) ((c.tc : Thread Cert.KernelIdeal.nD Cert.KernelIdeal.τ).loc Cert.KernelIdeal.main_v38)) (v9 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104_0) = v0 c
          ∧ r.2.mem ((c.tc : Thread Cert.KernelIdeal.nD Cert.KernelIdeal.τ).loc Cert.KernelIdeal.main_v106_0) = v1 c
          ∧ r.2.mem ((c.tc : Thread Cert.KernelIdeal.nD Cert.KernelIdeal.τ).loc Cert.KernelIdeal.main_v124) = v2 c
          ∧ r.2.mem ((c.tc : Thread Cert.KernelIdeal.nD Cert.KernelIdeal.τ).loc Cert.KernelIdeal.main_v131) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_v64) = v5 c
          ∧ r.2.mem ((c.tc : Thread Cert.KernelIdeal.nD Cert.KernelIdeal.τ).loc Cert.KernelIdeal.main_v25) = v6 c
          ∧ r.2.mem ((c.tc : Thread Cert.KernelIdeal.nD Cert.KernelIdeal.τ).loc Cert.KernelIdeal.main_v77) = v7 c
          ∧ r.2.mem ((c.tc : Thread Cert.KernelIdeal.nD Cert.KernelIdeal.τ).loc Cert.KernelIdeal.main_v38) = v8 c
          ∧ r.2.mem ((c.tc : Thread Cert.KernelIdeal.nD Cert.KernelIdeal.τ).loc Cert.KernelIdeal.main_v90) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_v12) = v4 c
          ∧ r.2.mem ((c.tc : Thread Cert.ReferenceIdeal.nD Cert.ReferenceIdeal.τ).loc Cert.ReferenceIdeal.main_v64) = v5 c
          ∧ r.2.mem ((c.tc : Thread Cert.ReferenceIdeal.nD Cert.ReferenceIdeal.τ).loc Cert.ReferenceIdeal.main_v25) = v6 c
          ∧ r.2.mem ((c.tc : Thread Cert.ReferenceIdeal.nD Cert.ReferenceIdeal.τ).loc Cert.ReferenceIdeal.main_v77) = v7 c
          ∧ r.2.mem ((c.tc : Thread Cert.ReferenceIdeal.nD Cert.ReferenceIdeal.τ).loc Cert.ReferenceIdeal.main_v38) = v8 c
          ∧ r.2.mem ((c.tc : Thread Cert.ReferenceIdeal.nD Cert.ReferenceIdeal.τ).loc Cert.ReferenceIdeal.main_v90) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S80000x64 : Shape := ⟨2, ![80000, 64]⟩
abbrev S64x64 : Shape := ⟨2, ![64, 64]⟩
abbrev S2000000 : Shape := ⟨1, ![2000000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S80000x64 : S_.BroadcastsInDim S80000x64 (![] : Fin 0 → Fin S80000x64.rank)
  reducesTo_S80000x64_S_d0_1 : S80000x64.ReducesTo [0, 1] S_
  bcast_S_S64x64 : S_.BroadcastsInDim S64x64 (![] : Fin 0 → Fin S64x64.rank)
  reducesTo_S64x64_S_d0_1 : S64x64.ReducesTo [0, 1] S_
  bcast_S_S2000000 : S_.BroadcastsInDim S2000000 (![] : Fin 0 → Fin S2000000.rank)
  reducesTo_S2000000_S_d0 : S2000000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S2000000 .f32) (main_arg18 : FVec F S2000000 .f32) (main_arg21 : FVec F S2000000 .f32) (main_v48 : IVec S_ 1) (main_v49 : FVec F S2000000 .f32) (main_v50 : FVec F S2000000 .f32) : IVec S_ 1 :=
  let main_v51 : IVec S2000000 1 := cmpf .olt main_v49 main_v50
  let main_c_19 : IVec S_ 1 := constantI S_ 1 1#1
  let main_v52 : IVec S_ 1 := (fun x v => Host.reduce IntOp.andi x v reducesTo_S2000000_S_d0 h_S_) main_v51 main_c_19
  let main_v53 : IVec S_ 1 := andi main_v48 main_v52
  let main_v54 : FVec F S2000000 .f32 := Host.absf main_arg15
  let main_cst_20 : FVec F S_ .f32 := constant S_ .f32 0x7F800000#32
  let main_v55 : FVec F S2000000 .f32 := broadcastInDim S2000000 ![] bcast_S_S2000000 main_cst_20
  let main_v56 : IVec S2000000 1 := cmpf .olt main_v54 main_v55
  let main_c_21 : IVec S_ 1 := constantI S_ 1 1#1
  let main_v57 : IVec S_ 1 := (fun x v => Host.reduce IntOp.andi x v reducesTo_S2000000_S_d0 h_S_) main_v56 main_c_21
  let main_v58 : IVec S_ 1 := andi main_v53 main_v57
  let main_v59 : FVec F S2000000 .f32 := Host.absf main_arg18
  let main_cst_22 : FVec F S_ .f32 := constant S_ .f32 0x7F800000#32
  let main_v60 : FVec F S2000000 .f32 := broadcastInDim S2000000 ![] bcast_S_S2000000 main_cst_22
  let main_v61 : IVec S2000000 1 := cmpf .olt main_v59 main_v60
  let main_c_23 : IVec S_ 1 := constantI S_ 1 1#1
  let main_v62 : IVec S_ 1 := (fun x v => Host.reduce IntOp.andi x v reducesTo_S2000000_S_d0 h_S_) main_v61 main_c_23
  let main_v63 : IVec S_ 1 := andi main_v58 main_v62
  let main_v64 : FVec F S2000000 .f32 := Host.absf main_arg21
  let main_cst_24 : FVec F S_ .f32 := constant S_ .f32 0x7F800000#32
  let main_v65 : FVec F S2000000 .f32 := broadcastInDim S2000000 ![] bcast_S_S2000000 main_cst_24
  let main_v66 : IVec S2000000 1 := cmpf .olt main_v64 main_v65
  let main_c_25 : IVec S_ 1 := constantI S_ 1 1#1
  let main_v67 : IVec S_ 1 := (fun x v => Host.reduce IntOp.andi x v reducesTo_S2000000_S_d0 h_S_) main_v66 main_c_25
  fn_part4 (F := F) main_v63 main_v67

def fn_part2 {F : FTy → Type} [FloatOps F] (main_arg7 : FVec F S80000x64 .f32) (main_arg8 : FVec F S64x64 .f32) (main_arg9 : FVec F S64x64 .f32) (main_arg12 : FVec F S2000000 .f32) (main_arg15 : FVec F S2000000 .f32) (main_arg18 : FVec F S2000000 .f32) (main_arg21 : FVec F S2000000 .f32) (main_v33 : IVec S_ 1) : IVec S_ 1 :=
  let main_v34 : FVec F S80000x64 .f32 := Host.absf main_arg7
  let main_cst_12 : FVec F S_ .f32 := constant S_ .f32 0x7F800000#32
  let main_v35 : FVec F S80000x64 .f32 := broadcastInDim S80000x64 ![] bcast_S_S80000x64 main_cst_12
  let main_v36 : IVec S80000x64 1 := cmpf .olt main_v34 main_v35
  let main_c_13 : IVec S_ 1 := constantI S_ 1 1#1
  let main_v37 : IVec S_ 1 := (fun x v => Host.reduce IntOp.andi x v reducesTo_S80000x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S2000000 .f32 := Host.absf main_arg12
  let main_cst_18 : FVec F S_ .f32 := constant S_ .f32 0x7F800000#32
  let main_v50 : FVec F S2000000 .f32 := broadcastInDim S2000000 ![] bcast_S_S2000000 main_cst_18
  fn_part3 (F := F) main_arg15 main_arg18 main_arg21 main_v48 main_v49 main_v50

def fn_part1 {F : FTy → Type} [FloatOps F] (main_arg4 : FVec F S150000x64 .f32) (main_arg5 : FVec F S80000x64 .f32) (main_arg6 : FVec F S150000x64 .f32) (main_arg7 : FVec F S80000x64 .f32) (main_arg8 : FVec F S64x64 .f32) (main_arg9 : FVec F S64x64 .f32) (main_arg12 : FVec F S2000000 .f32) (main_arg15 : FVec F S2000000 .f32) (main_arg18 : FVec F S2000000 .f32) (main_arg21 : FVec F S2000000 .f32) (main_v13 : IVec S_ 1) (main_v16 : IVec S80000x64 1) : IVec S_ 1 :=
  let main_c_5 : IVec S_ 1 := constantI S_ 1 1#1
  let main_v17 : IVec S_ 1 := (fun x v => Host.reduce IntOp.andi x v reducesTo_S80000x64_S_d0_1 h_S_) main_v16 main_c_5
  let main_v18 : IVec S_ 1 := andi main_v13 main_v17
  let main_v19 : FVec F S150000x64 .f32 := Host.absf main_arg4
  let main_cst_6 : FVec F S_ .f32 := constant S_ .f32 0x7F800000#32
  let main_v20 : FVec F S150000x64 .f32 := broadcastInDim S150000x64 ![] bcast_S_S150000x64 main_cst_6
  let main_v21 : IVec S150000x64 1 := cmpf .olt main_v19 main_v20
  let main_c_7 : IVec S_ 1 := constantI S_ 1 1#1
  let main_v22 : IVec S_ 1 := (fun x v => Host.reduce IntOp.andi x v reducesTo_S150000x64_S_d0_1 h_S_) main_v21 main_c_7
  let main_v23 : IVec S_ 1 := andi main_v18 main_v22
  let main_v24 : FVec F S80000x64 .f32 := Host.absf main_arg5
  let main_cst_8 : FVec F S_ .f32 := constant S_ .f32 0x7F800000#32
  let main_v25 : FVec F S80000x64 .f32 := broadcastInDim S80000x64 ![] bcast_S_S80000x64 main_cst_8
  let main_v26 : IVec S80000x64 1 := cmpf .olt main_v24 main_v25
  let main_c_9 : IVec S_ 1 := constantI S_ 1 1#1
  let main_v27 : IVec S_ 1 := (fun x v => Host.reduce IntOp.andi x v reducesTo_S80000x64_S_d0_1 h_S_) main_v26 main_c_9
  let main_v28 : IVec S_ 1 := andi main_v23 main_v27
  let main_v29 : FVec F S150000x64 .f32 := Host.absf main_arg6
  let main_cst_10 : FVec F S_ .f32 := constant S_ .f32 0x7F800000#32
  let main_v30 : FVec F S150000x64 .f32 := broadcastInDim S150000x64 ![] bcast_S_S150000x64 main_cst_10
  let main_v31 : IVec S150000x64 1 := cmpf .olt main_v29 main_v30
  let main_c_11 : IVec S_ 1 := constantI S_ 1 1#1
  let main_v32 : IVec S_ 1 := (fun x v => Host.reduce IntOp.andi x v reducesTo_S150000x64_S_d0_1 h_S_) main_v31 main_c_11
  let main_v33 : IVec S_ 1 := andi main_v28 main_v32
  fn_part2 (F := F) main_arg7 main_arg8 main_arg9 main_arg12 main_arg15 main_arg18 main_arg21 main_v33

def fn {F : FTy → Type} [FloatOps F] (main_arg0 : FVec F S150000x64 .f32) (main_arg1 : FVec F S80000x64 .f32) (main_arg2 : FVec F S150000x64 .f32) (main_arg3 : FVec F S80000x64 .f32) (main_arg4 : FVec F S150000x64 .f32) (main_arg5 : FVec F S80000x64 .f32) (main_arg6 : FVec F S150000x64 .f32) (main_arg7 : FVec F S80000x64 .f32) (main_arg8 : FVec F S64x64 .f32) (main_arg9 : FVec F S64x64 .f32) (main_arg10 : IVec S2000000 32) (main_arg11 : IVec S2000000 32) (main_arg12 : FVec F S2000000 .f32) (main_arg13 : IVec S2000000 32) (main_arg14 : IVec S2000000 32) (main_arg15 : FVec F S2000000 .f32) (main_arg16 : IVec S2000000 32) (main_arg17 : IVec S2000000 32) (main_arg18 : FVec F S2000000 .f32) (main_arg19 : IVec S2000000 32) (main_arg20 : IVec S2000000 32) (main_arg21 : FVec F S2000000 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S80000x64 .f32 := Host.absf main_arg1
  let main_cst_0 : FVec F S_ .f32 := constant S_ .f32 0x7F800000#32
  let main_v5 : FVec F S80000x64 .f32 := broadcastInDim S80000x64 ![] bcast_S_S80000x64 main_cst_0
  let main_v6 : IVec S80000x64 1 := cmpf .olt main_v4 main_v5
  let main_c_1 : IVec S_ 1 := constantI S_ 1 1#1
  let main_v7 : IVec S_ 1 := (fun x v => Host.reduce IntOp.andi x v reducesTo_S80000x64_S_d0_1 h_S_) main_v6 main_c_1
  let main_v8 : IVec S_ 1 := andi main_v3 main_v7
  let main_v9 : FVec F S150000x64 .f32 := Host.absf main_arg2
  let main_cst_2 : FVec F S_ .f32 := constant S_ .f32 0x7F800000#32
  let main_v10 : FVec F S150000x64 .f32 := broadcastInDim S150000x64 ![] bcast_S_S150000x64 main_cst_2
  let main_v11 : IVec S150000x64 1 := cmpf .olt main_v9 main_v10
  let main_c_3 : IVec S_ 1 := constantI S_ 1 1#1
  let main_v12 : IVec S_ 1 := (fun x v => Host.reduce IntOp.andi x v reducesTo_S150000x64_S_d0_1 h_S_) main_v11 main_c_3
  let main_v13 : IVec S_ 1 := andi main_v8 main_v12
  let main_v14 : FVec F S80000x64 .f32 := Host.absf main_arg3
  let main_cst_4 : FVec F S_ .f32 := constant S_ .f32 0x7F800000#32
  let main_v15 : FVec F S80000x64 .f32 := broadcastInDim S80000x64 ![] bcast_S_S80000x64 main_cst_4
  let main_v16 : IVec S80000x64 1 := cmpf .olt main_v14 main_v15
  fn_part1 (F := F) main_arg4 main_arg5 main_arg6 main_arg7 main_arg8 main_arg9 main_arg12 main_arg15 main_arg18 main_arg21 main_v13 main_v16
-- ==== Kernel.lean ====
abbrev S150000x64 : Shape := ⟨2, ![150000, 64]⟩
abbrev S80000x64 : Shape := ⟨2, ![80000, 64]⟩
abbrev S64x64 : Shape := ⟨2, ![64, 64]⟩
abbrev S2000000 : Shape := ⟨1, ![2000000]⟩
abbrev S2000000x1 : Shape := ⟨2, ![2000000, 1]⟩
abbrev S_ : Shape := ⟨0, ![]⟩
abbrev S2000000x64 : Shape := ⟨2, ![2000000, 64]⟩
abbrev S50x4x64 : Shape := ⟨3, ![50, 4, 64]⟩
abbrev S3000x64 : Shape := ⟨2, ![3000, 64]⟩
abbrev S1x4x64 : Shape := ⟨3, ![1, 4, 64]⟩
abbrev S64 : Shape := ⟨1, ![64]⟩
abbrev S1x1x64 : Shape := ⟨3, ![1, 1, 64]⟩
abbrev S4x64 : Shape := ⟨2, ![4, 64]⟩
abbrev S40x4x64 : Shape := ⟨3, ![40, 4, 64]⟩
abbrev S2000x64 : Shape := ⟨2, ![2000, 64]⟩
abbrev S75000x128 : Shape := ⟨2, ![75000, 128]⟩
abbrev S4x128 : Shape := ⟨2, ![4, 128]⟩
abbrev S4x75000x128 : Shape := ⟨3, ![4, 75000, 128]⟩
abbrev S1000x128 : Shape := ⟨2, ![1000, 128]⟩
abbrev S4x1000x128 : Shape := ⟨3, ![4, 1000, 128]⟩
abbrev S1x128 : Shape := ⟨2, ![1, 128]⟩
abbrev S128 : Shape := ⟨1, ![128]⟩
abbrev S1x1000x128 : Shape := ⟨3, ![1, 1000, 128]⟩
abbrev S4x150000x64 : Shape := ⟨3, ![4, 150000, 64]⟩
abbrev S40000x128 : Shape := ⟨2, ![40000, 128]⟩
abbrev S4x40000x128 : Shape := ⟨3, ![4, 40000, 128]⟩
abbrev S4x80000x64 : Shape := ⟨3, ![4, 80000, 64]⟩

abbrev nBuf : Space → Nat
  | .hbm => 186
  | .vmem => 48
  | .smem => 0
  | _ => 0

abbrev hbmTy0_0 (i : Nat) : BufTy := match i % 128 with
  | 0 => ⟨S150000x64, .f32⟩
  | 1 => ⟨S80000x64, .f32⟩
  | 2 => ⟨S150000x64, .f32⟩
  | 3 => ⟨S80000x64, .f32⟩
  | 4 => ⟨S150000x64, .f32⟩
  | 5 => ⟨S80000x64, .f32⟩
  | 6 => ⟨S150000x64, .f32⟩
  | 7 => ⟨S80000x64, .f32⟩
  | 8 => ⟨S64x64, .f32⟩
  | 9 => ⟨S64x64, .f32⟩
  | 10 => ⟨S2000000, .i32⟩
  | 11 => ⟨S2000000, .i32⟩
  | 12 => ⟨S2000000, .f32⟩
  | 13 => ⟨S2000000, .i32⟩
  | 14 => ⟨S2000000, .i32⟩
  | 15 => ⟨S2000000, .f32⟩
  | 16 => ⟨S2000000, .i32⟩
  | 17 => ⟨S2000000, .i32⟩
  | 18 => ⟨S2000000, .f32⟩
  | 19 => ⟨S2000000, .i32⟩
  | 20 => ⟨S2000000, .i32⟩
  | 21 => ⟨S2000000, .f32⟩
  | 22 => ⟨S2000000x1, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x64, .f32⟩
  | 32 => ⟨S2000000x64, .f32⟩
  | 33 => ⟨S2000000x64, .f32⟩
  | 34 => ⟨S_, .f32⟩
  | 35 => ⟨S150000x64, .f32⟩
  | 36 => ⟨S2000000x1, .i32⟩
  | 37 => ⟨S150000x64, .f32⟩
  | 38 => ⟨S2000000x1, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x64, .f32⟩
  | 48 => ⟨S2000000x64, .f32⟩
  | 49 => ⟨S2000000x64, .f32⟩
  | 50 => ⟨S_, .f32⟩
  | 51 => ⟨S150000x64, .f32⟩
  | 52 => ⟨S2000000x1, .i32⟩
  | 53 => ⟨S150000x64, .f32⟩
  | 54 => ⟨S2000000x1, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x64, .f32⟩
  | 64 => ⟨S2000000x64, .f32⟩
  | 65 => ⟨S2000000x64, .f32⟩
  | 66 => ⟨S_, .f32⟩
  | 67 => ⟨S150000x64, .f32⟩
  | 68 => ⟨S2000000x1, .i32⟩
  | 69 => ⟨S150000x64, .f32⟩
  | 70 => ⟨S2000000x1, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S2000000x64, .f32⟩
  | 81 => ⟨S2000000x64, .f32⟩
  | 82 => ⟨S_, .f32⟩
  | 83 => ⟨S150000x64, .f32⟩
  | 84 => ⟨S2000000x1, .i32⟩
  | 85 => ⟨S150000x64, .f32⟩
  | 86 => ⟨S2000000x1, .f32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S2000000x1, .i32⟩
  | 95 => ⟨S2000000x64, .f32⟩
  | 96 => ⟨S2000000x64, .f32⟩
  | 97 => ⟨S2000000x64, .f32⟩
  | 98 => ⟨S_, .f32⟩
  | 99 => ⟨S80000x64, .f32⟩
  | 100 => ⟨S2000000x1, .i32⟩
  | 101 => ⟨S80000x64, .f32⟩
  | 102 => ⟨S2000000x1, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S2000000x64, .f32⟩
  | 112 => ⟨S2000000x64, .f32⟩
  | 113 => ⟨S2000000x64, .f32⟩
  | 114 => ⟨S_, .f32⟩
  | 115 => ⟨S80000x64, .f32⟩
  | 116 => ⟨S2000000x1, .i32⟩
  | 117 => ⟨S80000x64, .f32⟩
  | 118 => ⟨S2000000x1, .f32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000x64, .f32⟩
  | _ => ⟨S150000x64, .f32⟩

abbrev hbmTy0_1 (i : Nat) : BufTy := match i % 128 with
  | 0 => ⟨S2000000x64, .f32⟩
  | 1 => ⟨S2000000x64, .f32⟩
  | 2 => ⟨S_, .f32⟩
  | 3 => ⟨S80000x64, .f32⟩
  | 4 => ⟨S2000000x1, .i32⟩
  | 5 => ⟨S80000x64, .f32⟩
  | 6 => ⟨S2000000x1, .f32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x64, .f32⟩
  | 16 => ⟨S2000000x64, .f32⟩
  | 17 => ⟨S2000000x64, .f32⟩
  | 18 => ⟨S_, .f32⟩
  | 19 => ⟨S80000x64, .f32⟩
  | 20 => ⟨S2000000x1, .i32⟩
  | 21 => ⟨S80000x64, .f32⟩
  | 22 => ⟨S150000x64, .f32⟩
  | 23 => ⟨S50x4x64, .f32⟩
  | 24 => ⟨S_, .f32⟩
  | 25 => ⟨S4x64, .f32⟩
  | 26 => ⟨S80000x64, .f32⟩
  | 27 => ⟨S40x4x64, .f32⟩
  | 28 => ⟨S_, .f32⟩
  | 29 => ⟨S4x64, .f32⟩
  | 30 => ⟨S4x64, .f32⟩
  | 31 => ⟨S_, .f32⟩
  | 32 => ⟨S4x64, .f32⟩
  | 33 => ⟨S4x64, .f32⟩
  | 34 => ⟨S_, .f32⟩
  | 35 => ⟨S4x64, .f32⟩
  | 36 => ⟨S4x64, .f32⟩
  | 37 => ⟨S4x64, .f32⟩
  | 38 => ⟨S_, .f32⟩
  | 39 => ⟨S4x64, .f32⟩
  | 40 => ⟨S4x64, .f32⟩
  | 41 => ⟨S_, .f32⟩
  | 42 => ⟨S4x64, .f32⟩
  | 43 => ⟨S4x64, .f32⟩
  | 44 => ⟨S75000x128, .f32⟩
  | 45 => ⟨S75000x128, .f32⟩
  | 46 => ⟨S75000x128, .f32⟩
  | 47 => ⟨S75000x128, .f32⟩
  | 48 => ⟨S4x128, .f32⟩
  | 49 => ⟨S4x75000x128, .f32⟩
  | 50 => ⟨S4x150000x64, .f32⟩
  | 51 => ⟨S40000x128, .f32⟩
  | 52 => ⟨S40000x128, .f32⟩
  | 53 => ⟨S40000x128, .f32⟩
  | 54 => ⟨S40000x128, .f32⟩
  | 55 => ⟨S4x128, .f32⟩
  | 56 => ⟨S4x40000x128, .f32⟩
  | 57 => ⟨S4x80000x64, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S3000x64, .f32⟩
  | .local _ .vmem, ⟨5, _⟩ => ⟨S3000x64, .f32⟩
  | .local _ .vmem, ⟨6, _⟩ => ⟨S3000x64, .f32⟩
  | .local _ .vmem, ⟨7, _⟩ => ⟨S3000x64, .f32⟩
  | .local _ .vmem, ⟨8, _⟩ => ⟨S64x64, .f32⟩
  | .local _ .vmem, ⟨9, _⟩ => ⟨S3000x64, .f32⟩
  | .local _ .vmem, ⟨10, _⟩ => ⟨S3000x64, .f32⟩
  | .local _ .vmem, ⟨11, _⟩ => ⟨S1x4x64, .f32⟩
  | .local _ .vmem, ⟨12, _⟩ => ⟨S1x4x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S64x64, .f32⟩
  | .local _ .vmem, ⟨22, _⟩ => ⟨S2000x64, .f32⟩
  | .local _ .vmem, ⟨23, _⟩ => ⟨S2000x64, .f32⟩
  | .local _ .vmem, ⟨24, _⟩ => ⟨S1x4x64, .f32⟩
  | .local _ .vmem, ⟨25, _⟩ => ⟨S1x4x64, .f32⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S4x128, .f32⟩
  | .local _ .vmem, ⟨35, _⟩ => ⟨S4x1000x128, .f32⟩
  | .local _ .vmem, ⟨36, _⟩ => ⟨S4x1000x128, .f32⟩
  | .local _ .vmem, ⟨37, _⟩ => ⟨S1000x128, .f32⟩
  | .local _ .vmem, ⟨38, _⟩ => ⟨S1000x128, .f32⟩
  | .local _ .vmem, ⟨39, _⟩ => ⟨S1000x128, .f32⟩
  | .local _ .vmem, ⟨40, _⟩ => ⟨S1000x128, .f32⟩
  | .local _ .vmem, ⟨41, _⟩ => ⟨S1000x128, .f32⟩
  | .local _ .vmem, ⟨42, _⟩ => ⟨S1000x128, .f32⟩
  | .local _ .vmem, ⟨43, _⟩ => ⟨S1000x128, .f32⟩
  | .local _ .vmem, ⟨44, _⟩ => ⟨S1000x128, .f32⟩
  | .local _ .vmem, ⟨45, _⟩ => ⟨S4x128, .f32⟩
  | .local _ .vmem, ⟨46, _⟩ => ⟨S4x1000x128, .f32⟩
  | .local _ .vmem, ⟨47, _⟩ => ⟨S4x1000x128, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_7 : Ref sig .tc := ⟨.hbm, 71, rfl⟩
abbrev main_v40 : Ref sig .tc := ⟨.hbm, 72, rfl⟩
abbrev main_v41 : Ref sig .tc := ⟨.hbm, 73, rfl⟩
abbrev main_c_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_10 : Ref sig .tc := ⟨.hbm, 87, rfl⟩
abbrev main_v53 : Ref sig .tc := ⟨.hbm, 88, rfl⟩
abbrev main_v54 : Ref sig .tc := ⟨.hbm, 89, rfl⟩
abbrev main_c_11 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_13 : Ref sig .tc := ⟨.hbm, 103, rfl⟩
abbrev main_v66 : Ref sig .tc := ⟨.hbm, 104, rfl⟩
abbrev main_v67 : Ref sig .tc := ⟨.hbm, 105, rfl⟩
abbrev main_c_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_16 : Ref sig .tc := ⟨.hbm, 119, rfl⟩
abbrev main_v79 : Ref sig .tc := ⟨.hbm, 120, rfl⟩
abbrev main_v80 : Ref sig .tc := ⟨.hbm, 121, rfl⟩
abbrev main_c_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_18 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_19 : Ref sig .tc := ⟨.hbm, 135, rfl⟩
abbrev main_v92 : Ref sig .tc := ⟨.hbm, 136, rfl⟩
abbrev main_v93 : Ref sig .tc := ⟨.hbm, 137, rfl⟩
abbrev main_c_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_21 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104_0 : Ref sig .tc := ⟨.hbm, 150, rfl⟩
abbrev main_v104_1 : Ref sig .tc := ⟨.hbm, 151, rfl⟩
abbrev main_cst_22 : Ref sig .tc := ⟨.hbm, 152, rfl⟩
abbrev main_v105 : Ref sig .tc := ⟨.hbm, 153, rfl⟩
abbrev main_v106_0 : Ref sig .tc := ⟨.hbm, 154, rfl⟩
abbrev main_v106_1 : Ref sig .tc := ⟨.hbm, 155, rfl⟩
abbrev main_cst_23 : Ref sig .tc := ⟨.hbm, 156, rfl⟩
abbrev main_v107 : Ref sig .tc := ⟨.hbm, 157, rfl⟩
abbrev main_v108 : Ref sig .tc := ⟨.hbm, 158, rfl⟩
abbrev main_cst_24 : Ref sig .tc := ⟨.hbm, 159, rfl⟩
abbrev main_v109 : Ref sig .tc := ⟨.hbm, 160, rfl⟩
abbrev main_v110 : Ref sig .tc := ⟨.hbm, 161, rfl⟩
abbrev main_cst_25 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_26 : Ref sig .tc := ⟨.hbm, 166, rfl⟩
abbrev main_v114 : Ref sig .tc := ⟨.hbm, 167, rfl⟩
abbrev main_v115 : Ref sig .tc := ⟨.hbm, 168, rfl⟩
abbrev main_cst_27 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg5_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem5_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem3_1 : DmaSem sig := 44
abbrev cc3_sem4_0 : DmaSem sig := 45
abbrev cc3_sem5_0 : DmaSem sig := 46
abbrev cc3_sem5_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x4x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S4x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4x1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S4x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4x1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  bcast_S_S80000x64 : S_.BroadcastsInDim S80000x64 (![] : Fin 0 → Fin S80000x64.rank)
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  reduces_S3000x64_S64 : S3000x64.Reduces [0] S64
  inb_S1x4x64_S1x1x64_0_0_0 : ∀ a, (![0, 0, 0] : Fin 3 → Nat) a + S1x1x64.size a ≤ S1x4x64.size a
  h_S1x1x64 : 0 < S1x1x64.numel
  shapeCasts_S1x1x64_S64 : S1x1x64.ShapeCasts S64
  shapeCasts_S64_S1x1x64 : S64.ShapeCasts S1x1x64
  inb_S1x4x64_S1x1x64_0_1_0 : ∀ a, (![0, 1, 0] : Fin 3 → Nat) a + S1x1x64.size a ≤ S1x4x64.size a
  inb_S1x4x64_S1x1x64_0_2_0 : ∀ a, (![0, 2, 0] : Fin 3 → Nat) a + S1x1x64.size a ≤ S1x4x64.size a
  inb_S1x4x64_S1x1x64_0_3_0 : ∀ a, (![0, 3, 0] : Fin 3 → Nat) a + S1x1x64.size a ≤ S1x4x64.size a
  reducesTo_S50x4x64_S4x64_d0 : S50x4x64.ReducesTo [0] S4x64
  h_S_ : 0 < S_.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  reduces_S2000x64_S64 : S2000x64.Reduces [0] S64
  reducesTo_S40x4x64_S4x64_d0 : S40x4x64.ReducesTo [0] S4x64
  bcast_S_S4x64 : S_.BroadcastsInDim S4x64 (![] : Fin 0 → Fin S4x64.rank)
  shapeCasts_S150000x64_S75000x128 : S150000x64.ShapeCasts S75000x128
  concatenates_S4x64_S4x64_S4x128_d1 : Shape.Concatenates [S4x64, S4x64] S4x128 1
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  slices_S4x128_o0_0_S1x128 : S4x128.Slices ![0, 0] S1x128
  shapeCasts_S1x128_S128 : S1x128.ShapeCasts S128
  shapeCasts_S128_S1x128 : S128.ShapeCasts S1x128
  broadcasts_S1x128_S1000x128 : S1x128.Broadcasts S1000x128
  inb_S4x1000x128_S1x1000x128_0_0_0 : ∀ a, (![0, 0, 0] : Fin 3 → Nat) a + S1x1000x128.size a ≤ S4x1000x128.size a
  h_S1x1000x128 : 0 < S1x1000x128.numel
  shapeCasts_S1x1000x128_S1000x128 : S1x1000x128.ShapeCasts S1000x128
  shapeCasts_S1000x128_S1x1000x128 : S1000x128.ShapeCasts S1x1000x128
  slices_S4x128_o1_0_S1x128 : S4x128.Slices ![1, 0] S1x128
  inb_S4x1000x128_S1x1000x128_1_0_0 : ∀ a, (![1, 0, 0] : Fin 3 → Nat) a + S1x1000x128.size a ≤ S4x1000x128.size a
  slices_S4x128_o2_0_S1x128 : S4x128.Slices ![2, 0] S1x128
  inb_S4x1000x128_S1x1000x128_2_0_0 : ∀ a, (![2, 0, 0] : Fin 3 → Nat) a + S1x1000x128.size a ≤ S4x1000x128.size a
  slices_S4x128_o3_0_S1x128 : S4x128.Slices ![3, 0] S1x128
  inb_S4x1000x128_S1x1000x128_3_0_0 : ∀ a, (![3, 0, 0] : Fin 3 → Nat) a + S1x1000x128.size a ≤ S4x1000x128.size a
  shapeCasts_S4x75000x128_S4x150000x64 : S4x75000x128.ShapeCasts S4x150000x64
  shapeCasts_S80000x64_S40000x128 : S80000x64.ShapeCasts S40000x128
  shapeCasts_S4x40000x128_S4x80000x64 : S4x40000x128.ShapeCasts S4x80000x64
  gather_S80000x64_S2000000x1_S2000000x64_1_0_n_n_0_1_164_wf : GatherDims.WF S80000x64 S2000000x1 S2000000x64 [1] [0] [] [0] [] 1 ![1, 64]
  scatter_S150000x64_S2000000x1_S2000000x64_1_0_0_1_wf : ScatterDims.WF S150000x64 S2000000x1 S2000000x64 [1] [0] [0] 1
  gather_S150000x64_S2000000x1_S2000000x64_1_0_n_n_0_1_164_wf : GatherDims.WF S150000x64 S2000000x1 S2000000x64 [1] [0] [] [0] [] 1 ![1, 64]
  scatter_S80000x64_S2000000x1_S2000000x64_1_0_0_1_wf : ScatterDims.WF S80000x64 S2000000x1 S2000000x64 [1] [0] [0] 1
  dot_S3000x64_S64x64_S3000x64_1_0_0_1_n_n_wf : DotDims.WF S3000x64 S64x64 S3000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S150000x64.size a
  hwx0_2 : ∀ i : grid0.Coords, EltTy.bits .f32 = 32 ∨ (Rect.block (s := S150000x64) S3000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x64.size a ≤ S150000x64.size a
  hwx0_3 : ∀ i : grid0.Coords, EltTy.bits .f32 = 32 ∨ (Rect.block (s := S150000x64) S3000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3000x64.size a ≤ S150000x64.size a
  hwx0_5 : ∀ i : grid0.Coords, EltTy.bits .f32 = 32 ∨ (Rect.block (s := S150000x64) S3000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x64.size a ≤ S50x4x64.size a
  hwx0_6 : ∀ i : grid0.Coords, EltTy.bits .f32 = 32 ∨ (Rect.block (s := S50x4x64) S1x4x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S80000x64.size a
  hwx1_0 : ∀ i : grid1.Coords, EltTy.bits .f32 = 32 ∨ (Rect.block (s := S80000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S80000x64.size a
  hwx1_1 : ∀ i : grid1.Coords, EltTy.bits .f32 = 32 ∨ (Rect.block (s := S80000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S80000x64.size a
  hwx1_2 : ∀ i : grid1.Coords, EltTy.bits .f32 = 32 ∨ (Rect.block (s := S80000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S80000x64.size a
  hwx1_3 : ∀ i : grid1.Coords, EltTy.bits .f32 = 32 ∨ (Rect.block (s := S80000x64) S2000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S80000x64.size a
  hwx1_5 : ∀ i : grid1.Coords, EltTy.bits .f32 = 32 ∨ (Rect.block (s := S80000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x4x64.size a ≤ S40x4x64.size a
  hwx1_6 : ∀ i : grid1.Coords, EltTy.bits .f32 = 32 ∨ (Rect.block (s := S40x4x64) S1x4x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S75000x128.size a
  hwx2_0 : ∀ i : grid2.Coords, EltTy.bits .f32 = 32 ∨ (Rect.block (s := S75000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S75000x128.size a
  hwx2_1 : ∀ i : grid2.Coords, EltTy.bits .f32 = 32 ∨ (Rect.block (s := S75000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S75000x128.size a
  hwx2_2 : ∀ i : grid2.Coords, EltTy.bits .f32 = 32 ∨ (Rect.block (s := S75000x128) S1000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S75000x128.size a
  hwx2_3 : ∀ i : grid2.Coords, EltTy.bits .f32 = 32 ∨ (Rect.block (s := S75000x128) S1000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x128.size a ≤ S4x128.size a
  hwx2_4 : ∀ i : grid2.Coords, EltTy.bits .f32 = 32 ∨ (Rect.block (s := S4x128) S4x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4x1000x128.size a ≤ S4x75000x128.size a
  hwx2_5 : ∀ i : grid2.Coords, EltTy.bits .f32 = 32 ∨ (Rect.block (s := S4x75000x128) S4x1000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S40000x128.size a
  hwx3_0 : ∀ i : grid3.Coords, EltTy.bits .f32 = 32 ∨ (Rect.block (s := S40000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S40000x128.size a
  hwx3_1 : ∀ i : grid3.Coords, EltTy.bits .f32 = 32 ∨ (Rect.block (s := S40000x128) S1000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S40000x128.size a
  hwx3_2 : ∀ i : grid3.Coords, EltTy.bits .f32 = 32 ∨ (Rect.block (s := S40000x128) S1000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S40000x128.size a
  hwx3_3 : ∀ i : grid3.Coords, EltTy.bits .f32 = 32 ∨ (Rect.block (s := S40000x128) S1000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S4x128.size a ≤ S4x128.size a
  hwx3_4 : ∀ i : grid3.Coords, EltTy.bits .f32 = 32 ∨ (Rect.block (s := S4x128) S4x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4x1000x128.size a ≤ S4x40000x128.size a
  hwx3_5 : ∀ i : grid3.Coords, EltTy.bits .f32 = 32 ∨ (Rect.block (s := S4x40000x128) S4x1000x128.size (cc3_transform_5 i) (hinb3_5 i)).WholeWords (EltTy.packing .f32)

variable [Facts₀]

def gather_S80000x64_S2000000x1_S2000000x64_1_0_n_n_0_1_164 : GatherDims S80000x64 S2000000x1 S2000000x64 where
  offsetDims := [1]
  collapsedSliceDims := [0]
  operandBatchingDims := []
  startIndicesBatchingDims := []
  startIndexMap := [0]
  indexVectorDim := 1
  sliceSizes := ![1, 64]
  wf := gather_S80000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S80000x64_S2000000x1_S2000000x64_1_0_0_1 : ScatterDims S80000x64 S2000000x1 S2000000x64 where
  updateWindowDims := [1]
  insertedWindowDims := [0]
  scatterDimsToOperandDims := [0]
  indexVectorDim := 1
  wf := scatter_S80000x64_S2000000x1_S2000000x64_1_0_0_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v12) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S3000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S3000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v104_0) S3000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v104_1) S1x4x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v64) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v90) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v103) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v106_0) S2000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v106_1) S1x4x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v118) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v119) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v120) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v121) S1000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v122) S4x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v123) S4x1000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v125) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v126) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v127) S1000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v128) S1000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v129) S4x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v130) S4x1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S150000x64 : Shape := ⟨2, ![150000, 64]⟩
abbrev S80000x64 : Shape := ⟨2, ![80000, 64]⟩
abbrev S64x64 : Shape := ⟨2, ![64, 64]⟩
abbrev S2000000 : Shape := ⟨1, ![2000000]⟩
abbrev S2000000x1 : Shape := ⟨2, ![2000000, 1]⟩
abbrev S_ : Shape := ⟨0, ![]⟩
abbrev S2000000x64 : Shape := ⟨2, ![2000000, 64]⟩
abbrev S1x150000x64 : Shape := ⟨3, ![1, 150000, 64]⟩
abbrev S4x150000x64 : Shape := ⟨3, ![4, 150000, 64]⟩
abbrev S1x80000x64 : Shape := ⟨3, ![1, 80000, 64]⟩
abbrev S4x80000x64 : Shape := ⟨3, ![4, 80000, 64]⟩
abbrev S4x64 : Shape := ⟨2, ![4, 64]⟩
abbrev S4x1x64 : Shape := ⟨3, ![4, 1, 64]⟩

abbrev nBuf : Space → Nat
  | .hbm => 208
  | .vmem => 0
  | .smem => 0
  | _ => 0

abbrev hbmTy0_0 (i : Nat) : BufTy := match i % 128 with
  | 0 => ⟨S150000x64, .f32⟩
  | 1 => ⟨S80000x64, .f32⟩
  | 2 => ⟨S150000x64, .f32⟩
  | 3 => ⟨S80000x64, .f32⟩
  | 4 => ⟨S150000x64, .f32⟩
  | 5 => ⟨S80000x64, .f32⟩
  | 6 => ⟨S150000x64, .f32⟩
  | 7 => ⟨S80000x64, .f32⟩
  | 8 => ⟨S64x64, .f32⟩
  | 9 => ⟨S64x64, .f32⟩
  | 10 => ⟨S2000000, .i32⟩
  | 11 => ⟨S2000000, .i32⟩
  | 12 => ⟨S2000000, .f32⟩
  | 13 => ⟨S2000000, .i32⟩
  | 14 => ⟨S2000000, .i32⟩
  | 15 => ⟨S2000000, .f32⟩
  | 16 => ⟨S2000000, .i32⟩
  | 17 => ⟨S2000000, .i32⟩
  | 18 => ⟨S2000000, .f32⟩
  | 19 => ⟨S2000000, .i32⟩
  | 20 => ⟨S2000000, .i32⟩
  | 21 => ⟨S2000000, .f32⟩
  | 22 => ⟨S2000000x1, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x64, .f32⟩
  | 32 => ⟨S2000000x64, .f32⟩
  | 33 => ⟨S2000000x64, .f32⟩
  | 34 => ⟨S_, .f32⟩
  | 35 => ⟨S150000x64, .f32⟩
  | 36 => ⟨S2000000x1, .i32⟩
  | 37 => ⟨S150000x64, .f32⟩
  | 38 => ⟨S2000000x1, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x64, .f32⟩
  | 48 => ⟨S2000000x64, .f32⟩
  | 49 => ⟨S2000000x64, .f32⟩
  | 50 => ⟨S_, .f32⟩
  | 51 => ⟨S150000x64, .f32⟩
  | 52 => ⟨S2000000x1, .i32⟩
  | 53 => ⟨S150000x64, .f32⟩
  | 54 => ⟨S2000000x1, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x64, .f32⟩
  | 64 => ⟨S2000000x64, .f32⟩
  | 65 => ⟨S2000000x64, .f32⟩
  | 66 => ⟨S_, .f32⟩
  | 67 => ⟨S150000x64, .f32⟩
  | 68 => ⟨S2000000x1, .i32⟩
  | 69 => ⟨S150000x64, .f32⟩
  | 70 => ⟨S2000000x1, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S2000000x64, .f32⟩
  | 81 => ⟨S2000000x64, .f32⟩
  | 82 => ⟨S_, .f32⟩
  | 83 => ⟨S150000x64, .f32⟩
  | 84 => ⟨S2000000x1, .i32⟩
  | 85 => ⟨S150000x64, .f32⟩
  | 86 => ⟨S2000000x1, .f32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S2000000x1, .i32⟩
  | 95 => ⟨S2000000x64, .f32⟩
  | 96 => ⟨S2000000x64, .f32⟩
  | 97 => ⟨S2000000x64, .f32⟩
  | 98 => ⟨S_, .f32⟩
  | 99 => ⟨S80000x64, .f32⟩
  | 100 => ⟨S2000000x1, .i32⟩
  | 101 => ⟨S80000x64, .f32⟩
  | 102 => ⟨S2000000x1, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S2000000x64, .f32⟩
  | 112 => ⟨S2000000x64, .f32⟩
  | 113 => ⟨S2000000x64, .f32⟩
  | 114 => ⟨S_, .f32⟩
  | 115 => ⟨S80000x64, .f32⟩
  | 116 => ⟨S2000000x1, .i32⟩
  | 117 => ⟨S80000x64, .f32⟩
  | 118 => ⟨S2000000x1, .f32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000x64, .f32⟩
  | _ => ⟨S150000x64, .f32⟩

abbrev hbmTy0_1 (i : Nat) : BufTy := match i % 128 with
  | 0 => ⟨S2000000x64, .f32⟩
  | 1 => ⟨S2000000x64, .f32⟩
  | 2 => ⟨S_, .f32⟩
  | 3 => ⟨S80000x64, .f32⟩
  | 4 => ⟨S2000000x1, .i32⟩
  | 5 => ⟨S80000x64, .f32⟩
  | 6 => ⟨S2000000x1, .f32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x64, .f32⟩
  | 16 => ⟨S2000000x64, .f32⟩
  | 17 => ⟨S2000000x64, .f32⟩
  | 18 => ⟨S_, .f32⟩
  | 19 => ⟨S80000x64, .f32⟩
  | 20 => ⟨S2000000x1, .i32⟩
  | 21 => ⟨S80000x64, .f32⟩
  | 22 => ⟨S1x150000x64, .f32⟩
  | 23 => ⟨S1x150000x64, .f32⟩
  | 24 => ⟨S1x150000x64, .f32⟩
  | 25 => ⟨S1x150000x64, .f32⟩
  | 26 => ⟨S4x150000x64, .f32⟩
  | 27 => ⟨S1x80000x64, .f32⟩
  | 28 => ⟨S1x80000x64, .f32⟩
  | 29 => ⟨S1x80000x64, .f32⟩
  | 30 => ⟨S1x80000x64, .f32⟩
  | 31 => ⟨S4x80000x64, .f32⟩
  | 32 => ⟨S_, .f32⟩
  | 33 => ⟨S150000x64, .f32⟩
  | 34 => ⟨S_, .f32⟩
  | 35 => ⟨S150000x64, .f32⟩
  | 36 => ⟨S150000x64, .f32⟩
  | 37 => ⟨S150000x64, .f32⟩
  | 38 => ⟨S150000x64, .f32⟩
  | 39 => ⟨S150000x64, .f32⟩
  | 40 => ⟨S_, .f32⟩
  | 41 => ⟨S150000x64, .f32⟩
  | 42 => ⟨S150000x64, .f32⟩
  | 43 => ⟨S_, .f32⟩
  | 44 => ⟨S150000x64, .f32⟩
  | 45 => ⟨S150000x64, .f32⟩
  | 46 => ⟨S_, .f32⟩
  | 47 => ⟨S80000x64, .f32⟩
  | 48 => ⟨S_, .f32⟩
  | 49 => ⟨S80000x64, .f32⟩
  | 50 => ⟨S80000x64, .f32⟩
  | 51 => ⟨S80000x64, .f32⟩
  | 52 => ⟨S80000x64, .f32⟩
  | 53 => ⟨S80000x64, .f32⟩
  | 54 => ⟨S_, .f32⟩
  | 55 => ⟨S80000x64, .f32⟩
  | 56 => ⟨S80000x64, .f32⟩
  | 57 => ⟨S_, .f32⟩
  | 58 => ⟨S80000x64, .f32⟩
  | 59 => ⟨S80000x64, .f32⟩
  | 60 => ⟨S4x150000x64, .f32⟩
  | 61 => ⟨S_, .f32⟩
  | 62 => ⟨S4x64, .f32⟩
  | 63 => ⟨S4x1x64, .f32⟩
  | 64 => ⟨S4x1x64, .f32⟩
  | 65 => ⟨S_, .f32⟩
  | 66 => ⟨S4x1x64, .f32⟩
  | 67 => ⟨S4x1x64, .f32⟩
  | 68 => ⟨S4x150000x64, .f32⟩
  | 69 => ⟨S4x150000x64, .f32⟩
  | 70 => ⟨S4x80000x64, .f32⟩
  | 71 => ⟨S_, .f32⟩
  | 72 => ⟨S4x64, .f32⟩
  | 73 => ⟨S4x1x64, .f32⟩
  | 74 => ⟨S4x1x64, .f32⟩
  | 75 => ⟨S_, .f32⟩
  | 76 => ⟨S4x1x64, .f32⟩
  | 77 => ⟨S4x1x64, .f32⟩
  | 78 => ⟨S4x80000x64, .f32⟩
  | 79 => ⟨S4x80000x64, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_7 : Ref sig .tc := ⟨.hbm, 71, rfl⟩
abbrev main_v40 : Ref sig .tc := ⟨.hbm, 72, rfl⟩
abbrev main_v41 : Ref sig .tc := ⟨.hbm, 73, rfl⟩
abbrev main_c_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_10 : Ref sig .tc := ⟨.hbm, 87, rfl⟩
abbrev main_v53 : Ref sig .tc := ⟨.hbm, 88, rfl⟩
abbrev main_v54 : Ref sig .tc := ⟨.hbm, 89, rfl⟩
abbrev main_c_11 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_13 : Ref sig .tc := ⟨.hbm, 103, rfl⟩
abbrev main_v66 : Ref sig .tc := ⟨.hbm, 104, rfl⟩
abbrev main_v67 : Ref sig .tc := ⟨.hbm, 105, rfl⟩
abbrev main_c_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_16 : Ref sig .tc := ⟨.hbm, 119, rfl⟩
abbrev main_v79 : Ref sig .tc := ⟨.hbm, 120, rfl⟩
abbrev main_v80 : Ref sig .tc := ⟨.hbm, 121, rfl⟩
abbrev main_c_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_18 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_19 : Ref sig .tc := ⟨.hbm, 135, rfl⟩
abbrev main_v92 : Ref sig .tc := ⟨.hbm, 136, rfl⟩
abbrev main_v93 : Ref sig .tc := ⟨.hbm, 137, rfl⟩
abbrev main_c_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_21 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_22 : Ref sig .tc := ⟨.hbm, 160, rfl⟩
abbrev main_v114 : Ref sig .tc := ⟨.hbm, 161, rfl⟩
abbrev main_cst_23 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_24 : Ref sig .tc := ⟨.hbm, 168, rfl⟩
abbrev main_v120 : Ref sig .tc := ⟨.hbm, 169, rfl⟩
abbrev main_v121 : Ref sig .tc := ⟨.hbm, 170, rfl⟩
abbrev main_cst_25 : Ref sig .tc := ⟨.hbm, 171, rfl⟩
abbrev main_v122 : Ref sig .tc := ⟨.hbm, 172, rfl⟩
abbrev main_v123 : Ref sig .tc := ⟨.hbm, 173, rfl⟩
abbrev main_cst_26 : Ref sig .tc := ⟨.hbm, 174, rfl⟩
abbrev main_v124 : Ref sig .tc := ⟨.hbm, 175, rfl⟩
abbrev main_cst_27 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_28 : Ref sig .tc := ⟨.hbm, 182, rfl⟩
abbrev main_v130 : Ref sig .tc := ⟨.hbm, 183, rfl⟩
abbrev main_v131 : Ref sig .tc := ⟨.hbm, 184, rfl⟩
abbrev main_cst_29 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_30 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_31 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_32 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_33 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  bcast_S_S80000x64 : S_.BroadcastsInDim S80000x64 (![] : Fin 0 → Fin S80000x64.rank)
  bcast_S150000x64_S1x150000x64_1_2 : S150000x64.BroadcastsInDim S1x150000x64 (![1, 2] : Fin 2 → Fin S1x150000x64.rank)
  concatenates_S1x150000x64_S1x150000x64_S1x150000x64_S1x150000x64_S4x150000x64_d0 : Shape.Concatenates [S1x150000x64, S1x150000x64, S1x150000x64, S1x150000x64] S4x150000x64 0
  bcast_S80000x64_S1x80000x64_1_2 : S80000x64.BroadcastsInDim S1x80000x64 (![1, 2] : Fin 2 → Fin S1x80000x64.rank)
  concatenates_S1x80000x64_S1x80000x64_S1x80000x64_S1x80000x64_S4x80000x64_d0 : Shape.Concatenates [S1x80000x64, S1x80000x64, S1x80000x64, S1x80000x64] S4x80000x64 0
  reducesTo_S4x150000x64_S150000x64_d0 : S4x150000x64.ReducesTo [0] S150000x64
  h_S_ : 0 < S_.numel
  reducesTo_S4x80000x64_S80000x64_d0 : S4x80000x64.ReducesTo [0] S80000x64
  reducesTo_S4x150000x64_S4x64_d1 : S4x150000x64.ReducesTo [1] S4x64
  bcast_S4x64_S4x1x64_0_2 : S4x64.BroadcastsInDim S4x1x64 (![0, 2] : Fin 2 → Fin S4x1x64.rank)
  bcast_S_S4x1x64 : S_.BroadcastsInDim S4x1x64 (![] : Fin 0 → Fin S4x1x64.rank)
  bcast_S4x1x64_S4x150000x64_0_1_2 : S4x1x64.BroadcastsInDim S4x150000x64 (![0, 1, 2] : Fin 3 → Fin S4x150000x64.rank)
  reducesTo_S4x80000x64_S4x64_d1 : S4x80000x64.ReducesTo [1] S4x64
  bcast_S4x1x64_S4x80000x64_0_1_2 : S4x1x64.BroadcastsInDim S4x80000x64 (![0, 1, 2] : Fin 3 → Fin S4x80000x64.rank)
  gather_S80000x64_S2000000x1_S2000000x64_1_0_n_n_0_1_164_wf : GatherDims.WF S80000x64 S2000000x1 S2000000x64 [1] [0] [] [0] [] 1 ![1, 64]
  scatter_S150000x64_S2000000x1_S2000000x64_1_0_0_1_wf : ScatterDims.WF S150000x64 S2000000x1 S2000000x64 [1] [0] [0] 1
  gather_S150000x64_S2000000x1_S2000000x64_1_0_n_n_0_1_164_wf : GatherDims.WF S150000x64 S2000000x1 S2000000x64 [1] [0] [] [0] [] 1 ![1, 64]
  scatter_S80000x64_S2000000x1_S2000000x64_1_0_0_1_wf : ScatterDims.WF S80000x64 S2000000x1 S2000000x64 [1] [0] [0] 1
  dot_S150000x64_S64x64_S150000x64_1_0_0_1_n_n_wf : DotDims.WF S150000x64 S64x64 S150000x64 [1] [0] [0] [1] [] []
  dot_S80000x64_S64x64_S80000x64_1_0_0_1_n_n_wf : DotDims.WF S80000x64 S64x64 S80000x64 [1] [0] [0] [1] [] []

variable [Facts₀]

def gather_S80000x64_S2000000x1_S2000000x64_1_0_n_n_0_1_164 : GatherDims S80000x64 S2000000x1 S2000000x64 where
  offsetDims := [1]
  collapsedSliceDims := [0]
  operandBatchingDims := []
  startIndicesBatchingDims := []
  startIndexMap := [0]
  indexVectorDim := 1
  sliceSizes := ![1, 64]
  wf := gather_S80000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S80000x64_S2000000x1_S2000000x64_1_0_0_1 : ScatterDims S80000x64 S2000000x1 S2000000x64 where
  updateWindowDims := [1]
  insertedWindowDims := [0]
  scatterDimsToOperandDims := [0]
  indexVectorDim := 1
  wf := scatter_S80000x64_S2000000x1_S2000000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf

class Facts : Prop extends Facts₀ where

variable [Facts]
-- ==== Proof.KernelRun.lean ====
/-
  The kernel program's run (at any instance of the float operations), with EVERY unscoped buffer named at the end.

  The program is four kernel launches among stretches of host operations.  Its generated frame follows the
  buffer contents from the launch memory through each stretch and each launch (`W0 … W9`), and concludes only
  that the argument arrays end as launched.  The same run gives more: in every final state each unscoped
  buffer `b` holds `W9 m ρ c b`, the last fold.  That stronger post is what the value proof reads the ten
  result arrays from.
-/
import proofs.«110750_j39402029973982_2_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each
    unscoped buffer of each core holds the last fold `W9` of the launch memory through the host stretches and
    the four launches. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelRun

end
-- ==== Proof.Spec.lean ====
/-
  The two quantities this certificate is about, as functions on the extended reals.

  Four relation tables `u 0 … u 3` of `n` rows and 64 features (the sparse aggregations of the four
  behaviours) and a 64 × 64 weight `w`:

  * `gate u w` — row `r`, feature `d`: the logistic function of `∑ₖ mean(r, k) · w(k, d)`, where
    `mean(r, k)` is the sum of the four tables at `(r, k)` divided by four;
  * `normed u` — relation `j`, row `r`, feature `d`: `u j (r, d)` divided by the norm of COLUMN `d` of
    table `j` (the square root of the sum over all rows of the squares), floored at `floor12`, the float
    nearest `1e-12` (the same word in both programs; only its sign is ever used).

  Both programs are shown to compute exactly these two functions of the same tables.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A table: `n` rows of 64 features. -/
abbrev Tab (n : Nat) := (⟨2, ![n, 64]⟩ : Shape).Idx → EReal
/-- A weight matrix. -/
abbrev Wgt := (⟨2, ![64, 64]⟩ : Shape).Idx → EReal
/-- Four tables stacked along a leading axis. -/
abbrev Stack (n : Nat) := (⟨3, ![4, n, 64]⟩ : Shape).Idx → EReal

/-- The divisor of the mean over the four relations: the float `4.0`. -/
def four : EReal := Ideal.ofBits .f32 0x40800000#32
/-- The floor under a column norm: the float nearest `1e-12`. -/
def floor12 : EReal := Ideal.ofBits .f32 0x2B8CBCCC#32

/-- The gated projection: the logistic function of ((the mean of the four tables) times the weight). -/
def gate {n : Nat} (u : Fin 4 → Tab n) (w : Wgt) : Tab n := fun i =>
  Ideal.logistic (∑ k : Fin 64, Ideal.div (∑ j : Fin 4, u j (ix2 (i 0) k)) four * w (ix2 k (i 1)))

/-- The floored norm of column `d` of table `j`. -/
def colNorm {n : Nat} (u : Fin 4 → Tab n) (j : Fin 4) (d : Fin 64) : EReal :=
  max (Ideal.sqrt (∑ r : Fin n, u j (ix2 r d) * u j (ix2 r d))) floor12

/-- Every table divided, entry by entry, by its column's floored norm. -/
def normed {n : Nat} (u : Fin 4 → Tab n) : Stack n := fun i =>
  Ideal.div (u (i 0) (ix2 (i 1) (i 2))) (colNorm u (i 0) (i 2))

/-- Table `j` of a stack. -/
def unstack {n : Nat} (X : Stack n) : Fin 4 → Tab n := fun j i => X (ix3 j (i 0) (i 1))

end Cert.Spec

end
-- ==== Proof.Chain.lean ====
/-
  The kernel program, over the extended reals, between its four launches: which buffer holds what at each boundary.

  The generated frame names the buffer contents at the ten boundaries of the program's nine segments (`W0` the launch memory,
  `W1` after the first host stretch, `W2` after the first launch, … `W9` at the return).  Two kinds of facts are
  read off that fold here:
  * a buffer that a stretch does not write and that is no output array of a launch holds across it what it held
    before (the `keep…` lemmas: the relation tables, the weights, each result after its last writer);
  * what a stretch does write is its operations' term of the contents it finds (the `val_…` lemmas: the sums of
    the partial sums of squares, the inverse norms, the tables paired two rows to a lane row, the scale doubled
    along the lanes, the results unpaired), and an output array of a launch is what the launch's proof data
    leave (`arrAt`).
-/
import proofs.«110750_j39402029973982_2_alg».proof.Proof.Gen.KernelIdeal.Frame
import proofs.«110750_j39402029973982_2_alg».proof.Proof.Spec
import Idealize.ShloMosaic.Lib.StableHlo.Run
import Idealize.ShloMosaic.Lib.ValueIdx

set_option maxRecDepth 16384

noncomputable section

namespace Cert.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A buffer no operation of a host stretch writes holds after the stretch what it held before. -/
macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- Table `main_v12` is an input of the first launch and is written by nothing after its own stretch: it reaches the third stretch as the first launch found it. -/
theorem keep4_main_v12 (c : Dev nD) : W4 m ρ c (Proc.devRef .tc main_v12) = W1 m ρ c (Proc.devRef .tc main_v12) :=
  calc W4 m ρ c (Proc.devRef .tc main_v12)
    _ = W3 m ρ c (Proc.devRef .tc main_v12) := W4_of_ne m ρ c main_v12 (by decide)
    _ = W2 m ρ c (Proc.devRef .tc main_v12) := by host_keeps hostOps1
    _ = W1 m ρ c (Proc.devRef .tc main_v12) := (W2_arr m ρ c 0).trans (((dat0 (V1 m ρ) c).arrAt_in 0 rfl _).trans (A_eq0 (V1 m ρ) c 0))

/-- Table `main_v25` is an input of the first launch and is written by nothing after its own stretch: it reaches the third stretch as the first launch found it. -/
theorem keep4_main_v25 (c : Dev nD) : W4 m ρ c (Proc.devRef .tc main_v25) = W1 m ρ c (Proc.devRef .tc main_v25) :=
  calc W4 m ρ c (Proc.devRef .tc main_v25)
    _ = W3 m ρ c (Proc.devRef .tc main_v25) := W4_of_ne m ρ c main_v25 (by decide)
    _ = W2 m ρ c (Proc.devRef .tc main_v25) := by host_keeps hostOps1
    _ = W1 m ρ c (Proc.devRef .tc main_v25) := (W2_arr m ρ c 1).trans (((dat0 (V1 m ρ) c).arrAt_in 1 rfl _).trans (A_eq0 (V1 m ρ) c 1))

/-- Table `main_v38` is an input of the first launch and is written by nothing after its own stretch: it reaches the third stretch as the first launch found it. -/
theorem keep4_main_v38 (c : Dev nD) : W4 m ρ c (Proc.devRef .tc main_v38) = W1 m ρ c (Proc.devRef .tc main_v38) :=
  calc W4 m ρ c (Proc.devRef .tc main_v38)
    _ = W3 m ρ c (Proc.devRef .tc main_v38) := W4_of_ne m ρ c main_v38 (by decide)
    _ = W2 m ρ c (Proc.devRef .tc main_v38) := by host_keeps hostOps1
    _ = W1 m ρ c (Proc.devRef .tc main_v38) := (W2_arr m ρ c 2).trans (((dat0 (V1 m ρ) c).arrAt_in 2 rfl _).trans (A_eq0 (V1 m ρ) c 2))

/-- Table `main_v51` is an input of the first launch and is written by nothing after its own stretch: it reaches the third stretch as the first launch found it. -/
theorem keep4_main_v51 (c : Dev nD) : W4 m ρ c (Proc.devRef .tc main_v51) = W1 m ρ c (Proc.devRef .tc main_v51) :=
  calc W4 m ρ c (Proc.devRef .tc main_v51)
    _ = W3 m ρ c (Proc.devRef .tc main_v51) := W4_of_ne m ρ c main_v51 (by decide)
    _ = W2 m ρ c (Proc.devRef .tc main_v51) := by host_keeps hostOps1
    _ = W1 m ρ c (Proc.devRef .tc main_v51) := (W2_arr m ρ c 3).trans (((dat0 (V1 m ρ) c).arrAt_in 3 rfl _).trans (A_eq0 (V1 m ρ) c 3))

/-- … and the return. -/
theorem keep9_main_v12 (c : Dev nD) : W9 m ρ c (Proc.devRef .tc main_v12) = W4 m ρ c (Proc.devRef .tc main_v12) :=
  calc W9 m ρ c (Proc.devRef .tc main_v12)
    _ = W8 m ρ c (Proc.devRef .tc main_v12) := by host_keeps hostOps4
    _ = W7 m ρ c (Proc.devRef .tc main_v12) := W8_of_ne m ρ c main_v12 (by decide)
    _ = W6 m ρ c (Proc.devRef .tc main_v12) := by host_keeps hostOps3
    _ = W5 m ρ c (Proc.devRef .tc main_v12) := W6_of_ne m ρ c main_v12 (by decide)
    _ = W4 m ρ c (Proc.devRef .tc main_v12) := by host_keeps hostOps2

/-- … and the return. -/
theorem keep9_main_v25 (c : Dev nD) : W9 m ρ c (Proc.devRef .tc main_v25) = W4 m ρ c (Proc.devRef .tc main_v25) :=
  calc W9 m ρ c (Proc.devRef .tc main_v25)
    _ = W8 m ρ c (Proc.devRef .tc main_v25) := by host_keeps hostOps4
    _ = W7 m ρ c (Proc.devRef .tc main_v25) := W8_of_ne m ρ c main_v25 (by decide)
    _ = W6 m ρ c (Proc.devRef .tc main_v25) := by host_keeps hostOps3
    _ = W5 m ρ c (Proc.devRef .tc main_v25) := W6_of_ne m ρ c main_v25 (by decide)
    _ = W4 m ρ c (Proc.devRef .tc main_v25) := by host_keeps hostOps2

/-- … and the return. -/
theorem keep9_main_v38 (c : Dev nD) : W9 m ρ c (Proc.devRef .tc main_v38) = W4 m ρ c (Proc.devRef .tc main_v38) :=
  calc W9 m ρ c (Proc.devRef .tc main_v38)
    _ = W8 m ρ c (Proc.devRef .tc main_v38) := by host_keeps hostOps4
    _ = W7 m ρ c (Proc.devRef .tc main_v38) := W8_of_ne m ρ c main_v38 (by decide)
    _ = W6 m ρ c (Proc.devRef .tc main_v38) := by host_keeps hostOps3
    _ = W5 m ρ c (Proc.devRef .tc main_v38) := W6_of_ne m ρ c main_v38 (by decide)
    _ = W4 m ρ c (Proc.devRef .tc main_v38) := by host_keeps hostOps2

/-- Table `main_v64` reaches the second launch as the first stretch left it. -/
theorem keep3_main_v64 (c : Dev nD) : W3 m ρ c (Proc.devRef .tc main_v64) = W1 m ρ c (Proc.devRef .tc main_v64) :=
  calc W3 m ρ c (Proc.devRef .tc main_v64)
    _ = W2 m ρ c (Proc.devRef .tc main_v64) := by host_keeps hostOps1
    _ = W1 m ρ c (Proc.devRef .tc main_v64) := W2_of_ne m ρ c main_v64 (by decide)

/-- … and the fourth stretch (an input of the second launch; nothing writes it). -/
theorem keep6_main_v64 (c : Dev nD) : W6 m ρ c (Proc.devRef .tc main_v64) = W3 m ρ c (Proc.devRef .tc main_v64) :=
  calc W6 m ρ c (Proc.devRef .tc main_v64)
    _ = W5 m ρ c (Proc.devRef .tc main_v64) := W6_of_ne m ρ c main_v64 (by decide)
    _ = W4 m ρ c (Proc.devRef .tc main_v64) := by host_keeps hostOps2
    _ = W3 m ρ c (Proc.devRef .tc main_v64) := (W4_arr m ρ c 0).trans (((dat1 (V3 m ρ) c).arrAt_in 0 rfl _).trans (A_eq1 (V3 m ρ) c 0))

/-- Table `main_v77` reaches the second launch as the first stretch left it. -/
theorem keep3_main_v77 (c : Dev nD) : W3 m ρ c (Proc.devRef .tc main_v77) = W1 m ρ c (Proc.devRef .tc main_v77) :=
  calc W3 m ρ c (Proc.devRef .tc main_v77)
    _ = W2 m ρ c (Proc.devRef .tc main_v77) := by host_keeps hostOps1
    _ = W1 m ρ c (Proc.devRef .tc main_v77) := W2_of_ne m ρ c main_v77 (by decide)

/-- … and the fourth stretch (an input of the second launch; nothing writes it). -/
theorem keep6_main_v77 (c : Dev nD) : W6 m ρ c (Proc.devRef .tc main_v77) = W3 m ρ c (Proc.devRef .tc main_v77) :=
  calc W6 m ρ c (Proc.devRef .tc main_v77)
    _ = W5 m ρ c (Proc.devRef .tc main_v77) := W6_of_ne m ρ c main_v77 (by decide)
    _ = W4 m ρ c (Proc.devRef .tc main_v77) := by host_keeps hostOps2
    _ = W3 m ρ c (Proc.devRef .tc main_v77) := (W4_arr m ρ c 1).trans (((dat1 (V3 m ρ) c).arrAt_in 1 rfl _).trans (A_eq1 (V3 m ρ) c 1))

/-- Table `main_v90` reaches the second launch as the first stretch left it. -/
theorem keep3_main_v90 (c : Dev nD) : W3 m ρ c (Proc.devRef .tc main_v90) = W1 m ρ c (Proc.devRef .tc main_v90) :=
  calc W3 m ρ c (Proc.devRef .tc main_v90)
    _ = W2 m ρ c (Proc.devRef .tc main_v90) := by host_keeps hostOps1
    _ = W1 m ρ c (Proc.devRef .tc main_v90) := W2_of_ne m ρ c main_v90 (by decide)

/-- … and the fourth stretch (an input of the second launch; nothing writes it). -/
theorem keep6_main_v90 (c : Dev nD) : W6 m ρ c (Proc.devRef .tc main_v90) = W3 m ρ c (Proc.devRef .tc main_v90) :=
  calc W6 m ρ c (Proc.devRef .tc main_v90)
    _ = W5 m ρ c (Proc.devRef .tc main_v90) := W6_of_ne m ρ c main_v90 (by decide)
    _ = W4 m ρ c (Proc.devRef .tc main_v90) := by host_keeps hostOps2
    _ = W3 m ρ c (Proc.devRef .tc main_v90) := (W4_arr m ρ c 2).trans (((dat1 (V3 m ρ) c).arrAt_in 2 rfl _).trans (A_eq1 (V3 m ρ) c 2))

/-- Table `main_v103` reaches the second launch as the first stretch left it. -/
theorem keep3_main_v103 (c : Dev nD) : W3 m ρ c (Proc.devRef .tc main_v103) = W1 m ρ c (Proc.devRef .tc main_v103) :=
  calc W3 m ρ c (Proc.devRef .tc main_v103)
    _ = W2 m ρ c (Proc.devRef .tc main_v103) := by host_keeps hostOps1
    _ = W1 m ρ c (Proc.devRef .tc main_v103) := W2_of_ne m ρ c main_v103 (by decide)

/-- … and the fourth stretch (an input of the second launch; nothing writes it). -/
theorem keep6_main_v103 (c : Dev nD) : W6 m ρ c (Proc.devRef .tc main_v103) = W3 m ρ c (Proc.devRef .tc main_v103) :=
  calc W6 m ρ c (Proc.devRef .tc main_v103)
    _ = W5 m ρ c (Proc.devRef .tc main_v103) := W6_of_ne m ρ c main_v103 (by decide)
    _ = W4 m ρ c (Proc.devRef .tc main_v103) := by host_keeps hostOps2
    _ = W3 m ρ c (Proc.devRef .tc main_v103) := (W4_arr m ρ c 3).trans (((dat1 (V3 m ρ) c).arrAt_in 3 rfl _).trans (A_eq1 (V3 m ρ) c 3))

/-- … and the return. -/
theorem keep9_main_v64 (c : Dev nD) : W9 m ρ c (Proc.devRef .tc main_v64) = W6 m ρ c (Proc.devRef .tc main_v64) :=
  calc W9 m ρ c (Proc.devRef .tc main_v64)
    _ = W8 m ρ c (Proc.devRef .tc main_v64) := by host_keeps hostOps4
    _ = W7 m ρ c (Proc.devRef .tc main_v64) := W8_of_ne m ρ c main_v64 (by decide)
    _ = W6 m ρ c (Proc.devRef .tc main_v64) := by host_keeps hostOps3

/-- … and the return. -/
theorem keep9_main_v77 (c : Dev nD) : W9 m ρ c (Proc.devRef .tc main_v77) = W6 m ρ c (Proc.devRef .tc main_v77) :=
  calc W9 m ρ c (Proc.devRef .tc main_v77)
    _ = W8 m ρ c (Proc.devRef .tc main_v77) := by host_keeps hostOps4
    _ = W7 m ρ c (Proc.devRef .tc main_v77) := W8_of_ne m ρ c main_v77 (by decide)
    _ = W6 m ρ c (Proc.devRef .tc main_v77) := by host_keeps hostOps3

/-- … and the return. -/
theorem keep9_main_v90 (c : Dev nD) : W9 m ρ c (Proc.devRef .tc main_v90) = W6 m ρ c (Proc.devRef .tc main_v90) :=
  calc W9 m ρ c (Proc.devRef .tc main_v90)
    _ = W8 m ρ c (Proc.devRef .tc main_v90) := by host_keeps hostOps4
    _ = W7 m ρ c (Proc.devRef .tc main_v90) := W8_of_ne m ρ c main_v90 (by decide)
    _ = W6 m ρ c (Proc.devRef .tc main_v90) := by host_keeps hostOps3

/-- The user weight is an argument: the first stretch does not write it. -/
theorem keep1_main_arg8 (c : Dev nD) : W1 m ρ c (Proc.devRef .tc main_arg8) = W0 m ρ c (Proc.devRef .tc main_arg8) :=
  calc W1 m ρ c (Proc.devRef .tc main_arg8)
    _ = W0 m ρ c (Proc.devRef .tc main_arg8) := by host_keeps hostOps0

/-- The item weight is an argument: nothing before the second launch writes it. -/
theorem keep3_main_arg9 (c : Dev nD) : W3 m ρ c (Proc.devRef .tc main_arg9) = W0 m ρ c (Proc.devRef .tc main_arg9) :=
  calc W3 m ρ c (Proc.devRef .tc main_arg9)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0

/-- The user gate is written by the first launch only. -/
theorem keep9_main_v104_0 (c : Dev nD) : W9 m ρ c (Proc.devRef .tc main_v104_0) = W2 m ρ c (Proc.devRef .tc main_v104_0) :=
  calc W9 m ρ c (Proc.devRef .tc main_v104_0)
    _ = W8 m ρ c (Proc.devRef .tc main_v104_0) := by host_keeps hostOps4
    _ = W7 m ρ c (Proc.devRef .tc main_v104_0) := W8_of_ne m ρ c main_v104_0 (by decide)
    _ = W6 m ρ c (Proc.devRef .tc main_v104_0) := by host_keeps hostOps3
    _ = W5 m ρ c (Proc.devRef .tc main_v104_0) := W6_of_ne m ρ c main_v104_0 (by decide)
    _ = W4 m ρ c (Proc.devRef .tc main_v104_0) := by host_keeps hostOps2
    _ = W3 m ρ c (Proc.devRef .tc main_v104_0) := W4_of_ne m ρ c main_v104_0 (by decide)
    _ = W2 m ρ c (Proc.devRef .tc main_v104_0) := by host_keeps hostOps1

/-- The item gate is written by the second launch only. -/
theorem keep9_main_v106_0 (c : Dev nD) : W9 m ρ c (Proc.devRef .tc main_v106_0) = W4 m ρ c (Proc.devRef .tc main_v106_0) :=
  calc W9 m ρ c (Proc.devRef .tc main_v106_0)
    _ = W8 m ρ c (Proc.devRef .tc main_v106_0) := by host_keeps hostOps4
    _ = W7 m ρ c (Proc.devRef .tc main_v106_0) := W8_of_ne m ρ c main_v106_0 (by decide)
    _ = W6 m ρ c (Proc.devRef .tc main_v106_0) := by host_keeps hostOps3
    _ = W5 m ρ c (Proc.devRef .tc main_v106_0) := W6_of_ne m ρ c main_v106_0 (by decide)
    _ = W4 m ρ c (Proc.devRef .tc main_v106_0) := by host_keeps hostOps2

/-- The users' sums of squares pass the second launch. -/
theorem keep4_main_v105 (c : Dev nD) : W4 m ρ c (Proc.devRef .tc main_v105) = W3 m ρ c (Proc.devRef .tc main_v105) :=
  calc W4 m ρ c (Proc.devRef .tc main_v105)
    _ = W3 m ρ c (Proc.devRef .tc main_v105) := W4_of_ne m ρ c main_v105 (by decide)

/-- The items' inverse norms pass the third launch. -/
theorem keep6_main_v117 (c : Dev nD) : W6 m ρ c (Proc.devRef .tc main_v117) = W5 m ρ c (Proc.devRef .tc main_v117) :=
  calc W6 m ρ c (Proc.devRef .tc main_v117)
    _ = W5 m ρ c (Proc.devRef .tc main_v117) := W6_of_ne m ρ c main_v117 (by decide)

/-- The normalized user tables are written by the fourth stretch only. -/
theorem keep9_main_v124 (c : Dev nD) : W9 m ρ c (Proc.devRef .tc main_v124) = W7 m ρ c (Proc.devRef .tc main_v124) :=
  calc W9 m ρ c (Proc.devRef .tc main_v124)
    _ = W8 m ρ c (Proc.devRef .tc main_v124) := by host_keeps hostOps4
    _ = W7 m ρ c (Proc.devRef .tc main_v124) := W8_of_ne m ρ c main_v124 (by decide)

/-! ## What each host stretch writes, from the contents it finds -/

/-- The reciprocal of the floored column norms, from the columns' sums of squares: `1 / max(sqrt ss, floor)`, entry by entry. -/
def invNorm (ss : FVec Ideal S4x64 .f32) : FVec Ideal S4x64 .f32 :=
  Host.divf (broadcastInDim S4x64 ![] bcast_S_S4x64 (constant (F := Ideal) S_ .f32 0x3F800000#32))
    (maximumf (Host.sqrt ss) (broadcastInDim S4x64 ![] bcast_S_S4x64 (constant (F := Ideal) S_ .f32 0x2B8CBCCC#32)))

theorem val_v104_1 (c : Dev nD) : W2 m ρ c (Proc.devRef .tc main_v104_1) = (dat0 (V1 m ρ) c).arrAt 6 cfg0.N := W2_arr m ρ c 6
theorem val_v106_1 (c : Dev nD) : W4 m ρ c (Proc.devRef .tc main_v106_1) = (dat1 (V3 m ρ) c).arrAt 6 cfg1.N := W4_arr m ρ c 6
theorem val_v104_0 (c : Dev nD) : W2 m ρ c (Proc.devRef .tc main_v104_0) = (dat0 (V1 m ρ) c).arrAt 5 cfg0.N := W2_arr m ρ c 5
theorem val_v106_0 (c : Dev nD) : W4 m ρ c (Proc.devRef .tc main_v106_0) = (dat1 (V3 m ρ) c).arrAt 5 cfg1.N := W4_arr m ρ c 5
theorem val_v123 (c : Dev nD) : W6 m ρ c (Proc.devRef .tc main_v123) = (dat2 (V5 m ρ) c).arrAt 5 cfg2.N := W6_arr m ρ c 5
theorem val_v130 (c : Dev nD) : W8 m ρ c (Proc.devRef .tc main_v130) = (dat3 (V7 m ρ) c).arrAt 5 cfg3.N := W8_arr m ρ c 5

/-- The users' sums of squares: the partial sums added over the fifty tiles. -/
theorem val_v105 (c : Dev nD) : W3 m ρ c (Proc.devRef .tc main_v105) = Host.reduceAdd (W2 m ρ c (Proc.devRef .tc main_v104_1)) (constant (F := Ideal) S_ .f32 0x00000000#32) reducesTo_S50x4x64_S4x64_d0 h_S_ := by
  show StableHlo.after hostOps1 (W2 m ρ c) _ = _
  dsimp only [hostOps1]
  after_results
  all_goals rfl

/-- The items' sums of squares: the partial sums added over the forty tiles. -/
theorem val_v107 (c : Dev nD) : W5 m ρ c (Proc.devRef .tc main_v107) = Host.reduceAdd (W4 m ρ c (Proc.devRef .tc main_v106_1)) (constant (F := Ideal) S_ .f32 0x00000000#32) reducesTo_S40x4x64_S4x64_d0 h_S_ := by
  show StableHlo.after hostOps2 (W4 m ρ c) _ = _
  dsimp only [hostOps2]
  after_results
  all_goals rfl

/-- The users' scale as the third launch finds it: the inverse norms, twice along the lanes. -/
theorem val_v122 (c : Dev nD) : W5 m ρ c (Proc.devRef .tc main_v122) = concatenate S4x128 1 [⟨S4x64, invNorm (W4 m ρ c (Proc.devRef .tc main_v105))⟩, ⟨S4x64, invNorm (W4 m ρ c (Proc.devRef .tc main_v105))⟩] concatenates_S4x64_S4x64_S4x128_d1 := by
  show StableHlo.after hostOps2 (W4 m ρ c) _ = _
  dsimp only [hostOps2]
  after_results
  all_goals rfl

/-- The items' inverse norms. -/
theorem val_v117 (c : Dev nD) : W5 m ρ c (Proc.devRef .tc main_v117) = invNorm (Host.reduceAdd (W4 m ρ c (Proc.devRef .tc main_v106_1)) (constant (F := Ideal) S_ .f32 0x00000000#32) reducesTo_S40x4x64_S4x64_d0 h_S_) := by
  show StableHlo.after hostOps2 (W4 m ρ c) _ = _
  dsimp only [hostOps2]
  after_results
  all_goals rfl

/-- The items' scale as the fourth launch finds it. -/
theorem val_v129 (c : Dev nD) : W7 m ρ c (Proc.devRef .tc main_v129) = concatenate S4x128 1 [⟨S4x64, W6 m ρ c (Proc.devRef .tc main_v117)⟩, ⟨S4x64, W6 m ρ c (Proc.devRef .tc main_v117)⟩] concatenates_S4x64_S4x64_S4x128_d1 := by
  show StableHlo.after hostOps3 (W6 m ρ c) _ = _
  dsimp only [hostOps3]
  after_results
  all_goals rfl

/-! The tables paired two rows to a 128-lane row, and the results unpaired. -/
theorem val_v118 (c : Dev nD) : W5 m ρ c (Proc.devRef .tc main_v118) = shapeCast S75000x128 (W4 m ρ c (Proc.devRef .tc main_v12)) shapeCasts_S150000x64_S75000x128 := by
  show StableHlo.after hostOps2 (W4 m ρ c) _ = _
  dsimp only [hostOps2]
  after_results
  all_goals rfl
theorem val_v119 (c : Dev nD) : W5 m ρ c (Proc.devRef .tc main_v119) = shapeCast S75000x128 (W4 m ρ c (Proc.devRef .tc main_v25)) shapeCasts_S150000x64_S75000x128 := by
  show StableHlo.after hostOps2 (W4 m ρ c) _ = _
  dsimp only [hostOps2]
  after_results
  all_goals rfl
theorem val_v120 (c : Dev nD) : W5 m ρ c (Proc.devRef .tc main_v120) = shapeCast S75000x128 (W4 m ρ c (Proc.devRef .tc main_v38)) shapeCasts_S150000x64_S75000x128 := by
  show StableHlo.after hostOps2 (W4 m ρ c) _ = _
  dsimp only [hostOps2]
  after_results
  all_goals rfl
theorem val_v121 (c : Dev nD) : W5 m ρ c (Proc.devRef .tc main_v121) = shapeCast S75000x128 (W4 m ρ c (Proc.devRef .tc main_v51)) shapeCasts_S150000x64_S75000x128 := by
  show StableHlo.after hostOps2 (W4 m ρ c) _ = _
  dsimp only [hostOps2]
  after_results
  all_goals rfl
theorem val_v125 (c : Dev nD) : W7 m ρ c (Proc.devRef .tc main_v125) = shapeCast S40000x128 (W6 m ρ c (Proc.devRef .tc main_v64)) shapeCasts_S80000x64_S40000x128 := by
  show StableHlo.after hostOps3 (W6 m ρ c) _ = _
  dsimp only [hostOps3]
  after_results
  all_goals rfl
theorem val_v126 (c : Dev nD) : W7 m ρ c (Proc.devRef .tc main_v126) = shapeCast S40000x128 (W6 m ρ c (Proc.devRef .tc main_v77)) shapeCasts_S80000x64_S40000x128 := by
  show StableHlo.after hostOps3 (W6 m ρ c) _ = _
  dsimp only [hostOps3]
  after_results
  all_goals rfl
theorem val_v127 (c : Dev nD) : W7 m ρ c (Proc.devRef .tc main_v127) = shapeCast S40000x128 (W6 m ρ c (Proc.devRef .tc main_v90)) shapeCasts_S80000x64_S40000x128 := by
  show StableHlo.after hostOps3 (W6 m ρ c) _ = _
  dsimp only [hostOps3]
  after_results
  all_goals rfl
theorem val_v128 (c : Dev nD) : W7 m ρ c (Proc.devRef .tc main_v128) = shapeCast S40000x128 (W6 m ρ c (Proc.devRef .tc main_v103)) shapeCasts_S80000x64_S40000x128 := by
  show StableHlo.after hostOps3 (W6 m ρ c) _ = _
  dsimp only [hostOps3]
  after_results
  all_goals rfl
theorem val_v124 (c : Dev nD) : W7 m ρ c (Proc.devRef .tc main_v124) = shapeCast S4x150000x64 (W6 m ρ c (Proc.devRef .tc main_v123)) shapeCasts_S4x75000x128_S4x150000x64 := by
  show StableHlo.after hostOps3 (W6 m ρ c) _ = _
  dsimp only [hostOps3]
  after_results
  all_goals rfl
theorem val_v131 (c : Dev nD) : W9 m ρ c (Proc.devRef .tc main_v131) = shapeCast S4x80000x64 (W8 m ρ c (Proc.devRef .tc main_v130)) shapeCasts_S4x40000x128_S4x80000x64 := by
  show StableHlo.after hostOps4 (W8 m ρ c) _ = _
  dsimp only [hostOps4]
  after_results
  all_goals rfl

end Cert.Chain
end
-- ==== Proof.FusedUser.lean ====
/-
  The fused kernel on the USER tables (the first launch): what its two output arrays hold after the launch, as
  whole-array functions of the arrays the launch finds.

  The launch walks fifty tiles of 3000 rows.  At tile `t` the body loads the tile of each of the four relation
  tables and the whole 64 × 64 weight, stores `logistic(((u0 + u1 + u2 + u3) · 0.25) · w)` — a block product into a zero
  accumulator — to tile `t` of the gate, and stores, for each relation, the lane sums over the tile's rows of the
  squares to row `t` of a [50, 4, 64] array of partial sums.  Each output block is written once, the blocks tile the
  arrays, so each array ends as ONE function of the inputs: `gateK` and `tileSq`.
-/
import proofs.«110750_j39402029973982_2_alg».proof.Proof.Gen.KernelIdeal.Frame
import proofs.«110750_j39402029973982_2_alg».proof.Proof.Spec
import Idealize.ShloMosaic.Lib.ValueIdx
import Idealize.ShloMosaic.Lib.ValueLayout
import Idealize.ShloMosaic.Lib.Pipeline.Value
import Idealize.ShloMosaic.Lib.Pipeline.CanonAppend
import Idealize.ShloMosaic.PureOps.Ideal.Laws

set_option maxRecDepth 16384

noncomputable section

namespace Cert.FusedUser

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- the contraction of the block product, re-indexed by the one contracted coordinate -/
theorem dot0_sum (L : S3000x64.Idx → EReal) (R : S64x64.Idx → EReal) (p : Fin 3000) (q : Fin 64) :
    (∑ k : dot_S3000x64_S64x64_S3000x64_1_0_0_1_n_n.contr.Idx, L (dot_S3000x64_S64x64_S3000x64_1_0_0_1_n_n.lhsIdx (ix2 p q) k) * R (dot_S3000x64_S64x64_S3000x64_1_0_0_1_n_n.rhsIdx (ix2 p q) k))
      = ∑ k : Fin 64, L (ix2 p k) * R (ix2 k q) := by
  rw [← Equiv.sum_comp (contrEquiv1 dot_S3000x64_S64x64_S3000x64_1_0_0_1_n_n 64 rfl rfl).symm]
  refine Finset.sum_congr rfl fun k _ => ?_
  have hl : dot_S3000x64_S64x64_S3000x64_1_0_0_1_n_n.lhsIdx (ix2 p q) ((contrEquiv1 dot_S3000x64_S64x64_S3000x64_1_0_0_1_n_n 64 rfl rfl).symm k) = ix2 p k := by
    funext a; apply Fin.ext
    match a with
    | ⟨0, _⟩ => rfl
    | ⟨1, _⟩ => exact contrEquiv1_symm_val dot_S3000x64_S64x64_S3000x64_1_0_0_1_n_n 64 rfl rfl k
  have hr : dot_S3000x64_S64x64_S3000x64_1_0_0_1_n_n.rhsIdx (ix2 p q) ((contrEquiv1 dot_S3000x64_S64x64_S3000x64_1_0_0_1_n_n 64 rfl rfl).symm k) = ix2 k q := by
    funext a; apply Fin.ext
    match a with
    | ⟨0, _⟩ => exact contrEquiv1_symm_val dot_S3000x64_S64x64_S3000x64_1_0_0_1_n_n 64 rfl rfl k
    | ⟨1, _⟩ => rfl
  rw [hl, hr]

theorem pay7_apply (x0 x1 x2 x3 : Vec Ideal S3000x64 .f32) (x4 : Vec Ideal S64x64 .f32) (p : Fin 3000) (q : Fin 64) :
    k0_pay7 x0 x1 x2 x3 x4 (ix2 p q) = Ideal.logistic (∑ k : Fin 64, ((x0 (ix2 p k) + x1 (ix2 p k) + x2 (ix2 p k) + x3 (ix2 p k)) * Ideal.ofBits .f32 0x3E800000#32) * x4 (ix2 k q)) := by
  unfold k0_pay7 k0_pay3 k0_pay4 k0_pay5 k0_pay6
  show Ideal.logistic (FloatOps.matmul (F := Ideal) _ _ _ _ (constant (F := Ideal) S3000x64 .f32 0x00000000#32) (ix2 p q)) = _
  rw [Ideal.matmul_constant_zero_apply, dot0_sum]
  simp only [shapeCast_self, truncf_apply, mulf_apply, addf_apply, broadcast_apply]
  rfl

/-- A lane reduction over the rows of a tile, at feature `d`: the sum over the tile's rows. -/
theorem lane_sum (src : FVec Ideal S3000x64 .f32) (hφ : FKind.Formats .f32) (hacc : (0x00000000#32 : BitVec 32) = 0x00000000#32) (d : Fin 64) :
    multiReduction .add [0] S64 src 0x00000000#32 reduces_S3000x64_S64 hφ hacc (ix1 d) = ∑ r : Fin 3000, src (ix2 r d) :=
  (Ideal.multiReduction_add_single src 0x00000000#32 reduces_S3000x64_S64 hφ hacc (ix1 d)).trans (Finset.sum_congr rfl fun r _ => congrArg src (funext fun c => Fin.ext (by
    match c with
    | ⟨0, _⟩ => rfl
    | ⟨1, _⟩ => rfl)))

/-- One relation's per-tile sums of squares, stored as a [1,1,64] row. -/
theorem sq_apply (x : Vec Ideal S3000x64 .f32) (a b : Fin 1) (d : Fin 64) :
    k0_pay8 x (ix3 a b d) = ∑ r : Fin 3000, x (ix2 r d) * x (ix2 r d) := by
  unfold k0_pay8 k0_pay3
  simp only [shapeCast_self]
  rw [shapeCast_apply _ _ (ix3 a b d) (ix1 d) (by rw [Shape.rowMajor_val_one, Shape.rowMajor_val_three]; show d.val = (a.val * 1 + b.val) * 64 + d.val; omega)]
  exact lane_sum _ _ _ d

/-! ## The three other spellings of a tile's sums of squares (one per relation) -/

theorem sq_apply1 (x : Vec Ideal S3000x64 .f32) (a b : Fin 1) (d : Fin 64) :
    k0_pay9 x (ix3 a b d) = ∑ r : Fin 3000, x (ix2 r d) * x (ix2 r d) := by
  unfold k0_pay9 k0_pay4
  simp only [shapeCast_self]
  rw [shapeCast_apply _ _ (ix3 a b d) (ix1 d) (by rw [Shape.rowMajor_val_one, Shape.rowMajor_val_three]; show d.val = (a.val * 1 + b.val) * 64 + d.val; omega)]
  exact lane_sum _ _ _ d

theorem sq_apply2 (x : Vec Ideal S3000x64 .f32) (a b : Fin 1) (d : Fin 64) :
    k0_pay1 (k0_pay10 x) (ix3 a b d) = ∑ r : Fin 3000, x (ix2 r d) * x (ix2 r d) := by
  unfold k0_pay1 k0_pay10 k0_pay5
  simp only [shapeCast_self]
  rw [shapeCast_apply _ _ (ix3 a b d) (ix1 d) (by rw [Shape.rowMajor_val_one, Shape.rowMajor_val_three]; show d.val = (a.val * 1 + b.val) * 64 + d.val; omega)]
  exact lane_sum _ _ _ d

theorem sq_apply3 (x : Vec Ideal S3000x64 .f32) (a b : Fin 1) (d : Fin 64) :
    k0_pay2 (k0_pay6 x) (ix3 a b d) = ∑ r : Fin 3000, x (ix2 r d) * x (ix2 r d) := by
  unfold k0_pay2 k0_pay6
  simp only [shapeCast_self]
  rw [shapeCast_apply _ _ (ix3 a b d) (ix1 d) (by rw [Shape.rowMajor_val_one, Shape.rowMajor_val_three]; show d.val = (a.val * 1 + b.val) * 64 + d.val; omega)]
  exact lane_sum _ _ _ d

/-! ## The region at its entry contents `V` -/

variable (V : (c : Dev nD) → (b : Ref sig .tc) → Buf (Elt Ideal) ((c : Thread nD τ).loc b))

theorem hz2 : (![0, 0] : Fin 2 → Nat) = fun _ => 0 := funext fun a => by fin_cases a <;> rfl

/-- The gate in the kernel's spelling: the four tables added left to right, times the float `0.25`, times the weight,
    under the logistic function. -/
def gateK (a0 a1 a2 a3 : S150000x64.Idx → EReal) (w : S64x64.Idx → EReal) : S150000x64.Idx → EReal := fun i =>
  Ideal.logistic (∑ k : Fin 64, ((a0 (ix2 (i 0) k) + a1 (ix2 (i 0) k) + a2 (ix2 (i 0) k) + a3 (ix2 (i 0) k)) * Ideal.ofBits .f32 0x3E800000#32) * w (ix2 k (i 1)))

/-- Row `r` of tile `t`. -/
def rowOf (t : Fin 50) (r : Fin 3000) : Fin 150000 := ⟨t.val * 3000 + r.val, by have := t.isLt; have := r.isLt; omega⟩

/-- Per tile, relation and feature: the sum over the tile's rows of the squares. -/
def tileSq (A : Fin 4 → S150000x64.Idx → EReal) : S50x4x64.Idx → EReal := fun i =>
  ∑ r : Fin 3000, A (i 1) (ix2 (rowOf (i 0) r) (i 2)) * A (i 1) (ix2 (rowOf (i 0) r) (i 2))

/-- The printed index maps over the grid: point `t` takes tile `t` of each table, the whole weight, and writes tile `t`
    of the gate and row `t` of the partial sums. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem gate_block (x0 x1 x2 x3 : Vec Ideal S3000x64 .f32) (x4 : Vec Ideal S64x64 .f32)
    (a0 a1 a2 a3 : S150000x64.Idx → EReal) (w : S64x64.Idx → EReal) (y : S3000x64.Idx) (e : S150000x64.Idx)
    (p : Fin 3000) (q : Fin 64) (P : Fin 150000) (hy : y = ix2 p q) (he : e = ix2 P q)
    (h0 : ∀ k : Fin 64, x0 (ix2 p k) = a0 (ix2 P k)) (h1 : ∀ k : Fin 64, x1 (ix2 p k) = a1 (ix2 P k))
    (h2 : ∀ k : Fin 64, x2 (ix2 p k) = a2 (ix2 P k)) (h3 : ∀ k : Fin 64, x3 (ix2 p k) = a3 (ix2 P k)) (hw : x4 = w) :
    k0_pay7 x0 x1 x2 x3 x4 y = gateK a0 a1 a2 a3 w e := by
  subst hy he hw
  rw [pay7_apply]
  show _ = Ideal.logistic (∑ k : Fin 64, ((a0 (ix2 P k) + a1 (ix2 P k) + a2 (ix2 P k) + a3 (ix2 P k)) * Ideal.ofBits .f32 0x3E800000#32) * x4 (ix2 k q))
  simp only [h0, h1, h2, h3]

/-- WHAT POINT `t` WRITES BACK to the gate's array is tile `t` of the gate of the four tables and the weight as the
    region finds them. -/
theorem flushed5_eq (c : Dev nD) (t : Fin cfg0.N) :
    (dat0 V c).flushed 5 t = ((cfg0.win 5).blk t).view.read (Elt Ideal)
      (gateK (V c main_v12) (V c main_v25) (V c main_v38) (V c main_v51) (V c main_arg8)) := by
  show (cfg0.win 5).cut (grid0.coords t) ((dat0 V c).after 5 t) = _
  rw [after0_5]
  unfold out0_5
  rw [View.canon_unit_zero hz2]
  simp only [View.ld_unit_zero (S := S3000x64) hz2, View.ld_unit_zero (S := S64x64) hz2]
  obtain ⟨e00, e01, e10, e11, e20, e21, e30, e31, e40, e41, e50, e51, e60, e61, e62⟩ := idx_facts0 t
  have ht : t.val < 50 := lt_of_lt_of_eq t.isLt N_0
  funext j
  have hj0 : (j 0).val < 3000 := (j 0).isLt
  have hj1 : (j 1).val < 64 := (j 1).isLt
  show k0_pay7 (iblk0 V c 0 t) (iblk0 V c 1 t) (iblk0 V c 2 t) (iblk0 V c 3 t) (iblk0 V c 4 t) j
    = gateK (V c main_v12) (V c main_v25) (V c main_v38) (V c main_v51) (V c main_arg8) (((cfg0.win 5).blk t).view.emb j)
  refine gate_block _ _ _ _ _ _ _ _ _ _ j _ (j 0) (j 1) ⟨t.val * 3000 + (j 0).val, by omega⟩ (eq_ix2 j) ?_ (fun k => ?_) (fun k => ?_) (fun k => ?_) (fun k => ?_) ?_
  · funext a; apply Fin.ext
    match a with
    | ⟨0, _⟩ => show win0_5.index t (0 : Fin 2) * 3000 + 1 * (j 0).val = t.val * 3000 + (j 0).val; omega
    | ⟨1, _⟩ => show win0_5.index t (1 : Fin 2) * 64 + 1 * (j 1).val = (j 1).val; omega
  · show V c main_v12 (((cfg0.win 0).blk t).view.emb (ix2 (j 0) k)) = V c main_v12 _
    refine congrArg _ (funext fun a => Fin.ext ?_)
    match a with
    | ⟨0, _⟩ => show win0_0.index t (0 : Fin 2) * 3000 + 1 * (j 0).val = t.val * 3000 + (j 0).val; omega
    | ⟨1, _⟩ => show win0_0.index t (1 : Fin 2) * 64 + 1 * k.val = k.val; omega
  · show V c main_v25 (((cfg0.win 1).blk t).view.emb (ix2 (j 0) k)) = V c main_v25 _
    refine congrArg _ (funext fun a => Fin.ext ?_)
    match a with
    | ⟨0, _⟩ => show win0_1.index t (0 : Fin 2) * 3000 + 1 * (j 0).val = t.val * 3000 + (j 0).val; omega
    | ⟨1, _⟩ => show win0_1.index t (1 : Fin 2) * 64 + 1 * k.val = k.val; omega
  · show V c main_v38 (((cfg0.win 2).blk t).view.emb (ix2 (j 0) k)) = V c main_v38 _
    refine congrArg _ (funext fun a => Fin.ext ?_)
    match a with
    | ⟨0, _⟩ => show win0_2.index t (0 : Fin 2) * 3000 + 1 * (j 0).val = t.val * 3000 + (j 0).val; omega
    | ⟨1, _⟩ => show win0_2.index t (1 : Fin 2) * 64 + 1 * k.val = k.val; omega
  · show V c main_v51 (((cfg0.win 3).blk t).view.emb (ix2 (j 0) k)) = V c main_v51 _
    refine congrArg _ (funext fun a => Fin.ext ?_)
    match a with
    | ⟨0, _⟩ => show win0_3.index t (0 : Fin 2) * 3000 + 1 * (j 0).val = t.val * 3000 + (j 0).val; omega
    | ⟨1, _⟩ => show win0_3.index t (1 : Fin 2) * 64 + 1 * k.val = k.val; omega
  · funext y
    show V c main_arg8 (((cfg0.win 4).blk t).view.emb y) = V c main_arg8 y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega

/-- An index of the gate's array is in point `t`'s block iff each coordinate is in the block's range on its axis. -/
theorem mem_blk5 (t : Fin cfg0.N) (i : S150000x64.Idx) :
    i ∈ ((cfg0.win 5).blk t).view.set ↔ ∀ a : Fin 2, win0_5.index t a * S3000x64.size a ≤ (i a).val ∧ (i a).val < win0_5.index t a * S3000x64.size a + S3000x64.size a := by
  show i ∈ ((View.whole main_v104_0).slice (win0_5.rect t)).set ↔ _
  rw [View.set_slice_whole, Rect.mem_set_unit]
  exact Iff.rfl

/-- The fifty tiles fill the array: row `r` is in tile `r / 3000`. -/
theorem cover5 (i : S150000x64.Idx) : ∃ t : Fin cfg0.N, (cfg0.win 5).flush t = true ∧ i ∈ ((cfg0.win 5).blk t).view.set := by
  have hi0 : (i 0).val < 150000 := (i 0).isLt
  have hi1 : (i 1).val < 64 := (i 1).isLt
  obtain ⟨t, ht⟩ : ∃ t : Fin cfg0.N, t.val = (i 0).val / 3000 := ⟨⟨(i 0).val / 3000, by rw [show cfg0.N = 50 from N_0]; omega⟩, rfl⟩
  obtain ⟨e00, e01, e10, e11, e20, e21, e30, e31, e40, e41, e50, e51, e60, e61, e62⟩ := idx_facts0 t
  refine ⟨t, flush0_5 t, ?_⟩
  rw [mem_blk5]
  intro a
  match a with
  | ⟨0, _⟩ => show win0_5.index t (0 : Fin 2) * 3000 ≤ (i 0).val ∧ (i 0).val < win0_5.index t (0 : Fin 2) * 3000 + 3000; omega
  | ⟨1, _⟩ => show win0_5.index t (1 : Fin 2) * 64 ≤ (i 1).val ∧ (i 1).val < win0_5.index t (1 : Fin 2) * 64 + 64; omega

/-- THE GATE'S ARRAY after the region: the gate of the four tables and the weight as the region finds them. -/
theorem arr5 (c : Dev nD) : (dat0 V c).arrAt 5 cfg0.N = gateK (V c main_v12) (V c main_v25) (V c main_v38) (V c main_v51) (V c main_arg8) :=
  (dat0 V c).arrAt_eq_of_cover 5 _ (fun t _ => flushed5_eq V c t) cover5

/-! ## The partial sums of squares (output window 6) -/

/-- One stored row of the partial sums against the whole-array function: relation `k`'s row of tile `T`. -/
theorem sq_block (pay : Vec Ideal S1x1x64 .f32) (xk : Vec Ideal S3000x64 .f32) (A : Fin 4 → S150000x64.Idx → EReal)
    (k : Fin 4) (T : Fin 50) (x : S1x1x64.Idx) (e : S50x4x64.Idx) (d : Fin 64)
    (hpay : ∀ (a b : Fin 1) (d : Fin 64), pay (ix3 a b d) = ∑ r : Fin 3000, xk (ix2 r d) * xk (ix2 r d))
    (hx : x = ix3 0 0 d) (he : e = ix3 T k d) (hblk : ∀ r : Fin 3000, xk (ix2 r d) = A k (ix2 (rowOf T r) d)) :
    pay x = tileSq A e := by
  subst hx he
  rw [hpay]
  show _ = ∑ r : Fin 3000, A k (ix2 (rowOf T r) d) * A k (ix2 (rowOf T r) d)
  simp only [hblk]

/-- WHAT POINT `t` WRITES BACK to the partial sums is row `t` of `tileSq` of the four tables: four stores, one row per
    relation, each the lane sums of that relation's tile squared. -/
theorem flushed6_eq (c : Dev nD) (t : Fin cfg0.N) :
    (dat0 V c).flushed 6 t = ((cfg0.win 6).blk t).view.read (Elt Ideal)
      (tileSq ![V c main_v12, V c main_v25, V c main_v38, V c main_v51]) := by
  show (cfg0.win 6).cut (grid0.coords t) ((dat0 V c).after 6 t) = _
  rw [after0_6]
  unfold out0_6
  simp only [View.ld_unit_zero (S := S3000x64) hz2]
  obtain ⟨e00, e01, e10, e11, e20, e21, e30, e31, e40, e41, e50, e51, e60, e61, e62⟩ := idx_facts0 t
  have ht : t.val < 50 := lt_of_lt_of_eq t.isLt N_0
  funext j
  refine View.canon_append_of_pieces (Val := Elt Ideal) (e := .f32) (fun y => tileSq ![V c main_v12, V c main_v25, V c main_v38, V c main_v51] (((cfg0.win 6).blk t).view.emb y)) [] _ ?_ j (cover0_6 _ _ _ _ j)
  intro p hp
  simp only [List.mem_cons, List.mem_nil_iff, or_false] at hp
  rcases hp with rfl | rfl | rfl | rfl
  · intro x
    have hx0 : (x 0).val < 1 := (x 0).isLt
    have hx1 : (x 1).val < 1 := (x 1).isLt
    have hx2 : (x 2).val < 64 := (x 2).isLt
    refine sq_block _ (iblk0 V c 3 t) _ 3 ⟨t.val, ht⟩ x _ (x 2) (sq_apply3 _) ?_ ?_ (fun r => ?_)
    · funext a; apply Fin.ext
      match a with
      | ⟨0, _⟩ => show (x 0).val = 0; omega
      | ⟨1, _⟩ => show (x 1).val = 0; omega
      | ⟨2, _⟩ => rfl
    · funext a; apply Fin.ext
      match a with
      | ⟨0, _⟩ => show win0_6.index t (0 : Fin 3) * 1 + 1 * (0 + 1 * (x 0).val) = t.val; omega
      | ⟨1, _⟩ => show win0_6.index t (1 : Fin 3) * 4 + 1 * (3 + 1 * (x 1).val) = 3; omega
      | ⟨2, _⟩ => show win0_6.index t (2 : Fin 3) * 64 + 1 * (0 + 1 * (x 2).val) = (x 2).val; omega
    · show V c main_v51 (((cfg0.win 3).blk t).view.emb (ix2 r (x 2))) = V c main_v51 _
      refine congrArg _ (funext fun a => Fin.ext ?_)
      match a with
      | ⟨0, _⟩ => show win0_3.index t (0 : Fin 2) * 3000 + 1 * r.val = t.val * 3000 + r.val; omega
      | ⟨1, _⟩ => show win0_3.index t (1 : Fin 2) * 64 + 1 * (x 2).val = (x 2).val; omega
  · intro x
    have hx0 : (x 0).val < 1 := (x 0).isLt
    have hx1 : (x 1).val < 1 := (x 1).isLt
    have hx2 : (x 2).val < 64 := (x 2).isLt
    refine sq_block _ (iblk0 V c 2 t) _ 2 ⟨t.val, ht⟩ x _ (x 2) (sq_apply2 _) ?_ ?_ (fun r => ?_)
    · funext a; apply Fin.ext
      match a with
      | ⟨0, _⟩ => show (x 0).val = 0; omega
      | ⟨1, _⟩ => show (x 1).val = 0; omega
      | ⟨2, _⟩ => rfl
    · funext a; apply Fin.ext
      match a with
      | ⟨0, _⟩ => show win0_6.index t (0 : Fin 3) * 1 + 1 * (0 + 1 * (x 0).val) = t.val; omega
      | ⟨1, _⟩ => show win0_6.index t (1 : Fin 3) * 4 + 1 * (2 + 1 * (x 1).val) = 2; omega
      | ⟨2, _⟩ => show win0_6.index t (2 : Fin 3) * 64 + 1 * (0 + 1 * (x 2).val) = (x 2).val; omega
    · show V c main_v38 (((cfg0.win 2).blk t).view.emb (ix2 r (x 2))) = V c main_v38 _
      refine congrArg _ (funext fun a => Fin.ext ?_)
      match a with
      | ⟨0, _⟩ => show win0_2.index t (0 : Fin 2) * 3000 + 1 * r.val = t.val * 3000 + r.val; omega
      | ⟨1, _⟩ => show win0_2.index t (1 : Fin 2) * 64 + 1 * (x 2).val = (x 2).val; omega
  · intro x
    have hx0 : (x 0).val < 1 := (x 0).isLt
    have hx1 : (x 1).val < 1 := (x 1).isLt
    have hx2 : (x 2).val < 64 := (x 2).isLt
    refine sq_block _ (iblk0 V c 1 t) _ 1 ⟨t.val, ht⟩ x _ (x 2) (sq_apply1 _) ?_ ?_ (fun r => ?_)
    · funext a; apply Fin.ext
      match a with
      | ⟨0, _⟩ => show (x 0).val = 0; omega
      | ⟨1, _⟩ => show (x 1).val = 0; omega
      | ⟨2, _⟩ => rfl
    · funext a; apply Fin.ext
      match a with
      | ⟨0, _⟩ => show win0_6.index t (0 : Fin 3) * 1 + 1 * (0 + 1 * (x 0).val) = t.val; omega
      | ⟨1, _⟩ => show win0_6.index t (1 : Fin 3) * 4 + 1 * (1 + 1 * (x 1).val) = 1; omega
      | ⟨2, _⟩ => show win0_6.index t (2 : Fin 3) * 64 + 1 * (0 + 1 * (x 2).val) = (x 2).val; omega
    · show V c main_v25 (((cfg0.win 1).blk t).view.emb (ix2 r (x 2))) = V c main_v25 _
      refine congrArg _ (funext fun a => Fin.ext ?_)
      match a with
      | ⟨0, _⟩ => show win0_1.index t (0 : Fin 2) * 3000 + 1 * r.val = t.val * 3000 + r.val; omega
      | ⟨1, _⟩ => show win0_1.index t (1 : Fin 2) * 64 + 1 * (x 2).val = (x 2).val; omega
  · intro x
    have hx0 : (x 0).val < 1 := (x 0).isLt
    have hx1 : (x 1).val < 1 := (x 1).isLt
    have hx2 : (x 2).val < 64 := (x 2).isLt
    refine sq_block _ (iblk0 V c 0 t) _ 0 ⟨t.val, ht⟩ x _ (x 2) (sq_apply _) ?_ ?_ (fun r => ?_)
    · funext a; apply Fin.ext
      match a with
      | ⟨0, _⟩ => show (x 0).val = 0; omega
      | ⟨1, _⟩ => show (x 1).val = 0; omega
      | ⟨2, _⟩ => rfl
    · funext a; apply Fin.ext
      match a with
      | ⟨0, _⟩ => show win0_6.index t (0 : Fin 3) * 1 + 1 * (0 + 1 * (x 0).val) = t.val; omega
      | ⟨1, _⟩ => show win0_6.index t (1 : Fin 3) * 4 + 1 * (0 + 1 * (x 1).val) = 0; omega
      | ⟨2, _⟩ => show win0_6.index t (2 : Fin 3) * 64 + 1 * (0 + 1 * (x 2).val) = (x 2).val; omega
    · show V c main_v12 (((cfg0.win 0).blk t).view.emb (ix2 r (x 2))) = V c main_v12 _
      refine congrArg _ (funext fun a => Fin.ext ?_)
      match a with
      | ⟨0, _⟩ => show win0_0.index t (0 : Fin 2) * 3000 + 1 * r.val = t.val * 3000 + r.val; omega
      | ⟨1, _⟩ => show win0_0.index t (1 : Fin 2) * 64 + 1 * (x 2).val = (x 2).val; omega

/-- An index of the partial sums' array is in point `t`'s block iff each coordinate is in the block's range. -/
theorem mem_blk6 (t : Fin cfg0.N) (i : S50x4x64.Idx) :
    i ∈ ((cfg0.win 6).blk t).view.set ↔ ∀ a : Fin 3, win0_6.index t a * S1x4x64.size a ≤ (i a).val ∧ (i a).val < win0_6.index t a * S1x4x64.size a + S1x4x64.size a := by
  show i ∈ ((View.whole main_v104_1).slice (win0_6.rect t)).set ↔ _
  rw [View.set_slice_whole, Rect.mem_set_unit]
  exact Iff.rfl

/-- Row `t` of the partial sums is point `t`'s. -/
theorem cover6 (i : S50x4x64.Idx) : ∃ t : Fin cfg0.N, (cfg0.win 6).flush t = true ∧ i ∈ ((cfg0.win 6).blk t).view.set := by
  have hi0 : (i 0).val < 50 := (i 0).isLt
  have hi1 : (i 1).val < 4 := (i 1).isLt
  have hi2 : (i 2).val < 64 := (i 2).isLt
  obtain ⟨t, ht⟩ : ∃ t : Fin cfg0.N, t.val = (i 0).val := ⟨⟨(i 0).val, by rw [show cfg0.N = 50 from N_0]; omega⟩, rfl⟩
  obtain ⟨e00, e01, e10, e11, e20, e21, e30, e31, e40, e41, e50, e51, e60, e61, e62⟩ := idx_facts0 t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 4 ≤ (i 1).val ∧ (i 1).val < win0_6.index t (1 : Fin 3) * 4 + 4; omega
  | ⟨2, _⟩ => show win0_6.index t (2 : Fin 3) * 64 ≤ (i 2).val ∧ (i 2).val < win0_6.index t (2 : Fin 3) * 64 + 64; omega

/-- THE PARTIAL SUMS' ARRAY after the region: per tile, relation and feature, the sum of the squares over the tile's rows. -/
theorem arr6 (c : Dev nD) : (dat0 V c).arrAt 6 cfg0.N = tileSq ![V c main_v12, V c main_v25, V c main_v38, V c main_v51] :=
  (dat0 V c).arrAt_eq_of_cover 6 _ (fun t _ => flushed6_eq V c t) cover6

end Cert.FusedUser
end
-- ==== Proof.FusedItem.lean ====
/-
  The fused kernel on the ITEM tables (the second launch): what its two output arrays hold after the launch, as
  whole-array functions of the arrays the launch finds.

  The launch walks forty tiles of 2000 rows.  At tile `t` the body loads the tile of each of the four relation
  tables and the whole 64 × 64 weight, stores `logistic(((u0 + u1 + u2 + u3) · 0.25) · w)` — a block product into a zero
  accumulator — to tile `t` of the gate, and stores, for each relation, the lane sums over the tile's rows of the
  squares to row `t` of a [40, 4, 64] array of partial sums.  Each output block is written once, the blocks tile the
  arrays, so each array ends as ONE function of the inputs: `gateK` and `tileSq`.
-/
import proofs.«110750_j39402029973982_2_alg».proof.Proof.Gen.KernelIdeal.Frame
import proofs.«110750_j39402029973982_2_alg».proof.Proof.Spec
import Idealize.ShloMosaic.Lib.ValueIdx
import Idealize.ShloMosaic.Lib.ValueLayout
import Idealize.ShloMosaic.Lib.Pipeline.Value
import Idealize.ShloMosaic.Lib.Pipeline.CanonAppend
import Idealize.ShloMosaic.PureOps.Ideal.Laws

set_option maxRecDepth 16384

noncomputable section

namespace Cert.FusedItem

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- the contraction of the block product, re-indexed by the one contracted coordinate -/
theorem dot1_sum (L : S2000x64.Idx → EReal) (R : S64x64.Idx → EReal) (p : Fin 2000) (q : Fin 64) :
    (∑ k : dot_S2000x64_S64x64_S2000x64_1_0_0_1_n_n.contr.Idx, L (dot_S2000x64_S64x64_S2000x64_1_0_0_1_n_n.lhsIdx (ix2 p q) k) * R (dot_S2000x64_S64x64_S2000x64_1_0_0_1_n_n.rhsIdx (ix2 p q) k))
      = ∑ k : Fin 64, L (ix2 p k) * R (ix2 k q) := by
  rw [← Equiv.sum_comp (contrEquiv1 dot_S2000x64_S64x64_S2000x64_1_0_0_1_n_n 64 rfl rfl).symm]
  refine Finset.sum_congr rfl fun k _ => ?_
  have hl : dot_S2000x64_S64x64_S2000x64_1_0_0_1_n_n.lhsIdx (ix2 p q) ((contrEquiv1 dot_S2000x64_S64x64_S2000x64_1_0_0_1_n_n 64 rfl rfl).symm k) = ix2 p k := by
    funext a; apply Fin.ext
    match a with
    | ⟨0, _⟩ => rfl
    | ⟨1, _⟩ => exact contrEquiv1_symm_val dot_S2000x64_S64x64_S2000x64_1_0_0_1_n_n 64 rfl rfl k
  have hr : dot_S2000x64_S64x64_S2000x64_1_0_0_1_n_n.rhsIdx (ix2 p q) ((contrEquiv1 dot_S2000x64_S64x64_S2000x64_1_0_0_1_n_n 64 rfl rfl).symm k) = ix2 k q := by
    funext a; apply Fin.ext
    match a with
    | ⟨0, _⟩ => exact contrEquiv1_symm_val dot_S2000x64_S64x64_S2000x64_1_0_0_1_n_n 64 rfl rfl k
    | ⟨1, _⟩ => rfl
  rw [hl, hr]

theorem pay7_apply (x0 x1 x2 x3 : Vec Ideal S2000x64 .f32) (x4 : Vec Ideal S64x64 .f32) (p : Fin 2000) (q : Fin 64) :
    k1_pay7 x0 x1 x2 x3 x4 (ix2 p q) = Ideal.logistic (∑ k : Fin 64, ((x0 (ix2 p k) + x1 (ix2 p k) + x2 (ix2 p k) + x3 (ix2 p k)) * Ideal.ofBits .f32 0x3E800000#32) * x4 (ix2 k q)) := by
  unfold k1_pay7 k1_pay3 k1_pay4 k1_pay5 k1_pay6
  show Ideal.logistic (FloatOps.matmul (F := Ideal) _ _ _ _ (constant (F := Ideal) S2000x64 .f32 0x00000000#32) (ix2 p q)) = _
  rw [Ideal.matmul_constant_zero_apply, dot1_sum]
  simp only [shapeCast_self, truncf_apply, mulf_apply, addf_apply, broadcast_apply]
  rfl

/-- A lane reduction over the rows of a tile, at feature `d`: the sum over the tile's rows. -/
theorem lane_sum (src : FVec Ideal S2000x64 .f32) (hφ : FKind.Formats .f32) (hacc : (0x00000000#32 : BitVec 32) = 0x00000000#32) (d : Fin 64) :
    multiReduction .add [0] S64 src 0x00000000#32 reduces_S2000x64_S64 hφ hacc (ix1 d) = ∑ r : Fin 2000, src (ix2 r d) :=
  (Ideal.multiReduction_add_single src 0x00000000#32 reduces_S2000x64_S64 hφ hacc (ix1 d)).trans (Finset.sum_congr rfl fun r _ => congrArg src (funext fun c => Fin.ext (by
    match c with
    | ⟨0, _⟩ => rfl
    | ⟨1, _⟩ => rfl)))

/-- One relation's per-tile sums of squares, stored as a [1,1,64] row. -/
theorem sq_apply (x : Vec Ideal S2000x64 .f32) (a b : Fin 1) (d : Fin 64) :
    k1_pay8 x (ix3 a b d) = ∑ r : Fin 2000, x (ix2 r d) * x (ix2 r d) := by
  unfold k1_pay8 k1_pay3
  simp only [shapeCast_self]
  rw [shapeCast_apply _ _ (ix3 a b d) (ix1 d) (by rw [Shape.rowMajor_val_one, Shape.rowMajor_val_three]; show d.val = (a.val * 1 + b.val) * 64 + d.val; omega)]
  exact lane_sum _ _ _ d

/-! ## The three other spellings of a tile's sums of squares (one per relation) -/

theorem sq_apply1 (x : Vec Ideal S2000x64 .f32) (a b : Fin 1) (d : Fin 64) :
    k1_pay9 x (ix3 a b d) = ∑ r : Fin 2000, x (ix2 r d) * x (ix2 r d) := by
  unfold k1_pay9 k1_pay4
  simp only [shapeCast_self]
  rw [shapeCast_apply _ _ (ix3 a b d) (ix1 d) (by rw [Shape.rowMajor_val_one, Shape.rowMajor_val_three]; show d.val = (a.val * 1 + b.val) * 64 + d.val; omega)]
  exact lane_sum _ _ _ d

theorem sq_apply2 (x : Vec Ideal S2000x64 .f32) (a b : Fin 1) (d : Fin 64) :
    k1_pay1 (k1_pay10 x) (ix3 a b d) = ∑ r : Fin 2000, x (ix2 r d) * x (ix2 r d) := by
  unfold k1_pay1 k1_pay10 k1_pay5
  simp only [shapeCast_self]
  rw [shapeCast_apply _ _ (ix3 a b d) (ix1 d) (by rw [Shape.rowMajor_val_one, Shape.rowMajor_val_three]; show d.val = (a.val * 1 + b.val) * 64 + d.val; omega)]
  exact lane_sum _ _ _ d

theorem sq_apply3 (x : Vec Ideal S2000x64 .f32) (a b : Fin 1) (d : Fin 64) :
    k1_pay2 (k1_pay6 x) (ix3 a b d) = ∑ r : Fin 2000, x (ix2 r d) * x (ix2 r d) := by
  unfold k1_pay2 k1_pay6
  simp only [shapeCast_self]
  rw [shapeCast_apply _ _ (ix3 a b d) (ix1 d) (by rw [Shape.rowMajor_val_one, Shape.rowMajor_val_three]; show d.val = (a.val * 1 + b.val) * 64 + d.val; omega)]
  exact lane_sum _ _ _ d

/-! ## The region at its entry contents `V` -/

variable (V : (c : Dev nD) → (b : Ref sig .tc) → Buf (Elt Ideal) ((c : Thread nD τ).loc b))

theorem hz2 : (![0, 0] : Fin 2 → Nat) = fun _ => 0 := funext fun a => by fin_cases a <;> rfl

/-- The gate in the kernel's spelling: the four tables added left to right, times the float `0.25`, times the weight,
    under the logistic function. -/
def gateK (a0 a1 a2 a3 : S80000x64.Idx → EReal) (w : S64x64.Idx → EReal) : S80000x64.Idx → EReal := fun i =>
  Ideal.logistic (∑ k : Fin 64, ((a0 (ix2 (i 0) k) + a1 (ix2 (i 0) k) + a2 (ix2 (i 0) k) + a3 (ix2 (i 0) k)) * Ideal.ofBits .f32 0x3E800000#32) * w (ix2 k (i 1)))

/-- Row `r` of tile `t`. -/
def rowOf (t : Fin 40) (r : Fin 2000) : Fin 80000 := ⟨t.val * 2000 + r.val, by have := t.isLt; have := r.isLt; omega⟩

/-- Per tile, relation and feature: the sum over the tile's rows of the squares. -/
def tileSq (A : Fin 4 → S80000x64.Idx → EReal) : S40x4x64.Idx → EReal := fun i =>
  ∑ r : Fin 2000, A (i 1) (ix2 (rowOf (i 0) r) (i 2)) * A (i 1) (ix2 (rowOf (i 0) r) (i 2))

/-- The printed index maps over the grid: point `t` takes tile `t` of each table, the whole weight, and writes tile `t`
    of the gate and row `t` of the partial sums. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

theorem gate_block (x0 x1 x2 x3 : Vec Ideal S2000x64 .f32) (x4 : Vec Ideal S64x64 .f32)
    (a0 a1 a2 a3 : S80000x64.Idx → EReal) (w : S64x64.Idx → EReal) (y : S2000x64.Idx) (e : S80000x64.Idx)
    (p : Fin 2000) (q : Fin 64) (P : Fin 80000) (hy : y = ix2 p q) (he : e = ix2 P q)
    (h0 : ∀ k : Fin 64, x0 (ix2 p k) = a0 (ix2 P k)) (h1 : ∀ k : Fin 64, x1 (ix2 p k) = a1 (ix2 P k))
    (h2 : ∀ k : Fin 64, x2 (ix2 p k) = a2 (ix2 P k)) (h3 : ∀ k : Fin 64, x3 (ix2 p k) = a3 (ix2 P k)) (hw : x4 = w) :
    k1_pay7 x0 x1 x2 x3 x4 y = gateK a0 a1 a2 a3 w e := by
  subst hy he hw
  rw [pay7_apply]
  show _ = Ideal.logistic (∑ k : Fin 64, ((a0 (ix2 P k) + a1 (ix2 P k) + a2 (ix2 P k) + a3 (ix2 P k)) * Ideal.ofBits .f32 0x3E800000#32) * x4 (ix2 k q))
  simp only [h0, h1, h2, h3]

/-- WHAT POINT `t` WRITES BACK to the gate's array is tile `t` of the gate of the four tables and the weight as the
    region finds them. -/
theorem flushed5_eq (c : Dev nD) (t : Fin cfg1.N) :
    (dat1 V c).flushed 5 t = ((cfg1.win 5).blk t).view.read (Elt Ideal)
      (gateK (V c main_v64) (V c main_v77) (V c main_v90) (V c main_v103) (V c main_arg9)) := by
  show (cfg1.win 5).cut (grid1.coords t) ((dat1 V c).after 5 t) = _
  rw [after1_5]
  unfold out1_5
  rw [View.canon_unit_zero hz2]
  simp only [View.ld_unit_zero (S := S2000x64) hz2, View.ld_unit_zero (S := S64x64) hz2]
  obtain ⟨e00, e01, e10, e11, e20, e21, e30, e31, e40, e41, e50, e51, e60, e61, e62⟩ := idx_facts1 t
  have ht : t.val < 40 := lt_of_lt_of_eq t.isLt N_1
  funext j
  have hj0 : (j 0).val < 2000 := (j 0).isLt
  have hj1 : (j 1).val < 64 := (j 1).isLt
  show k1_pay7 (iblk1 V c 0 t) (iblk1 V c 1 t) (iblk1 V c 2 t) (iblk1 V c 3 t) (iblk1 V c 4 t) j
    = gateK (V c main_v64) (V c main_v77) (V c main_v90) (V c main_v103) (V c main_arg9) (((cfg1.win 5).blk t).view.emb j)
  refine gate_block _ _ _ _ _ _ _ _ _ _ j _ (j 0) (j 1) ⟨t.val * 2000 + (j 0).val, by omega⟩ (eq_ix2 j) ?_ (fun k => ?_) (fun k => ?_) (fun k => ?_) (fun k => ?_) ?_
  · funext a; apply Fin.ext
    match a with
    | ⟨0, _⟩ => show win1_5.index t (0 : Fin 2) * 2000 + 1 * (j 0).val = t.val * 2000 + (j 0).val; omega
    | ⟨1, _⟩ => show win1_5.index t (1 : Fin 2) * 64 + 1 * (j 1).val = (j 1).val; omega
  · show V c main_v64 (((cfg1.win 0).blk t).view.emb (ix2 (j 0) k)) = V c main_v64 _
    refine congrArg _ (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 64 + 1 * k.val = k.val; omega
  · show V c main_v77 (((cfg1.win 1).blk t).view.emb (ix2 (j 0) k)) = V c main_v77 _
    refine congrArg _ (funext fun a => Fin.ext ?_)
    match a with
    | ⟨0, _⟩ => show win1_1.index t (0 : Fin 2) * 2000 + 1 * (j 0).val = t.val * 2000 + (j 0).val; omega
    | ⟨1, _⟩ => show win1_1.index t (1 : Fin 2) * 64 + 1 * k.val = k.val; omega
  · show V c main_v90 (((cfg1.win 2).blk t).view.emb (ix2 (j 0) k)) = V c main_v90 _
    refine congrArg _ (funext fun a => Fin.ext ?_)
    match a with
    | ⟨0, _⟩ => show win1_2.index t (0 : Fin 2) * 2000 + 1 * (j 0).val = t.val * 2000 + (j 0).val; omega
    | ⟨1, _⟩ => show win1_2.index t (1 : Fin 2) * 64 + 1 * k.val = k.val; omega
  · show V c main_v103 (((cfg1.win 3).blk t).view.emb (ix2 (j 0) k)) = V c main_v103 _
    refine congrArg _ (funext fun a => Fin.ext ?_)
    match a with
    | ⟨0, _⟩ => show win1_3.index t (0 : Fin 2) * 2000 + 1 * (j 0).val = t.val * 2000 + (j 0).val; omega
    | ⟨1, _⟩ => show win1_3.index t (1 : Fin 2) * 64 + 1 * k.val = k.val; omega
  · funext y
    show V c main_arg9 (((cfg1.win 4).blk t).view.emb y) = V c main_arg9 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega

/-- An index of the gate's array is in point `t`'s block iff each coordinate is in the block's range on its axis. -/
theorem mem_blk5 (t : Fin cfg1.N) (i : S80000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v106_0).slice (win1_5.rect t)).set ↔ _
  rw [View.set_slice_whole, Rect.mem_set_unit]
  exact Iff.rfl

/-- The forty tiles fill the array: row `r` is in tile `r / 2000`. -/
theorem cover5 (i : S80000x64.Idx) : ∃ t : Fin cfg1.N, (cfg1.win 5).flush t = true ∧ i ∈ ((cfg1.win 5).blk t).view.set := by
  have hi0 : (i 0).val < 80000 := (i 0).isLt
  have hi1 : (i 1).val < 64 := (i 1).isLt
  obtain ⟨t, ht⟩ : ∃ t : Fin cfg1.N, t.val = (i 0).val / 2000 := ⟨⟨(i 0).val / 2000, by rw [show cfg1.N = 40 from N_1]; omega⟩, rfl⟩
  obtain ⟨e00, e01, e10, e11, e20, e21, e30, e31, e40, e41, e50, e51, e60, e61, e62⟩ := idx_facts1 t
  refine ⟨t, flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE GATE'S ARRAY after the region: the gate of the four tables and the weight as the region finds them. -/
theorem arr5 (c : Dev nD) : (dat1 V c).arrAt 5 cfg1.N = gateK (V c main_v64) (V c main_v77) (V c main_v90) (V c main_v103) (V c main_arg9) :=
  (dat1 V c).arrAt_eq_of_cover 5 _ (fun t _ => flushed5_eq V c t) cover5

/-! ## The partial sums of squares (output window 6) -/

/-- One stored row of the partial sums against the whole-array function: relation `k`'s row of tile `T`. -/
theorem sq_block (pay : Vec Ideal S1x1x64 .f32) (xk : Vec Ideal S2000x64 .f32) (A : Fin 4 → S80000x64.Idx → EReal)
    (k : Fin 4) (T : Fin 40) (x : S1x1x64.Idx) (e : S40x4x64.Idx) (d : Fin 64)
    (hpay : ∀ (a b : Fin 1) (d : Fin 64), pay (ix3 a b d) = ∑ r : Fin 2000, xk (ix2 r d) * xk (ix2 r d))
    (hx : x = ix3 0 0 d) (he : e = ix3 T k d) (hblk : ∀ r : Fin 2000, xk (ix2 r d) = A k (ix2 (rowOf T r) d)) :
    pay x = tileSq A e := by
  subst hx he
  rw [hpay]
  show _ = ∑ r : Fin 2000, A k (ix2 (rowOf T r) d) * A k (ix2 (rowOf T r) d)
  simp only [hblk]

/-- WHAT POINT `t` WRITES BACK to the partial sums is row `t` of `tileSq` of the four tables: four stores, one row per
    relation, each the lane sums of that relation's tile squared. -/
theorem flushed6_eq (c : Dev nD) (t : Fin cfg1.N) :
    (dat1 V c).flushed 6 t = ((cfg1.win 6).blk t).view.read (Elt Ideal)
      (tileSq ![V c main_v64, V c main_v77, V c main_v90, V c main_v103]) := by
  show (cfg1.win 6).cut (grid1.coords t) ((dat1 V c).after 6 t) = _
  rw [after1_6]
  unfold out1_6
  simp only [View.ld_unit_zero (S := S2000x64) hz2]
  obtain ⟨e00, e01, e10, e11, e20, e21, e30, e31, e40, e41, e50, e51, e60, e61, e62⟩ := idx_facts1 t
  have ht : t.val < 40 := lt_of_lt_of_eq t.isLt N_1
  funext j
  refine View.canon_append_of_pieces (Val := Elt Ideal) (e := .f32) (fun y => tileSq ![V c main_v64, V c main_v77, V c main_v90, V c main_v103] (((cfg1.win 6).blk t).view.emb y)) [] _ ?_ j (cover1_6 _ _ _ _ j)
  intro p hp
  simp only [List.mem_cons, List.mem_nil_iff, or_false] at hp
  rcases hp with rfl | rfl | rfl | rfl
  · intro x
    have hx0 : (x 0).val < 1 := (x 0).isLt
    have hx1 : (x 1).val < 1 := (x 1).isLt
    have hx2 : (x 2).val < 64 := (x 2).isLt
    refine sq_block _ (iblk1 V c 3 t) _ 3 ⟨t.val, ht⟩ x _ (x 2) (sq_apply3 _) ?_ ?_ (fun r => ?_)
    · funext a; apply Fin.ext
      match a with
      | ⟨0, _⟩ => show (x 0).val = 0; omega
      | ⟨1, _⟩ => show (x 1).val = 0; omega
      | ⟨2, _⟩ => rfl
    · funext a; apply Fin.ext
      match a with
      | ⟨0, _⟩ => show win1_6.index t (0 : Fin 3) * 1 + 1 * (0 + 1 * (x 0).val) = t.val; omega
      | ⟨1, _⟩ => show win1_6.index t (1 : Fin 3) * 4 + 1 * (3 + 1 * (x 1).val) = 3; omega
      | ⟨2, _⟩ => show win1_6.index t (2 : Fin 3) * 64 + 1 * (0 + 1 * (x 2).val) = (x 2).val; omega
    · show V c main_v103 (((cfg1.win 3).blk t).view.emb (ix2 r (x 2))) = V c main_v103 _
      refine congrArg _ (funext fun a => Fin.ext ?_)
      match a with
      | ⟨0, _⟩ => show win1_3.index t (0 : Fin 2) * 2000 + 1 * r.val = t.val * 2000 + r.val; omega
      | ⟨1, _⟩ => show win1_3.index t (1 : Fin 2) * 64 + 1 * (x 2).val = (x 2).val; omega
  · intro x
    have hx0 : (x 0).val < 1 := (x 0).isLt
    have hx1 : (x 1).val < 1 := (x 1).isLt
    have hx2 : (x 2).val < 64 := (x 2).isLt
    refine sq_block _ (iblk1 V c 2 t) _ 2 ⟨t.val, ht⟩ x _ (x 2) (sq_apply2 _) ?_ ?_ (fun r => ?_)
    · funext a; apply Fin.ext
      match a with
      | ⟨0, _⟩ => show (x 0).val = 0; omega
      | ⟨1, _⟩ => show (x 1).val = 0; omega
      | ⟨2, _⟩ => rfl
    · funext a; apply Fin.ext
      match a with
      | ⟨0, _⟩ => show win1_6.index t (0 : Fin 3) * 1 + 1 * (0 + 1 * (x 0).val) = t.val; omega
      | ⟨1, _⟩ => show win1_6.index t (1 : Fin 3) * 4 + 1 * (2 + 1 * (x 1).val) = 2; omega
      | ⟨2, _⟩ => show win1_6.index t (2 : Fin 3) * 64 + 1 * (0 + 1 * (x 2).val) = (x 2).val; omega
    · show V c main_v90 (((cfg1.win 2).blk t).view.emb (ix2 r (x 2))) = V c main_v90 _
      refine congrArg _ (funext fun a => Fin.ext ?_)
      match a with
      | ⟨0, _⟩ => show win1_2.index t (0 : Fin 2) * 2000 + 1 * r.val = t.val * 2000 + r.val; omega
      | ⟨1, _⟩ => show win1_2.index t (1 : Fin 2) * 64 + 1 * (x 2).val = (x 2).val; omega
  · intro x
    have hx0 : (x 0).val < 1 := (x 0).isLt
    have hx1 : (x 1).val < 1 := (x 1).isLt
    have hx2 : (x 2).val < 64 := (x 2).isLt
    refine sq_block _ (iblk1 V c 1 t) _ 1 ⟨t.val, ht⟩ x _ (x 2) (sq_apply1 _) ?_ ?_ (fun r => ?_)
    · funext a; apply Fin.ext
      match a with
      | ⟨0, _⟩ => show (x 0).val = 0; omega
      | ⟨1, _⟩ => show (x 1).val = 0; omega
      | ⟨2, _⟩ => rfl
    · funext a; apply Fin.ext
      match a with
      | ⟨0, _⟩ => show win1_6.index t (0 : Fin 3) * 1 + 1 * (0 + 1 * (x 0).val) = t.val; omega
      | ⟨1, _⟩ => show win1_6.index t (1 : Fin 3) * 4 + 1 * (1 + 1 * (x 1).val) = 1; omega
      | ⟨2, _⟩ => show win1_6.index t (2 : Fin 3) * 64 + 1 * (0 + 1 * (x 2).val) = (x 2).val; omega
    · show V c main_v77 (((cfg1.win 1).blk t).view.emb (ix2 r (x 2))) = V c main_v77 _
      refine congrArg _ (funext fun a => Fin.ext ?_)
      match a with
      | ⟨0, _⟩ => show win1_1.index t (0 : Fin 2) * 2000 + 1 * r.val = t.val * 2000 + r.val; omega
      | ⟨1, _⟩ => show win1_1.index t (1 : Fin 2) * 64 + 1 * (x 2).val = (x 2).val; omega
  · intro x
    have hx0 : (x 0).val < 1 := (x 0).isLt
    have hx1 : (x 1).val < 1 := (x 1).isLt
    have hx2 : (x 2).val < 64 := (x 2).isLt
    refine sq_block _ (iblk1 V c 0 t) _ 0 ⟨t.val, ht⟩ x _ (x 2) (sq_apply _) ?_ ?_ (fun r => ?_)
    · funext a; apply Fin.ext
      match a with
      | ⟨0, _⟩ => show (x 0).val = 0; omega
      | ⟨1, _⟩ => show (x 1).val = 0; omega
      | ⟨2, _⟩ => rfl
    · funext a; apply Fin.ext
      match a with
      | ⟨0, _⟩ => show win1_6.index t (0 : Fin 3) * 1 + 1 * (0 + 1 * (x 0).val) = t.val; omega
      | ⟨1, _⟩ => show win1_6.index t (1 : Fin 3) * 4 + 1 * (0 + 1 * (x 1).val) = 0; omega
      | ⟨2, _⟩ => show win1_6.index t (2 : Fin 3) * 64 + 1 * (0 + 1 * (x 2).val) = (x 2).val; omega
    · show V c main_v64 (((cfg1.win 0).blk t).view.emb (ix2 r (x 2))) = V c main_v64 _
      refine congrArg _ (funext fun a => Fin.ext ?_)
      match a with
      | ⟨0, _⟩ => show win1_0.index t (0 : Fin 2) * 2000 + 1 * r.val = t.val * 2000 + r.val; omega
      | ⟨1, _⟩ => show win1_0.index t (1 : Fin 2) * 64 + 1 * (x 2).val = (x 2).val; omega

/-- An index of the partial sums' array is in point `t`'s block iff each coordinate is in the block's range. -/
theorem mem_blk6 (t : Fin cfg1.N) (i : S40x4x64.Idx) :
    i ∈ ((cfg1.win 6).blk t).view.set ↔ ∀ a : Fin 3, win1_6.index t a * S1x4x64.size a ≤ (i a).val ∧ (i a).val < win1_6.index t a * S1x4x64.size a + S1x4x64.size a := by
  show i ∈ ((View.whole main_v106_1).slice (win1_6.rect t)).set ↔ _
  rw [View.set_slice_whole, Rect.mem_set_unit]
  exact Iff.rfl

/-- Row `t` of the partial sums is point `t`'s. -/
theorem cover6 (i : S40x4x64.Idx) : ∃ t : Fin cfg1.N, (cfg1.win 6).flush t = true ∧ i ∈ ((cfg1.win 6).blk t).view.set := by
  have hi0 : (i 0).val < 40 := (i 0).isLt
  have hi1 : (i 1).val < 4 := (i 1).isLt
  have hi2 : (i 2).val < 64 := (i 2).isLt
  obtain ⟨t, ht⟩ : ∃ t : Fin cfg1.N, t.val = (i 0).val := ⟨⟨(i 0).val, by rw [show cfg1.N = 40 from N_1]; omega⟩, rfl⟩
  obtain ⟨e00, e01, e10, e11, e20, e21, e30, e31, e40, e41, e50, e51, e60, e61, e62⟩ := idx_facts1 t
  refine ⟨t, flush1_6 t, ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 4 ≤ (i 1).val ∧ (i 1).val < win1_6.index t (1 : Fin 3) * 4 + 4; omega
  | ⟨2, _⟩ => show win1_6.index t (2 : Fin 3) * 64 ≤ (i 2).val ∧ (i 2).val < win1_6.index t (2 : Fin 3) * 64 + 64; omega

/-- THE PARTIAL SUMS' ARRAY after the region: per tile, relation and feature, the sum of the squares over the tile's rows. -/
theorem arr6 (c : Dev nD) : (dat1 V c).arrAt 6 cfg1.N = tileSq ![V c main_v64, V c main_v77, V c main_v90, V c main_v103] :=
  (dat1 V c).arrAt_eq_of_cover 6 _ (fun t _ => flushed6_eq V c t) cover6

end Cert.FusedItem
end
-- ==== Proof.NormKernel.lean ====
/-
  The normalising launches (the third and fourth kernel launches of the kernel program), read as whole arrays.

  Each launch reads four tables of `n/2` rows and 128 lanes and a `4 × 128` scale, walks the rows in blocks of 1000, and
  stores, for each relation `k`, the block of table `k` multiplied row by row by row `k` of the scale.  Read index
  by index this is one function of the five arrays, `scaled`: entry `(k, r, l)` of the result is table `k` at
  `(r, l)` times the scale at `(k, l)` (`arr_user`, `arr_item`; for any contents of the five arrays).

  The tables reach the launch with two rows of 64 features paired into one row of 128 lanes, the scale doubled along
  the lanes to match, and the result is unpaired afterwards.  `unpair_user` / `unpair_item` undo this: entry
  `(j, r, d)` of the unpaired result is table `j` at `(r, d)` times the scale at `(j, d)`.
-/
import proofs.«110750_j39402029973982_2_alg».proof.Proof.Gen.KernelIdeal.Frame
import proofs.«110750_j39402029973982_2_alg».proof.Proof.Spec
import Idealize.ShloMosaic.Lib.Pipeline.Value
import Idealize.ShloMosaic.Lib.Pipeline.CanonAppend
import Idealize.ShloMosaic.Lib.ValueIdx
import Idealize.ShloMosaic.Lib.ValueLayout

set_option maxRecDepth 16384

noncomputable section

namespace Cert.NormKernel

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Four tables of `n` rows and 128 lanes, each multiplied row by row by its own row of a `4 × 128` scale:
    entry `(k, r, l)` is table `k` at `(r, l)` times the scale at `(k, l)`. -/
def scaled {n : Nat} (a0 a1 a2 a3 : (⟨2, ![n, 128]⟩ : Shape).Idx → EReal) (s : (⟨2, ![4, 128]⟩ : Shape).Idx → EReal) :
    (⟨3, ![4, n, 128]⟩ : Shape).Idx → EReal :=
  fun i => (![a0, a1, a2, a3] (i 0)) (ix2 (i 1) (i 2)) * s (ix2 (i 0) (i 2))

theorem hz2 : (![0, 0] : Fin 2 → Nat) = fun _ => 0 := funext fun a => by fin_cases a <;> rfl

/-- Two scalings agree at a pair of indices once their tables and scales agree there. -/
theorem scaled_congr {n m : Nat} (a0 a1 a2 a3 : (⟨2, ![n, 128]⟩ : Shape).Idx → EReal) (s : (⟨2, ![4, 128]⟩ : Shape).Idx → EReal)
    (b0 b1 b2 b3 : (⟨2, ![m, 128]⟩ : Shape).Idx → EReal) (s' : (⟨2, ![4, 128]⟩ : Shape).Idx → EReal)
    (k : Fin 4) (r : Fin n) (r' : Fin m) (l : Fin 128)
    (h0 : a0 (ix2 r l) = b0 (ix2 r' l)) (h1 : a1 (ix2 r l) = b1 (ix2 r' l)) (h2 : a2 (ix2 r l) = b2 (ix2 r' l))
    (h3 : a3 (ix2 r l) = b3 (ix2 r' l)) (hs : s (ix2 k l) = s' (ix2 k l)) :
    scaled a0 a1 a2 a3 s (ix3 k r l) = scaled b0 b1 b2 b3 s' (ix3 k r' l) := by
  show (![a0, a1, a2, a3] k) (ix2 r l) * s (ix2 k l) = (![b0, b1, b2, b3] k) (ix2 r' l) * s' (ix2 k l)
  rw [hs]
  congr 1
  match k with
  | ⟨0, _⟩ => exact h0
  | ⟨1, _⟩ => exact h1
  | ⟨2, _⟩ => exact h2
  | ⟨3, _⟩ => exact h3

/-- A store's rectangle at row `k` of the leading axis places its index `(u, a, b)` at `(k, a, b)`. -/
theorem row_emb (k : Fin 4) (inb : ∀ a, (![k.val, 0, 0] : Fin 3 → Nat) a + S1x1000x128.size a ≤ S4x1000x128.size a)
    (u : Fin 1) (a : Fin 1000) (b : Fin 128) :
    (Rect.unit (s := S4x1000x128) ![k.val, 0, 0] S1x1000x128.size inb).emb (ix3 u a b) = ix3 k a b := by
  funext ax; apply Fin.ext
  have hu := u.isLt
  match ax with
  | ⟨0, _⟩ => show k.val + 1 * u.val = k.val; omega
  | ⟨1, _⟩ => show 0 + 1 * a.val = a.val; omega
  | ⟨2, _⟩ => show 0 + 1 * b.val = b.val; omega

/-! ## The body's payloads read at an index (third launch) -/

/-- Rows of the block times row 0 of the scale. -/
theorem k2_pay3_apply (v0 : Vec Ideal S4x128 .f32) (v2 : Vec Ideal S1000x128 .f32) (u : Fin 1) (p : Fin 1000) (q : Fin 128) :
    k2_pay3 (F := Ideal) v0 v2 (ix3 u p q) = v2 (ix2 p q) * v0 (ix2 (0 : Fin 4) q) := by
  unfold k2_pay3 k2_pay2
  rw [shapeCast_ab_1ab_apply, mulf_apply, shapeCast_self, broadcastTo_1b_ab_apply, shapeCast_a_1a_apply,
    shapeCast_1a_a_apply, shapeCast_self, slice2_axis0_eq]
  rfl

/-- Rows of the block times row 1 of the scale. -/
theorem k2_pay4_apply (v0 : Vec Ideal S4x128 .f32) (v2 : Vec Ideal S1000x128 .f32) (u : Fin 1) (p : Fin 1000) (q : Fin 128) :
    k2_pay4 (F := Ideal) v0 v2 (ix3 u p q) = v2 (ix2 p q) * v0 (ix2 (1 : Fin 4) q) := by
  unfold k2_pay4 k2_pay2
  rw [shapeCast_ab_1ab_apply, mulf_apply, shapeCast_self, broadcastTo_1b_ab_apply, shapeCast_a_1a_apply,
    shapeCast_1a_a_apply, shapeCast_self, slice2_axis0_eq]
  rfl

/-- Rows of the block times row 2 of the scale. -/
theorem k2_pay5_apply (v0 : Vec Ideal S4x128 .f32) (v2 : Vec Ideal S1000x128 .f32) (u : Fin 1) (p : Fin 1000) (q : Fin 128) :
    k2_pay5 (F := Ideal) v0 v2 (ix3 u p q) = v2 (ix2 p q) * v0 (ix2 (2 : Fin 4) q) := by
  unfold k2_pay5 k2_pay2
  rw [shapeCast_ab_1ab_apply, mulf_apply, shapeCast_self, broadcastTo_1b_ab_apply, shapeCast_a_1a_apply,
    shapeCast_1a_a_apply, shapeCast_self, slice2_axis0_eq]
  rfl

/-- Rows of the block times row 3 of the scale. -/
theorem k2_pay1_apply (v0 : Vec Ideal S4x128 .f32) (v2 : Vec Ideal S1000x128 .f32) (u : Fin 1) (p : Fin 1000) (q : Fin 128) :
    k2_pay1 (F := Ideal) (k2_pay6 v2) (k2_pay7 v0) (ix3 u p q) = v2 (ix2 p q) * v0 (ix2 (3 : Fin 4) q) := by
  unfold k2_pay1 k2_pay6 k2_pay7 k2_pay2
  rw [shapeCast_ab_1ab_apply, mulf_apply, shapeCast_self, broadcastTo_1b_ab_apply, shapeCast_a_1a_apply,
    shapeCast_1a_a_apply, shapeCast_self, slice2_axis0_eq]
  rfl

/-! ## The body's payloads read at an index (fourth launch) -/

/-- Rows of the block times row 0 of the scale. -/
theorem k3_pay3_apply (v0 : Vec Ideal S4x128 .f32) (v2 : Vec Ideal S1000x128 .f32) (u : Fin 1) (p : Fin 1000) (q : Fin 128) :
    k3_pay3 (F := Ideal) v0 v2 (ix3 u p q) = v2 (ix2 p q) * v0 (ix2 (0 : Fin 4) q) := by
  unfold k3_pay3 k3_pay2
  rw [shapeCast_ab_1ab_apply, mulf_apply, shapeCast_self, broadcastTo_1b_ab_apply, shapeCast_a_1a_apply,
    shapeCast_1a_a_apply, shapeCast_self, slice2_axis0_eq]
  rfl

/-- Rows of the block times row 1 of the scale. -/
theorem k3_pay4_apply (v0 : Vec Ideal S4x128 .f32) (v2 : Vec Ideal S1000x128 .f32) (u : Fin 1) (p : Fin 1000) (q : Fin 128) :
    k3_pay4 (F := Ideal) v0 v2 (ix3 u p q) = v2 (ix2 p q) * v0 (ix2 (1 : Fin 4) q) := by
  unfold k3_pay4 k3_pay2
  rw [shapeCast_ab_1ab_apply, mulf_apply, shapeCast_self, broadcastTo_1b_ab_apply, shapeCast_a_1a_apply,
    shapeCast_1a_a_apply, shapeCast_self, slice2_axis0_eq]
  rfl

/-- Rows of the block times row 2 of the scale. -/
theorem k3_pay5_apply (v0 : Vec Ideal S4x128 .f32) (v2 : Vec Ideal S1000x128 .f32) (u : Fin 1) (p : Fin 1000) (q : Fin 128) :
    k3_pay5 (F := Ideal) v0 v2 (ix3 u p q) = v2 (ix2 p q) * v0 (ix2 (2 : Fin 4) q) := by
  unfold k3_pay5 k3_pay2
  rw [shapeCast_ab_1ab_apply, mulf_apply, shapeCast_self, broadcastTo_1b_ab_apply, shapeCast_a_1a_apply,
    shapeCast_1a_a_apply, shapeCast_self, slice2_axis0_eq]
  rfl

/-- Rows of the block times row 3 of the scale. -/
theorem k3_pay1_apply (v0 : Vec Ideal S4x128 .f32) (v2 : Vec Ideal S1000x128 .f32) (u : Fin 1) (p : Fin 1000) (q : Fin 128) :
    k3_pay1 (F := Ideal) (k3_pay6 v2) (k3_pay7 v0) (ix3 u p q) = v2 (ix2 p q) * v0 (ix2 (3 : Fin 4) q) := by
  unfold k3_pay1 k3_pay6 k3_pay7 k3_pay2
  rw [shapeCast_ab_1ab_apply, mulf_apply, shapeCast_self, broadcastTo_1b_ab_apply, shapeCast_a_1a_apply,
    shapeCast_1a_a_apply, shapeCast_self, slice2_axis0_eq]
  rfl

/-! ## The third launch: from the body's stores to the whole array -/

/-- The output block after the body: each table's block scaled by its row of the scale. -/
theorem out2_5_eq (x0 x1 x2 x3 : Vec Ideal S1000x128 .f32) (x4 : Vec Ideal S4x128 .f32) :
    out2_5 (F := Ideal) x0 x1 x2 x3 x4 = scaled (n := 1000) x0 x1 x2 x3 x4 := by
  funext y
  unfold out2_5
  simp only [View.ld_unit_zero (S := S1000x128) hz2, View.ld_unit_zero (S := S4x128) hz2]
  refine View.canon_apply_of_pieces (Val := Elt Ideal) (e := .f32) (scaled (n := 1000) x0 x1 x2 x3 x4) _ ?_ y (cover2_5 _ _ _ _ y)
  intro p hp x
  simp only [List.mem_cons, List.mem_nil_iff, or_false] at hp
  rcases hp with rfl | rfl | rfl | rfl
  · obtain ⟨u, a, b, rfl⟩ : ∃ (u : Fin 1) (a : Fin 1000) (b : Fin 128), x = ix3 u a b := ⟨x 0, x 1, x 2, eq_ix3 x⟩
    show k2_pay1 (k2_pay6 x3) (k2_pay7 x4) (ix3 u a b) = scaled (n := 1000) x0 x1 x2 x3 x4 (r2_5.emb (ix3 u a b))
    rw [k2_pay1_apply, show r2_5.emb (ix3 u a b) = ix3 (3 : Fin 4) a b from row_emb 3 _ u a b]
    rfl
  · obtain ⟨u, a, b, rfl⟩ : ∃ (u : Fin 1) (a : Fin 1000) (b : Fin 128), x = ix3 u a b := ⟨x 0, x 1, x 2, eq_ix3 x⟩
    show k2_pay5 x4 x2 (ix3 u a b) = scaled (n := 1000) x0 x1 x2 x3 x4 (r2_4.emb (ix3 u a b))
    rw [k2_pay5_apply, show r2_4.emb (ix3 u a b) = ix3 (2 : Fin 4) a b from row_emb 2 _ u a b]
    rfl
  · obtain ⟨u, a, b, rfl⟩ : ∃ (u : Fin 1) (a : Fin 1000) (b : Fin 128), x = ix3 u a b := ⟨x 0, x 1, x 2, eq_ix3 x⟩
    show k2_pay4 x4 x1 (ix3 u a b) = scaled (n := 1000) x0 x1 x2 x3 x4 (r2_3.emb (ix3 u a b))
    rw [k2_pay4_apply, show r2_3.emb (ix3 u a b) = ix3 (1 : Fin 4) a b from row_emb 1 _ u a b]
    rfl
  · obtain ⟨u, a, b, rfl⟩ : ∃ (u : Fin 1) (a : Fin 1000) (b : Fin 128), x = ix3 u a b := ⟨x 0, x 1, x 2, eq_ix3 x⟩
    show k2_pay3 x4 x0 (ix3 u a b) = scaled (n := 1000) x0 x1 x2 x3 x4 (r2_2.emb (ix3 u a b))
    rw [k2_pay3_apply, show r2_2.emb (ix3 u a b) = ix3 (0 : Fin 4) a b from row_emb 0 _ u a b]
    rfl

/-- The index maps over the grid: each table's block index is `(t, 0)`, the scale's `(0, 0)`, the
    output's `(0, t, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 3) = 0 ∧ win2_5.index t (1 : Fin 3) = t.val ∧ win2_5.index t (2 : Fin 3) = 0 :=
  (by decide +kernel : ∀ t : Fin grid2.N, _)

theorem lt_N2 (t : Fin cfg2.N) : t.val < 75 := Nat.lt_of_lt_of_eq t.isLt N_2

section
variable (V : (c : Dev nD) → (b : Ref sig .tc) → Buf (Elt Ideal) ((c : Thread nD τ).loc b))

/-- Table 0's block at point `t` is rows `1000 t … 1000 t + 999` of its array. -/
theorem iblk2_0_apply (c : Dev nD) (t : Fin cfg2.N) (a : Fin 1000) (b : Fin 128) (r : Fin 75000) (hr : r.val = t.val * 1000 + a.val) :
    (iblk2 (F := Ideal) V c 0 t : S1000x128.Idx → EReal) (ix2 a b) = (V c main_v118 : S75000x128.Idx → EReal) (ix2 r b) := by
  obtain ⟨e0, e1, e2, e3, e4, e5, e6, e7, -⟩ := idx_facts2 t
  unfold iblk2
  rw [View.read_apply]
  show V c main_v118 (((cfg2.win 0).blk t).view.emb (ix2 a b)) = V c main_v118 (ix2 r b)
  refine congrArg _ (funext fun ax => Fin.ext ?_)
  match ax with
  | ⟨0, _⟩ => show win2_0.index t (0 : Fin 2) * 1000 + 1 * a.val = r.val; rw [e0, hr]; omega
  | ⟨1, _⟩ => show win2_0.index t (1 : Fin 2) * 128 + 1 * b.val = b.val; rw [e1]; omega

/-- Table 1's block at point `t` is rows `1000 t … 1000 t + 999` of its array. -/
theorem iblk2_1_apply (c : Dev nD) (t : Fin cfg2.N) (a : Fin 1000) (b : Fin 128) (r : Fin 75000) (hr : r.val = t.val * 1000 + a.val) :
    (iblk2 (F := Ideal) V c 1 t : S1000x128.Idx → EReal) (ix2 a b) = (V c main_v119 : S75000x128.Idx → EReal) (ix2 r b) := by
  obtain ⟨e0, e1, e2, e3, e4, e5, e6, e7, -⟩ := idx_facts2 t
  unfold iblk2
  rw [View.read_apply]
  show V c main_v119 (((cfg2.win 1).blk t).view.emb (ix2 a b)) = V c main_v119 (ix2 r b)
  refine congrArg _ (funext fun ax => Fin.ext ?_)
  match ax with
  | ⟨0, _⟩ => show win2_1.index t (0 : Fin 2) * 1000 + 1 * a.val = r.val; rw [e2, hr]; omega
  | ⟨1, _⟩ => show win2_1.index t (1 : Fin 2) * 128 + 1 * b.val = b.val; rw [e3]; omega

/-- Table 2's block at point `t` is rows `1000 t … 1000 t + 999` of its array. -/
theorem iblk2_2_apply (c : Dev nD) (t : Fin cfg2.N) (a : Fin 1000) (b : Fin 128) (r : Fin 75000) (hr : r.val = t.val * 1000 + a.val) :
    (iblk2 (F := Ideal) V c 2 t : S1000x128.Idx → EReal) (ix2 a b) = (V c main_v120 : S75000x128.Idx → EReal) (ix2 r b) := by
  obtain ⟨e0, e1, e2, e3, e4, e5, e6, e7, -⟩ := idx_facts2 t
  unfold iblk2
  rw [View.read_apply]
  show V c main_v120 (((cfg2.win 2).blk t).view.emb (ix2 a b)) = V c main_v120 (ix2 r b)
  refine congrArg _ (funext fun ax => Fin.ext ?_)
  match ax with
  | ⟨0, _⟩ => show win2_2.index t (0 : Fin 2) * 1000 + 1 * a.val = r.val; rw [e4, hr]; omega
  | ⟨1, _⟩ => show win2_2.index t (1 : Fin 2) * 128 + 1 * b.val = b.val; rw [e5]; omega

/-- Table 3's block at point `t` is rows `1000 t … 1000 t + 999` of its array. -/
theorem iblk2_3_apply (c : Dev nD) (t : Fin cfg2.N) (a : Fin 1000) (b : Fin 128) (r : Fin 75000) (hr : r.val = t.val * 1000 + a.val) :
    (iblk2 (F := Ideal) V c 3 t : S1000x128.Idx → EReal) (ix2 a b) = (V c main_v121 : S75000x128.Idx → EReal) (ix2 r b) := by
  obtain ⟨e0, e1, e2, e3, e4, e5, e6, e7, -⟩ := idx_facts2 t
  unfold iblk2
  rw [View.read_apply]
  show V c main_v121 (((cfg2.win 3).blk t).view.emb (ix2 a b)) = V c main_v121 (ix2 r b)
  refine congrArg _ (funext fun ax => Fin.ext ?_)
  match ax with
  | ⟨0, _⟩ => show win2_3.index t (0 : Fin 2) * 1000 + 1 * a.val = r.val; rw [e6, hr]; omega
  | ⟨1, _⟩ => show win2_3.index t (1 : Fin 2) * 128 + 1 * b.val = b.val; rw [e7]; omega

/-- The scale's block at every point is the whole scale. -/
theorem iblk2_4_apply (c : Dev nD) (t : Fin cfg2.N) (k : Fin 4) (b : Fin 128) :
    (iblk2 (F := Ideal) V c 4 t : S4x128.Idx → EReal) (ix2 k b) = (V c main_v122 : S4x128.Idx → EReal) (ix2 k b) := by
  obtain ⟨-, -, -, -, -, -, -, -, e8, e9, -⟩ := idx_facts2 t
  unfold iblk2
  rw [View.read_apply]
  show V c main_v122 (((cfg2.win 4).blk t).view.emb (ix2 k b)) = V c main_v122 (ix2 k b)
  refine congrArg _ (funext fun ax => Fin.ext ?_)
  match ax with
  | ⟨0, _⟩ => show win2_4.index t (0 : Fin 2) * 4 + 1 * k.val = k.val; rw [e8]; omega
  | ⟨1, _⟩ => show win2_4.index t (1 : Fin 2) * 128 + 1 * b.val = b.val; rw [e9]; omega

/-- What point `t` writes back is block `t` of the scaled tables. -/
theorem flushed2_eq (c : Dev nD) (t : Fin cfg2.N) :
    (dat2 (F := Ideal) V c).flushed 5 t = ((cfg2.win 5).blk t).view.read (Elt Ideal)
      (scaled (n := 75000) (V c main_v118) (V c main_v119) (V c main_v120) (V c main_v121) (V c main_v122)) := by
  show (cfg2.win 5).cut (grid2.coords t) ((dat2 V c).after 5 t) = _
  rw [after2_5, out2_5_eq]
  funext y
  obtain ⟨k, a, b, rfl⟩ : ∃ (k : Fin 4) (a : Fin 1000) (b : Fin 128), y = ix3 k a b := ⟨y 0, y 1, y 2, eq_ix3 y⟩
  obtain ⟨-, -, -, -, -, -, -, -, -, -, e10, e11, e12⟩ := idx_facts2 t
  have ht := lt_N2 t
  have ha := a.isLt
  rw [View.read_apply]
  have he : ((cfg2.win 5).blk t).view.emb (ix3 k a b) = ix3 k (⟨t.val * 1000 + a.val, by omega⟩ : Fin 75000) b := by
    funext ax; apply Fin.ext
    match ax with
    | ⟨0, _⟩ => show win2_5.index t (0 : Fin 3) * 4 + 1 * k.val = k.val; rw [e10]; omega
    | ⟨1, _⟩ => show win2_5.index t (1 : Fin 3) * 1000 + 1 * a.val = t.val * 1000 + a.val; rw [e11]; omega
    | ⟨2, _⟩ => show win2_5.index t (2 : Fin 3) * 128 + 1 * b.val = b.val; rw [e12]; omega
  rw [he]
  exact scaled_congr _ _ _ _ _ _ _ _ _ _ k a _ b (iblk2_0_apply V c t a b _ rfl) (iblk2_1_apply V c t a b _ rfl)
    (iblk2_2_apply V c t a b _ rfl) (iblk2_3_apply V c t a b _ rfl) (iblk2_4_apply V c t k b)

/-- An index of the result array is in point `t`'s block iff each coordinate is in the block's range on its axis. -/
theorem mem_blk2 (t : Fin cfg2.N) (i : S4x75000x128.Idx) :
    i ∈ ((cfg2.win 5).blk t).view.set ↔ ∀ a : Fin 3, win2_5.index t a * S4x1000x128.size a ≤ (i a).val ∧ (i a).val < win2_5.index t a * S4x1000x128.size a + S4x1000x128.size a := by
  show i ∈ ((View.whole main_v123).slice (win2_5.rect t)).set ↔ _
  rw [View.set_slice_whole, Rect.mem_set_unit]
  exact Iff.rfl

/-- THE RESULT ARRAY of the third launch: the four tables the launch reads, each scaled row by row by its row of the scale. -/
theorem arr_user (c : Dev nD) :
    (dat2 (F := Ideal) V c).arrAt 5 cfg2.N
      = scaled (n := 75000) (V c main_v118) (V c main_v119) (V c main_v120) (V c main_v121) (V c main_v122) :=
  (dat2 (F := Ideal) V c).arrAt_eq_of_cover 5 _ (fun t _ => flushed2_eq V c t) fun i => by
    have h0 : (i 0).val < 4 := (i 0).isLt
    have h1 : (i 1).val < 75000 := (i 1).isLt
    have h2 : (i 2).val < 128 := (i 2).isLt
    let t : Fin cfg2.N := ⟨(i 1).val / 1000, Nat.lt_of_lt_of_eq (by omega : (i 1).val / 1000 < 75) N_2.symm⟩
    obtain ⟨-, -, -, -, -, -, -, -, -, -, e10, e11, e12⟩ := idx_facts2 t
    refine ⟨t, flush2_5 t, ?_⟩
    rw [mem_blk2]
    intro a
    match a with
    | ⟨0, _⟩ => show win2_5.index t (0 : Fin 3) * 4 ≤ (i 0).val ∧ (i 0).val < win2_5.index t (0 : Fin 3) * 4 + 4; rw [e10]; omega
    | ⟨1, _⟩ => show win2_5.index t (1 : Fin 3) * 1000 ≤ (i 1).val ∧ (i 1).val < win2_5.index t (1 : Fin 3) * 1000 + 1000; rw [e11]; show (i 1).val / 1000 * 1000 ≤ (i 1).val ∧ (i 1).val < (i 1).val / 1000 * 1000 + 1000; omega
    | ⟨2, _⟩ => show win2_5.index t (2 : Fin 3) * 128 ≤ (i 2).val ∧ (i 2).val < win2_5.index t (2 : Fin 3) * 128 + 128; rw [e12]; omega

end

/-! ## The fourth launch: from the body's stores to the whole array -/

/-- The output block after the body: each table's block scaled by its row of the scale. -/
theorem out3_5_eq (x0 x1 x2 x3 : Vec Ideal S1000x128 .f32) (x4 : Vec Ideal S4x128 .f32) :
    out3_5 (F := Ideal) x0 x1 x2 x3 x4 = scaled (n := 1000) x0 x1 x2 x3 x4 := by
  funext y
  unfold out3_5
  simp only [View.ld_unit_zero (S := S1000x128) hz2, View.ld_unit_zero (S := S4x128) hz2]
  refine View.canon_apply_of_pieces (Val := Elt Ideal) (e := .f32) (scaled (n := 1000) x0 x1 x2 x3 x4) _ ?_ y (cover3_5 _ _ _ _ y)
  intro p hp x
  simp only [List.mem_cons, List.mem_nil_iff, or_false] at hp
  rcases hp with rfl | rfl | rfl | rfl
  · obtain ⟨u, a, b, rfl⟩ : ∃ (u : Fin 1) (a : Fin 1000) (b : Fin 128), x = ix3 u a b := ⟨x 0, x 1, x 2, eq_ix3 x⟩
    show k3_pay1 (k3_pay6 x3) (k3_pay7 x4) (ix3 u a b) = scaled (n := 1000) x0 x1 x2 x3 x4 (r3_5.emb (ix3 u a b))
    rw [k3_pay1_apply, show r3_5.emb (ix3 u a b) = ix3 (3 : Fin 4) a b from row_emb 3 _ u a b]
    rfl
  · obtain ⟨u, a, b, rfl⟩ : ∃ (u : Fin 1) (a : Fin 1000) (b : Fin 128), x = ix3 u a b := ⟨x 0, x 1, x 2, eq_ix3 x⟩
    show k3_pay5 x4 x2 (ix3 u a b) = scaled (n := 1000) x0 x1 x2 x3 x4 (r3_4.emb (ix3 u a b))
    rw [k3_pay5_apply, show r3_4.emb (ix3 u a b) = ix3 (2 : Fin 4) a b from row_emb 2 _ u a b]
    rfl
  · obtain ⟨u, a, b, rfl⟩ : ∃ (u : Fin 1) (a : Fin 1000) (b : Fin 128), x = ix3 u a b := ⟨x 0, x 1, x 2, eq_ix3 x⟩
    show k3_pay4 x4 x1 (ix3 u a b) = scaled (n := 1000) x0 x1 x2 x3 x4 (r3_3.emb (ix3 u a b))
    rw [k3_pay4_apply, show r3_3.emb (ix3 u a b) = ix3 (1 : Fin 4) a b from row_emb 1 _ u a b]
    rfl
  · obtain ⟨u, a, b, rfl⟩ : ∃ (u : Fin 1) (a : Fin 1000) (b : Fin 128), x = ix3 u a b := ⟨x 0, x 1, x 2, eq_ix3 x⟩
    show k3_pay3 x4 x0 (ix3 u a b) = scaled (n := 1000) x0 x1 x2 x3 x4 (r3_2.emb (ix3 u a b))
    rw [k3_pay3_apply, show r3_2.emb (ix3 u a b) = ix3 (0 : Fin 4) a b from row_emb 0 _ u a b]
    rfl

/-- The index maps over the grid: each table's block index is `(t, 0)`, the scale's `(0, 0)`, the
    output's `(0, t, 0)`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 3) = 0 ∧ win3_5.index t (1 : Fin 3) = t.val ∧ win3_5.index t (2 : Fin 3) = 0 :=
  (by decide +kernel : ∀ t : Fin grid3.N, _)

theorem lt_N3 (t : Fin cfg3.N) : t.val < 40 := Nat.lt_of_lt_of_eq t.isLt N_3

section
variable (V : (c : Dev nD) → (b : Ref sig .tc) → Buf (Elt Ideal) ((c : Thread nD τ).loc b))

/-- Table 0's block at point `t` is rows `1000 t … 1000 t + 999` of its array. -/
theorem iblk3_0_apply (c : Dev nD) (t : Fin cfg3.N) (a : Fin 1000) (b : Fin 128) (r : Fin 40000) (hr : r.val = t.val * 1000 + a.val) :
    (iblk3 (F := Ideal) V c 0 t : S1000x128.Idx → EReal) (ix2 a b) = (V c main_v125 : S40000x128.Idx → EReal) (ix2 r b) := by
  obtain ⟨e0, e1, e2, e3, e4, e5, e6, e7, -⟩ := idx_facts3 t
  unfold iblk3
  rw [View.read_apply]
  show V c main_v125 (((cfg3.win 0).blk t).view.emb (ix2 a b)) = V c main_v125 (ix2 r b)
  refine congrArg _ (funext fun ax => Fin.ext ?_)
  match ax with
  | ⟨0, _⟩ => show win3_0.index t (0 : Fin 2) * 1000 + 1 * a.val = r.val; rw [e0, hr]; omega
  | ⟨1, _⟩ => show win3_0.index t (1 : Fin 2) * 128 + 1 * b.val = b.val; rw [e1]; omega

/-- Table 1's block at point `t` is rows `1000 t … 1000 t + 999` of its array. -/
theorem iblk3_1_apply (c : Dev nD) (t : Fin cfg3.N) (a : Fin 1000) (b : Fin 128) (r : Fin 40000) (hr : r.val = t.val * 1000 + a.val) :
    (iblk3 (F := Ideal) V c 1 t : S1000x128.Idx → EReal) (ix2 a b) = (V c main_v126 : S40000x128.Idx → EReal) (ix2 r b) := by
  obtain ⟨e0, e1, e2, e3, e4, e5, e6, e7, -⟩ := idx_facts3 t
  unfold iblk3
  rw [View.read_apply]
  show V c main_v126 (((cfg3.win 1).blk t).view.emb (ix2 a b)) = V c main_v126 (ix2 r b)
  refine congrArg _ (funext fun ax => Fin.ext ?_)
  match ax with
  | ⟨0, _⟩ => show win3_1.index t (0 : Fin 2) * 1000 + 1 * a.val = r.val; rw [e2, hr]; omega
  | ⟨1, _⟩ => show win3_1.index t (1 : Fin 2) * 128 + 1 * b.val = b.val; rw [e3]; omega

/-- Table 2's block at point `t` is rows `1000 t … 1000 t + 999` of its array. -/
theorem iblk3_2_apply (c : Dev nD) (t : Fin cfg3.N) (a : Fin 1000) (b : Fin 128) (r : Fin 40000) (hr : r.val = t.val * 1000 + a.val) :
    (iblk3 (F := Ideal) V c 2 t : S1000x128.Idx → EReal) (ix2 a b) = (V c main_v127 : S40000x128.Idx → EReal) (ix2 r b) := by
  obtain ⟨e0, e1, e2, e3, e4, e5, e6, e7, -⟩ := idx_facts3 t
  unfold iblk3
  rw [View.read_apply]
  show V c main_v127 (((cfg3.win 2).blk t).view.emb (ix2 a b)) = V c main_v127 (ix2 r b)
  refine congrArg _ (funext fun ax => Fin.ext ?_)
  match ax with
  | ⟨0, _⟩ => show win3_2.index t (0 : Fin 2) * 1000 + 1 * a.val = r.val; rw [e4, hr]; omega
  | ⟨1, _⟩ => show win3_2.index t (1 : Fin 2) * 128 + 1 * b.val = b.val; rw [e5]; omega

/-- Table 3's block at point `t` is rows `1000 t … 1000 t + 999` of its array. -/
theorem iblk3_3_apply (c : Dev nD) (t : Fin cfg3.N) (a : Fin 1000) (b : Fin 128) (r : Fin 40000) (hr : r.val = t.val * 1000 + a.val) :
    (iblk3 (F := Ideal) V c 3 t : S1000x128.Idx → EReal) (ix2 a b) = (V c main_v128 : S40000x128.Idx → EReal) (ix2 r b) := by
  obtain ⟨e0, e1, e2, e3, e4, e5, e6, e7, -⟩ := idx_facts3 t
  unfold iblk3
  rw [View.read_apply]
  show V c main_v128 (((cfg3.win 3).blk t).view.emb (ix2 a b)) = V c main_v128 (ix2 r b)
  refine congrArg _ (funext fun ax => Fin.ext ?_)
  match ax with
  | ⟨0, _⟩ => show win3_3.index t (0 : Fin 2) * 1000 + 1 * a.val = r.val; rw [e6, hr]; omega
  | ⟨1, _⟩ => show win3_3.index t (1 : Fin 2) * 128 + 1 * b.val = b.val; rw [e7]; omega

/-- The scale's block at every point is the whole scale. -/
theorem iblk3_4_apply (c : Dev nD) (t : Fin cfg3.N) (k : Fin 4) (b : Fin 128) :
    (iblk3 (F := Ideal) V c 4 t : S4x128.Idx → EReal) (ix2 k b) = (V c main_v129 : S4x128.Idx → EReal) (ix2 k b) := by
  obtain ⟨-, -, -, -, -, -, -, -, e8, e9, -⟩ := idx_facts3 t
  unfold iblk3
  rw [View.read_apply]
  show V c main_v129 (((cfg3.win 4).blk t).view.emb (ix2 k b)) = V c main_v129 (ix2 k b)
  refine congrArg _ (funext fun ax => Fin.ext ?_)
  match ax with
  | ⟨0, _⟩ => show win3_4.index t (0 : Fin 2) * 4 + 1 * k.val = k.val; rw [e8]; omega
  | ⟨1, _⟩ => show win3_4.index t (1 : Fin 2) * 128 + 1 * b.val = b.val; rw [e9]; omega

/-- What point `t` writes back is block `t` of the scaled tables. -/
theorem flushed3_eq (c : Dev nD) (t : Fin cfg3.N) :
    (dat3 (F := Ideal) V c).flushed 5 t = ((cfg3.win 5).blk t).view.read (Elt Ideal)
      (scaled (n := 40000) (V c main_v125) (V c main_v126) (V c main_v127) (V c main_v128) (V c main_v129)) := by
  show (cfg3.win 5).cut (grid3.coords t) ((dat3 V c).after 5 t) = _
  rw [after3_5, out3_5_eq]
  funext y
  obtain ⟨k, a, b, rfl⟩ : ∃ (k : Fin 4) (a : Fin 1000) (b : Fin 128), y = ix3 k a b := ⟨y 0, y 1, y 2, eq_ix3 y⟩
  obtain ⟨-, -, -, -, -, -, -, -, -, -, e10, e11, e12⟩ := idx_facts3 t
  have ht := lt_N3 t
  have ha := a.isLt
  rw [View.read_apply]
  have he : ((cfg3.win 5).blk t).view.emb (ix3 k a b) = ix3 k (⟨t.val * 1000 + a.val, by omega⟩ : Fin 40000) b := by
    funext ax; apply Fin.ext
    match ax with
    | ⟨0, _⟩ => show win3_5.index t (0 : Fin 3) * 4 + 1 * k.val = k.val; rw [e10]; omega
    | ⟨1, _⟩ => show win3_5.index t (1 : Fin 3) * 1000 + 1 * a.val = t.val * 1000 + a.val; rw [e11]; omega
    | ⟨2, _⟩ => show win3_5.index t (2 : Fin 3) * 128 + 1 * b.val = b.val; rw [e12]; omega
  rw [he]
  exact scaled_congr _ _ _ _ _ _ _ _ _ _ k a _ b (iblk3_0_apply V c t a b _ rfl) (iblk3_1_apply V c t a b _ rfl)
    (iblk3_2_apply V c t a b _ rfl) (iblk3_3_apply V c t a b _ rfl) (iblk3_4_apply V c t k b)

/-- An index of the result array is in point `t`'s block iff each coordinate is in the block's range on its axis. -/
theorem mem_blk3 (t : Fin cfg3.N) (i : S4x40000x128.Idx) :
    i ∈ ((cfg3.win 5).blk t).view.set ↔ ∀ a : Fin 3, win3_5.index t a * S4x1000x128.size a ≤ (i a).val ∧ (i a).val < win3_5.index t a * S4x1000x128.size a + S4x1000x128.size a := by
  show i ∈ ((View.whole main_v130).slice (win3_5.rect t)).set ↔ _
  rw [View.set_slice_whole, Rect.mem_set_unit]
  exact Iff.rfl

/-- THE RESULT ARRAY of the fourth launch: the four tables the launch reads, each scaled row by row by its row of the scale. -/
theorem arr_item (c : Dev nD) :
    (dat3 (F := Ideal) V c).arrAt 5 cfg3.N
      = scaled (n := 40000) (V c main_v125) (V c main_v126) (V c main_v127) (V c main_v128) (V c main_v129) :=
  (dat3 (F := Ideal) V c).arrAt_eq_of_cover 5 _ (fun t _ => flushed3_eq V c t) fun i => by
    have h0 : (i 0).val < 4 := (i 0).isLt
    have h1 : (i 1).val < 40000 := (i 1).isLt
    have h2 : (i 2).val < 128 := (i 2).isLt
    let t : Fin cfg3.N := ⟨(i 1).val / 1000, Nat.lt_of_lt_of_eq (by omega : (i 1).val / 1000 < 40) N_3.symm⟩
    obtain ⟨-, -, -, -, -, -, -, -, -, -, e10, e11, e12⟩ := idx_facts3 t
    refine ⟨t, flush3_5 t, ?_⟩
    rw [mem_blk3]
    intro a
    match a with
    | ⟨0, _⟩ => show win3_5.index t (0 : Fin 3) * 4 ≤ (i 0).val ∧ (i 0).val < win3_5.index t (0 : Fin 3) * 4 + 4; rw [e10]; omega
    | ⟨1, _⟩ => show win3_5.index t (1 : Fin 3) * 1000 ≤ (i 1).val ∧ (i 1).val < win3_5.index t (1 : Fin 3) * 1000 + 1000; rw [e11]; show (i 1).val / 1000 * 1000 ≤ (i 1).val ∧ (i 1).val < (i 1).val / 1000 * 1000 + 1000; omega
    | ⟨2, _⟩ => show win3_5.index t (2 : Fin 3) * 128 ≤ (i 2).val ∧ (i 2).val < win3_5.index t (2 : Fin 3) * 128 + 128; rw [e12]; omega

end

/-! ## The pairing of rows into 128 lanes, undone -/

/-- The scale doubled along the lanes reads, at lane `l`, the scale at feature `l mod 64`. -/
theorem concat_scale_apply (s : S4x64.Idx → EReal) (j : Fin 4) (l : Fin 128) (d : Fin 64) (hd : l.val % 64 = d.val) :
    concatenate S4x128 1 [⟨S4x64, s⟩, ⟨S4x64, s⟩] concatenates_S4x64_S4x64_S4x128_d1 (ix2 j l) = s (ix2 j d) := by
  by_cases hl : l.val < 64
  · refine concatenate_pair_apply_left (1 : Fin 2) s s concatenates_S4x64_S4x64_S4x128_d1 (ix2 j l) rfl (ix2 j d) fun b => ?_
    match b with
    | ⟨0, _⟩ => rfl
    | ⟨1, _⟩ => show d.val = l.val; omega
  · refine concatenate_pair_apply_right (1 : Fin 2) s s concatenates_S4x64_S4x64_S4x128_d1 (ix2 j l) rfl rfl (ix2 j d) (fun b hb => ?_) ?_
    · match b with
      | ⟨0, _⟩ => rfl
      | ⟨1, _⟩ => exact absurd rfl hb
    · show d.val + 64 = l.val
      have := l.isLt; omega

/-- Two rows paired into one of 128 lanes, scaled by the doubled scale, and unpaired again: every entry of table
    `j` is multiplied by the scale of its own relation and feature. -/
theorem unpair_user (u : Fin 4 → (S150000x64.Idx → EReal)) (s : S4x64.Idx → EReal) :
    shapeCast S4x150000x64 (fun i : S4x75000x128.Idx =>
        (shapeCast S75000x128 (u (i 0)) shapeCasts_S150000x64_S75000x128) (ix2 (i 1) (i 2))
          * (concatenate S4x128 1 [⟨S4x64, s⟩, ⟨S4x64, s⟩] concatenates_S4x64_S4x64_S4x128_d1) (ix2 (i 0) (i 2)))
      shapeCasts_S4x75000x128_S4x150000x64
      = fun i => u (i 0) (ix2 (i 1) (i 2)) * s (ix2 (i 0) (i 2)) := by
  funext i
  obtain ⟨j, r, d, rfl⟩ : ∃ (j : Fin 4) (r : Fin 150000) (d : Fin 64), i = ix3 j r d := ⟨i 0, i 1, i 2, eq_ix3 i⟩
  have hr := r.isLt
  have hd := d.isLt
  refine (shapeCast_apply _ shapeCasts_S4x75000x128_S4x150000x64 (ix3 j r d)
    (ix3 j (⟨r.val / 2, by omega⟩ : Fin 75000) (⟨(r.val % 2) * 64 + d.val, by omega⟩ : Fin 128)) ?_).trans ?_
  · rw [Shape.rowMajor_val_three, Shape.rowMajor_val_three]
    show (j.val * 75000 + r.val / 2) * 128 + ((r.val % 2) * 64 + d.val) = (j.val * 150000 + r.val) * 64 + d.val
    omega
  · show shapeCast S75000x128 (u j) shapeCasts_S150000x64_S75000x128 (ix2 (⟨r.val / 2, _⟩ : Fin 75000) (⟨(r.val % 2) * 64 + d.val, _⟩ : Fin 128))
        * concatenate S4x128 1 [⟨S4x64, s⟩, ⟨S4x64, s⟩] concatenates_S4x64_S4x64_S4x128_d1 (ix2 j (⟨(r.val % 2) * 64 + d.val, _⟩ : Fin 128))
        = u j (ix2 r d) * s (ix2 j d)
    rw [concat_scale_apply s j _ d (by show ((r.val % 2) * 64 + d.val) % 64 = d.val; omega)]
    congr 1
    refine shapeCast_apply _ shapeCasts_S150000x64_S75000x128 _ (ix2 r d) ?_
    rw [Shape.rowMajor_val_two, Shape.rowMajor_val_two]
    show r.val * 64 + d.val = (r.val / 2) * 128 + ((r.val % 2) * 64 + d.val)
    omega

/-- The same, for the four paired tables written out and scaled by `scaled`: the form the launch's result array has. -/
theorem unpair_user_scaled (u0 u1 u2 u3 : S150000x64.Idx → EReal) (s : S4x64.Idx → EReal) :
    shapeCast S4x150000x64
        (scaled (n := 75000) (shapeCast S75000x128 u0 shapeCasts_S150000x64_S75000x128) (shapeCast S75000x128 u1 shapeCasts_S150000x64_S75000x128)
          (shapeCast S75000x128 u2 shapeCasts_S150000x64_S75000x128) (shapeCast S75000x128 u3 shapeCasts_S150000x64_S75000x128)
          (concatenate S4x128 1 [⟨S4x64, s⟩, ⟨S4x64, s⟩] concatenates_S4x64_S4x64_S4x128_d1))
        shapeCasts_S4x75000x128_S4x150000x64
      = fun i => (![u0, u1, u2, u3] (i 0)) (ix2 (i 1) (i 2)) * s (ix2 (i 0) (i 2)) := by
  refine Eq.trans (congrArg (fun X => shapeCast S4x150000x64 X shapeCasts_S4x75000x128_S4x150000x64) ?_) (unpair_user ![u0, u1, u2, u3] s)
  funext i
  obtain ⟨k, r, l, rfl⟩ : ∃ (k : Fin 4) (r : Fin 75000) (l : Fin 128), i = ix3 k r l := ⟨i 0, i 1, i 2, eq_ix3 i⟩
  match k with
  | ⟨0, _⟩ => rfl
  | ⟨1, _⟩ => rfl
  | ⟨2, _⟩ => rfl
  | ⟨3, _⟩ => rfl

/-- Two rows paired into one of 128 lanes, scaled by the doubled scale, and unpaired again: every entry of table
    `j` is multiplied by the scale of its own relation and feature. -/
theorem unpair_item (u : Fin 4 → (S80000x64.Idx → EReal)) (s : S4x64.Idx → EReal) :
    shapeCast S4x80000x64 (fun i : S4x40000x128.Idx =>
        (shapeCast S40000x128 (u (i 0)) shapeCasts_S80000x64_S40000x128) (ix2 (i 1) (i 2))
          * (concatenate S4x128 1 [⟨S4x64, s⟩, ⟨S4x64, s⟩] concatenates_S4x64_S4x64_S4x128_d1) (ix2 (i 0) (i 2)))
      shapeCasts_S4x40000x128_S4x80000x64
      = fun i => u (i 0) (ix2 (i 1) (i 2)) * s (ix2 (i 0) (i 2)) := by
  funext i
  obtain ⟨j, r, d, rfl⟩ : ∃ (j : Fin 4) (r : Fin 80000) (d : Fin 64), i = ix3 j r d := ⟨i 0, i 1, i 2, eq_ix3 i⟩
  have hr := r.isLt
  have hd := d.isLt
  refine (shapeCast_apply _ shapeCasts_S4x40000x128_S4x80000x64 (ix3 j r d)
    (ix3 j (⟨r.val / 2, by omega⟩ : Fin 40000) (⟨(r.val % 2) * 64 + d.val, by omega⟩ : Fin 128)) ?_).trans ?_
  · rw [Shape.rowMajor_val_three, Shape.rowMajor_val_three]
    show (j.val * 40000 + r.val / 2) * 128 + ((r.val % 2) * 64 + d.val) = (j.val * 80000 + r.val) * 64 + d.val
    omega
  · show shapeCast S40000x128 (u j) shapeCasts_S80000x64_S40000x128 (ix2 (⟨r.val / 2, _⟩ : Fin 40000) (⟨(r.val % 2) * 64 + d.val, _⟩ : Fin 128))
        * concatenate S4x128 1 [⟨S4x64, s⟩, ⟨S4x64, s⟩] concatenates_S4x64_S4x64_S4x128_d1 (ix2 j (⟨(r.val % 2) * 64 + d.val, _⟩ : Fin 128))
        = u j (ix2 r d) * s (ix2 j d)
    rw [concat_scale_apply s j _ d (by show ((r.val % 2) * 64 + d.val) % 64 = d.val; omega)]
    congr 1
    refine shapeCast_apply _ shapeCasts_S80000x64_S40000x128 _ (ix2 r d) ?_
    rw [Shape.rowMajor_val_two, Shape.rowMajor_val_two]
    show r.val * 64 + d.val = (r.val / 2) * 128 + ((r.val % 2) * 64 + d.val)
    omega

/-- The same, for the four paired tables written out and scaled by `scaled`: the form the launch's result array has. -/
theorem unpair_item_scaled (u0 u1 u2 u3 : S80000x64.Idx → EReal) (s : S4x64.Idx → EReal) :
    shapeCast S4x80000x64
        (scaled (n := 40000) (shapeCast S40000x128 u0 shapeCasts_S80000x64_S40000x128) (shapeCast S40000x128 u1 shapeCasts_S80000x64_S40000x128)
          (shapeCast S40000x128 u2 shapeCasts_S80000x64_S40000x128) (shapeCast S40000x128 u3 shapeCasts_S80000x64_S40000x128)
          (concatenate S4x128 1 [⟨S4x64, s⟩, ⟨S4x64, s⟩] concatenates_S4x64_S4x64_S4x128_d1))
        shapeCasts_S4x40000x128_S4x80000x64
      = fun i => (![u0, u1, u2, u3] (i 0)) (ix2 (i 1) (i 2)) * s (ix2 (i 0) (i 2)) := by
  refine Eq.trans (congrArg (fun X => shapeCast S4x80000x64 X shapeCasts_S4x40000x128_S4x80000x64) ?_) (unpair_item ![u0, u1, u2, u3] s)
  funext i
  obtain ⟨k, r, l, rfl⟩ : ∃ (k : Fin 4) (r : Fin 40000) (l : Fin 128), i = ix3 k r l := ⟨i 0, i 1, i 2, eq_ix3 i⟩
  match k with
  | ⟨0, _⟩ => rfl
  | ⟨1, _⟩ => rfl
  | ⟨2, _⟩ => rfl
  | ⟨3, _⟩ => rfl

end Cert.NormKernel

end
-- ==== Proof.Algebra.lean ====
/-
  The three scalar facts that join the two arrangements of the same arithmetic.

  * a sum of four numbers times the float `0.25` is that sum divided by the float `4.0`
    (both are the product with the real `1/4`, at the infinities too);
  * multiplying by the reciprocal `1 / M` is dividing by `M`, for `M` a maximum with the positive
    floor `floor12` (so `M` is never zero and both sides are `x · M⁻¹`);
  * a sum over `N = T · B` indices is the sum over `T` tiles of the sums over the `B` members of each
    tile (addition on the extended reals is commutative and associative: no finiteness is needed).
-/
import Idealize.ShloMosaic.PureOps.Ideal
import Idealize.ShloMosaic.PureOps.Ideal.Laws
import proofs.«110750_j39402029973982_2_alg».proof.Proof.Spec

noncomputable section

namespace Cert.Algebra

open Idealize.ShloMosaic

/-- The float `1.0` is the number one. -/
theorem one_f32 : Ideal.ofBits .f32 0x3F800000#32 = 1 := by
  simp [Ideal.ofBits, Ideal.ieee, -EReal.coe_mul]; norm_num

/-- The float `0.25` is the real `1/4`. -/
theorem quarter_f32 : Ideal.ofBits .f32 0x3E800000#32 = ((1 / 4 : ℝ) : EReal) := by
  simp [Ideal.ofBits, Ideal.ieee, -EReal.coe_mul]; norm_num

/-- The float `4.0` is the real `4`. -/
theorem four_f32 : Cert.Spec.four = ((4 : ℝ) : EReal) := by
  unfold Cert.Spec.four
  simp [Ideal.ofBits, Ideal.ieee, -EReal.coe_mul]; norm_num

/-- The floor under a norm is a positive number. -/
theorem floor12_pos : 0 < Cert.Spec.floor12 := by
  unfold Cert.Spec.floor12
  simp [Ideal.ofBits, Ideal.ieee, -EReal.coe_mul]

/-- A maximum with the floor is never zero. -/
theorem max_floor12_ne_zero (s : EReal) : max s Cert.Spec.floor12 ≠ 0 :=
  (lt_of_lt_of_le floor12_pos (le_max_right _ _)).ne'

/-- The sum of four numbers times a quarter is their sum divided by four. -/
theorem quarter (a b c d : EReal) :
    (a + b + c + d) * Ideal.ofBits .f32 0x3E800000#32
      = Ideal.div (∑ j : Fin 4, ![a, b, c, d] j) Cert.Spec.four := by
  rw [four_f32, Ideal.div_coe (by norm_num), quarter_f32, Fin.sum_univ_four]
  rfl

/-- Multiplying by the reciprocal of a floored maximum is dividing by it. -/
theorem recip_mul (x s : EReal) :
    x * Ideal.div (Ideal.ofBits .f32 0x3F800000#32) (max s Cert.Spec.floor12)
      = Ideal.div x (max s Cert.Spec.floor12) := by
  have hM := max_floor12_ne_zero s
  rw [one_f32, Ideal.div, if_neg hM, Ideal.div, if_neg hM, one_mul]

/-- A sum over `N = T · B` indices, tile by tile. -/
theorem sum_tiles {T B N : Nat} (g : Fin N → EReal)
    (e : ∀ (t : Fin T) (r : Fin B), t.val * B + r.val < N) (h : T * B = N) :
    ∑ t : Fin T, ∑ r : Fin B, g ⟨t.val * B + r.val, e t r⟩ = ∑ n : Fin N, g n := by
  subst h
  refine Eq.trans ?_ (Equiv.sum_comp (finProdFinEquiv (m := T) (n := B)) g)
  rw [Fintype.sum_prod_type]
  refine Finset.sum_congr rfl fun t _ => Finset.sum_congr rfl fun r _ => congrArg g (Fin.ext ?_)
  show t.val * B + r.val = r.val + B * t.val
  rw [Nat.mul_comm, Nat.add_comm]

end Cert.Algebra

end
-- ==== Proof.KernelAlgebra.lean ====
/-
  The kernel program's spellings of the two results against the specification.

  * The gate: the kernel adds the four tables left to right and multiplies by the float `0.25`; the specification sums
    them over the relation index and divides by the float `4.0`.  Entry by entry these are the same number.
  * The normalisation: the kernel multiplies each entry by the reciprocal `1 / max(√ss, floor)` where `ss` is the column's
    sum of squares gathered tile by tile; the specification divides by `max(√ss, floor)` with `ss` summed over all rows at
    once.  The tiles partition the rows, and multiplying by the reciprocal of a number that is never zero is dividing by it.
-/
import proofs.«110750_j39402029973982_2_alg».proof.Proof.FusedUser
import proofs.«110750_j39402029973982_2_alg».proof.Proof.FusedItem
import proofs.«110750_j39402029973982_2_alg».proof.Proof.Algebra
import proofs.«110750_j39402029973982_2_alg».proof.Proof.Spec
import Idealize.ShloMosaic.Lib.IdealHost
import Idealize.ShloMosaic.Lib.ValueIdx
import Idealize.ShloMosaic.PureOps.Ideal.Laws

set_option maxRecDepth 16384

noncomputable section

namespace Cert.KernelAlgebra

open Cert.KernelIdeal Cert.KernelIdeal.Gen
open Idealize.ShloMosaic Idealize.ShloMosaic.ValueIdx

/-- The reciprocal of the floored column norm, from the sums of squares: `1 / max(√ss, floor)`, entry by entry. -/
def invNorm (ss : FVec Ideal S4x64 .f32) : FVec Ideal S4x64 .f32 :=
  Host.divf (broadcastInDim S4x64 ![] bcast_S_S4x64 (constant (F := Ideal) S_ .f32 0x3F800000#32))
    (maximumf (Host.sqrt ss) (broadcastInDim S4x64 ![] bcast_S_S4x64 (constant (F := Ideal) S_ .f32 0x2B8CBCCC#32)))

/-- `invNorm` at relation `j` and feature `d`. -/
theorem invNorm_apply (ss : FVec Ideal S4x64 .f32) (j : Fin 4) (d : Fin 64) :
    invNorm ss (ix2 j d)
      = Ideal.div (Ideal.ofBits .f32 0x3F800000#32) (max (Ideal.sqrt (ss (ix2 j d))) Cert.Spec.floor12) := by
  unfold invNorm
  rw [hostDivf_apply, maximumf_apply, broadcastInDim_scalar_apply, broadcastInDim_scalar_apply, constant_apply, constant_apply]
  rfl

/-- The sum over the relation index of four tables at one entry, written out. -/
theorem sum_four (a0 a1 a2 a3 : EReal) (u : Fin 4 → EReal) (h0 : u 0 = a0) (h1 : u 1 = a1) (h2 : u 2 = a2) (h3 : u 3 = a3) :
    ∑ j : Fin 4, u j = ∑ j : Fin 4, ![a0, a1, a2, a3] j := by
  rw [Fin.sum_univ_four, Fin.sum_univ_four, h0, h1, h2, h3]
  rfl

/-- The gate in the kernel's spelling is the specification's gate (user tables). -/
theorem gate_user (a0 a1 a2 a3 : S150000x64.Idx → EReal) (w : S64x64.Idx → EReal) :
    Cert.FusedUser.gateK a0 a1 a2 a3 w = Cert.Spec.gate ![a0, a1, a2, a3] w := by
  funext i
  unfold Cert.FusedUser.gateK Cert.Spec.gate
  refine congrArg Ideal.logistic (Finset.sum_congr rfl fun k _ => ?_)
  rw [Cert.Algebra.quarter]
  refine congrArg (fun z => Ideal.div z Cert.Spec.four * w (ix2 k (i 1))) ?_
  exact (sum_four _ _ _ _ (fun j => ![a0, a1, a2, a3] j (ix2 (i 0) k)) rfl rfl rfl rfl).symm

/-- The gate in the kernel's spelling is the specification's gate (item tables). -/
theorem gate_item (a0 a1 a2 a3 : S80000x64.Idx → EReal) (w : S64x64.Idx → EReal) :
    Cert.FusedItem.gateK a0 a1 a2 a3 w = Cert.Spec.gate ![a0, a1, a2, a3] w := by
  funext i
  unfold Cert.FusedItem.gateK Cert.Spec.gate
  refine congrArg Ideal.logistic (Finset.sum_congr rfl fun k _ => ?_)
  rw [Cert.Algebra.quarter]
  refine congrArg (fun z => Ideal.div z Cert.Spec.four * w (ix2 k (i 1))) ?_
  exact (sum_four _ _ _ _ (fun j => ![a0, a1, a2, a3] j (ix2 (i 0) k)) rfl rfl rfl rfl).symm

/-- The tile sums of squares, added over the tiles, are the sums over all rows (user tables). -/
theorem sumsq_user (A : Fin 4 → S150000x64.Idx → EReal) (j : Fin 4) (d : Fin 64) :
    Host.reduceAdd (Cert.FusedUser.tileSq A) (constant (F := Ideal) S_ .f32 0x00000000#32) reducesTo_S50x4x64_S4x64_d0 h_S_ (ix2 j d)
      = ∑ R : Fin 150000, A j (ix2 R d) * A j (ix2 R d) := by
  have hred : S50x4x64.Reduces [0] S4x64 := by decide
  rw [hostReduceAdd_apply, Ideal.hostReduceAdd_single reducesTo_S50x4x64_S4x64_d0 hred, constant_apply, Ideal.ofBits_zero_f32, zero_add]
  have hl : ∀ t : Fin 50, hred.lift (ix2 j d) t = ix3 t j d := fun t => funext fun a => Fin.ext (by
    match a with
    | ⟨0, _⟩ => rfl
    | ⟨1, _⟩ => rfl
    | ⟨2, _⟩ => rfl)
  show ∑ t : Fin 50, Cert.FusedUser.tileSq A (hred.lift (ix2 j d) t) = _
  simp only [hl]
  exact Cert.Algebra.sum_tiles (T := 50) (B := 3000) (N := 150000) (fun R => A j (ix2 R d) * A j (ix2 R d))
    (fun t r => by have := t.isLt; have := r.isLt; omega) rfl

/-- The normalisation in the kernel's spelling is the specification's (user tables). -/
theorem norm_user (a0 a1 a2 a3 : S150000x64.Idx → EReal) :
    (fun i : S4x150000x64.Idx => (![a0, a1, a2, a3] (i 0)) (ix2 (i 1) (i 2))
        * invNorm (Host.reduceAdd (Cert.FusedUser.tileSq ![a0, a1, a2, a3]) (constant (F := Ideal) S_ .f32 0x00000000#32) reducesTo_S50x4x64_S4x64_d0 h_S_) (ix2 (i 0) (i 2)))
      = Cert.Spec.normed ![a0, a1, a2, a3] := by
  funext i
  obtain ⟨j, r, d, rfl⟩ : ∃ (j : Fin 4) (r : Fin 150000) (d : Fin 64), i = ix3 j r d := ⟨i 0, i 1, i 2, eq_ix3 i⟩
  show (![a0, a1, a2, a3] j) (ix2 r d) * invNorm _ (ix2 j d)
    = Ideal.div ((![a0, a1, a2, a3] j) (ix2 r d)) (max (Ideal.sqrt (∑ R : Fin 150000, (![a0, a1, a2, a3] j) (ix2 R d) * (![a0, a1, a2, a3] j) (ix2 R d))) Cert.Spec.floor12)
  rw [invNorm_apply, sumsq_user, Cert.Algebra.recip_mul]

/-- The tile sums of squares, added over the tiles, are the sums over all rows (item tables). -/
theorem sumsq_item (A : Fin 4 → S80000x64.Idx → EReal) (j : Fin 4) (d : Fin 64) :
    Host.reduceAdd (Cert.FusedItem.tileSq A) (constant (F := Ideal) S_ .f32 0x00000000#32) reducesTo_S40x4x64_S4x64_d0 h_S_ (ix2 j d)
      = ∑ R : Fin 80000, A j (ix2 R d) * A j (ix2 R d) := by
  have hred : S40x4x64.Reduces [0] S4x64 := by decide
  rw [hostReduceAdd_apply, Ideal.hostReduceAdd_single reducesTo_S40x4x64_S4x64_d0 hred, constant_apply, Ideal.ofBits_zero_f32, zero_add]
  have hl : ∀ t : Fin 40, hred.lift (ix2 j d) t = ix3 t j d := fun t => funext fun a => Fin.ext (by
    match a with
    | ⟨0, _⟩ => rfl
    | ⟨1, _⟩ => rfl
    | ⟨2, _⟩ => rfl)
  show ∑ t : Fin 40, Cert.FusedItem.tileSq A (hred.lift (ix2 j d) t) = _
  simp only [hl]
  exact Cert.Algebra.sum_tiles (T := 40) (B := 2000) (N := 80000) (fun R => A j (ix2 R d) * A j (ix2 R d))
    (fun t r => by have := t.isLt; have := r.isLt; omega) rfl

/-- The normalisation in the kernel's spelling is the specification's (item tables). -/
theorem norm_item (a0 a1 a2 a3 : S80000x64.Idx → EReal) :
    (fun i : S4x80000x64.Idx => (![a0, a1, a2, a3] (i 0)) (ix2 (i 1) (i 2))
        * invNorm (Host.reduceAdd (Cert.FusedItem.tileSq ![a0, a1, a2, a3]) (constant (F := Ideal) S_ .f32 0x00000000#32) reducesTo_S40x4x64_S4x64_d0 h_S_) (ix2 (i 0) (i 2)))
      = Cert.Spec.normed ![a0, a1, a2, a3] := by
  funext i
  obtain ⟨j, r, d, rfl⟩ : ∃ (j : Fin 4) (r : Fin 80000) (d : Fin 64), i = ix3 j r d := ⟨i 0, i 1, i 2, eq_ix3 i⟩
  show (![a0, a1, a2, a3] j) (ix2 r d) * invNorm _ (ix2 j d)
    = Ideal.div ((![a0, a1, a2, a3] j) (ix2 r d)) (max (Ideal.sqrt (∑ R : Fin 80000, (![a0, a1, a2, a3] j) (ix2 R d) * (![a0, a1, a2, a3] j) (ix2 R d))) Cert.Spec.floor12)
  rw [invNorm_apply, sumsq_item, Cert.Algebra.recip_mul]

end Cert.KernelAlgebra

end
-- ==== Proof.KernelValue.lean ====
/-
  The kernel program's ten results, over the extended reals, at the return, as functions of the eight relation tables its first
  host stretch computes and of the two weights.

  Each result buffer is followed back through the program's boundaries: the two gates are output arrays of the
  first two launches; the normalized tables are the last two launches' output arrays unpaired, the launches'
  inputs being the tables paired two rows to a lane row and the inverse norms — one over the floored square root of
  the partial sums of squares added over the tiles — doubled along the lanes; six tables are results as they are.
-/
import proofs.«110750_j39402029973982_2_alg».proof.Proof.Chain
import proofs.«110750_j39402029973982_2_alg».proof.Proof.FusedUser
import proofs.«110750_j39402029973982_2_alg».proof.Proof.FusedItem
import proofs.«110750_j39402029973982_2_alg».proof.Proof.NormKernel
import proofs.«110750_j39402029973982_2_alg».proof.Proof.KernelAlgebra

set_option maxRecDepth 16384

noncomputable section

namespace Cert.KernelValue

open Cert.KernelIdeal Cert.KernelIdeal.Gen Cert.Chain
open Idealize.ShloMosaic Idealize.ShloMosaic.TcCoe Idealize.ShloMosaic.ValueIdx Idealize.SL.Sem

variable (m : (ℓ : Loc nD τ sig) → Buf (Elt Ideal) ℓ) (ρ : Dev nD → PrngReg)

/-- The four user relation tables as the first host stretch leaves them. -/
def TU (c : Dev nD) : Fin 4 → S150000x64.Idx → EReal :=
  ![W1 m ρ c (Proc.devRef .tc main_v12), W1 m ρ c (Proc.devRef .tc main_v25), W1 m ρ c (Proc.devRef .tc main_v38), W1 m ρ c (Proc.devRef .tc main_v51)]

/-- The four item relation tables as the first host stretch leaves them. -/
def TI (c : Dev nD) : Fin 4 → S80000x64.Idx → EReal :=
  ![W1 m ρ c (Proc.devRef .tc main_v64), W1 m ρ c (Proc.devRef .tc main_v77), W1 m ρ c (Proc.devRef .tc main_v90), W1 m ρ c (Proc.devRef .tc main_v103)]

/-! ## The two gates -/

/-- The user gate at the return: the first launch's gate of the user tables and the user weight. -/
theorem gateK_user (c : Dev nD) : W9 m ρ c (Proc.devRef .tc main_v104_0)
    = Cert.FusedUser.gateK (W1 m ρ c (Proc.devRef .tc main_v12)) (W1 m ρ c (Proc.devRef .tc main_v25)) (W1 m ρ c (Proc.devRef .tc main_v38)) (W1 m ρ c (Proc.devRef .tc main_v51)) (m ((c : Thread nD τ).loc main_arg8)) := by
  rw [keep9_main_v104_0, val_v104_0, Cert.FusedUser.arr5 (V1 m ρ) c]
  show Cert.FusedUser.gateK (W1 m ρ c (Proc.devRef .tc main_v12)) (W1 m ρ c (Proc.devRef .tc main_v25)) (W1 m ρ c (Proc.devRef .tc main_v38)) (W1 m ρ c (Proc.devRef .tc main_v51)) (W1 m ρ c (Proc.devRef .tc main_arg8)) = _
  rw [keep1_main_arg8]

/-- The item gate at the return. -/
theorem gateK_item (c : Dev nD) : W9 m ρ c (Proc.devRef .tc main_v106_0)
    = Cert.FusedItem.gateK (W1 m ρ c (Proc.devRef .tc main_v64)) (W1 m ρ c (Proc.devRef .tc main_v77)) (W1 m ρ c (Proc.devRef .tc main_v90)) (W1 m ρ c (Proc.devRef .tc main_v103)) (m ((c : Thread nD τ).loc main_arg9)) := by
  rw [keep9_main_v106_0, val_v106_0, Cert.FusedItem.arr5 (V3 m ρ) c]
  show Cert.FusedItem.gateK (W3 m ρ c (Proc.devRef .tc main_v64)) (W3 m ρ c (Proc.devRef .tc main_v77)) (W3 m ρ c (Proc.devRef .tc main_v90)) (W3 m ρ c (Proc.devRef .tc main_v103)) (W3 m ρ c (Proc.devRef .tc main_arg9)) = _
  rw [keep3_main_v64, keep3_main_v77, keep3_main_v90, keep3_main_v103, keep3_main_arg9]

/-! ## The two normalizations, before the algebra -/

/-- The users' sums of squares as the third stretch finds them: the partial sums of the user tables, added over the tiles. -/
theorem sums_user (c : Dev nD) : W4 m ρ c (Proc.devRef .tc main_v105)
    = Host.reduceAdd (Cert.FusedUser.tileSq (TU m ρ c)) (constant (F := Ideal) S_ .f32 0x00000000#32) reducesTo_S50x4x64_S4x64_d0 h_S_ := by
  rw [keep4_main_v105, val_v105, val_v104_1, Cert.FusedUser.arr6 (V1 m ρ) c]
  rfl

/-- The items' partial sums as the third stretch finds them. -/
theorem partial_item (c : Dev nD) : W4 m ρ c (Proc.devRef .tc main_v106_1) = Cert.FusedItem.tileSq (TI m ρ c) := by
  rw [val_v106_1, Cert.FusedItem.arr6 (V3 m ρ) c]
  show Cert.FusedItem.tileSq ![W3 m ρ c (Proc.devRef .tc main_v64), W3 m ρ c (Proc.devRef .tc main_v77), W3 m ρ c (Proc.devRef .tc main_v90), W3 m ρ c (Proc.devRef .tc main_v103)] = _
  rw [keep3_main_v64, keep3_main_v77, keep3_main_v90, keep3_main_v103]
  rfl

/-- The normalized user tables at the return: the tables paired, scaled by the doubled inverse norms, unpaired. -/
theorem normK_user (c : Dev nD) : W9 m ρ c (Proc.devRef .tc main_v124)
    = fun i : S4x150000x64.Idx => (TU m ρ c (i 0)) (ix2 (i 1) (i 2)) * invNorm (Host.reduceAdd (Cert.FusedUser.tileSq (TU m ρ c)) (constant (F := Ideal) S_ .f32 0x00000000#32) reducesTo_S50x4x64_S4x64_d0 h_S_) (ix2 (i 0) (i 2)) := by
  rw [keep9_main_v124, val_v124, val_v123, Cert.NormKernel.arr_user (V5 m ρ) c]
  show shapeCast S4x150000x64 (Cert.NormKernel.scaled (n := 75000) (W5 m ρ c (Proc.devRef .tc main_v118)) (W5 m ρ c (Proc.devRef .tc main_v119)) (W5 m ρ c (Proc.devRef .tc main_v120)) (W5 m ρ c (Proc.devRef .tc main_v121)) (W5 m ρ c (Proc.devRef .tc main_v122))) shapeCasts_S4x75000x128_S4x150000x64 = _
  rw [val_v118, val_v119, val_v120, val_v121, val_v122, keep4_main_v12, keep4_main_v25, keep4_main_v38, keep4_main_v51, sums_user]
  exact Cert.NormKernel.unpair_user_scaled _ _ _ _ _

/-- The normalized item tables at the return. -/
theorem normK_item (c : Dev nD) : W9 m ρ c (Proc.devRef .tc main_v131)
    = fun i : S4x80000x64.Idx => (TI m ρ c (i 0)) (ix2 (i 1) (i 2)) * invNorm (Host.reduceAdd (Cert.FusedItem.tileSq (TI m ρ c)) (constant (F := Ideal) S_ .f32 0x00000000#32) reducesTo_S40x4x64_S4x64_d0 h_S_) (ix2 (i 0) (i 2)) := by
  rw [val_v131, val_v130, Cert.NormKernel.arr_item (V7 m ρ) c]
  show shapeCast S4x80000x64 (Cert.NormKernel.scaled (n := 40000) (W7 m ρ c (Proc.devRef .tc main_v125)) (W7 m ρ c (Proc.devRef .tc main_v126)) (W7 m ρ c (Proc.devRef .tc main_v127)) (W7 m ρ c (Proc.devRef .tc main_v128)) (W7 m ρ c (Proc.devRef .tc main_v129))) shapeCasts_S4x40000x128_S4x80000x64 = _
  rw [val_v125, val_v126, val_v127, val_v128, val_v129, keep6_main_v64, keep6_main_v77, keep6_main_v90, keep6_main_v103,
    keep3_main_v64, keep3_main_v77, keep3_main_v90, keep3_main_v103, keep6_main_v117, val_v117, partial_item]
  exact Cert.NormKernel.unpair_item_scaled _ _ _ _ _

/-! ## The six tables that are results -/

theorem pass_v12 (c : Dev nD) : W9 m ρ c (Proc.devRef .tc main_v12) = W1 m ρ c (Proc.devRef .tc main_v12) := (keep9_main_v12 m ρ c).trans (keep4_main_v12 m ρ c)
theorem pass_v25 (c : Dev nD) : W9 m ρ c (Proc.devRef .tc main_v25) = W1 m ρ c (Proc.devRef .tc main_v25) := (keep9_main_v25 m ρ c).trans (keep4_main_v25 m ρ c)
theorem pass_v38 (c : Dev nD) : W9 m ρ c (Proc.devRef .tc main_v38) = W1 m ρ c (Proc.devRef .tc main_v38) := (keep9_main_v38 m ρ c).trans (keep4_main_v38 m ρ c)
theorem pass_v64 (c : Dev nD) : W9 m ρ c (Proc.devRef .tc main_v64) = W1 m ρ c (Proc.devRef .tc main_v64) := ((keep9_main_v64 m ρ c).trans (keep6_main_v64 m ρ c)).trans (keep3_main_v64 m ρ c)
theorem pass_v77 (c : Dev nD) : W9 m ρ c (Proc.devRef .tc main_v77) = W1 m ρ c (Proc.devRef .tc main_v77) := ((keep9_main_v77 m ρ c).trans (keep6_main_v77 m ρ c)).trans (keep3_main_v77 m ρ c)
theorem pass_v90 (c : Dev nD) : W9 m ρ c (Proc.devRef .tc main_v90) = W1 m ρ c (Proc.devRef .tc main_v90) := ((keep9_main_v90 m ρ c).trans (keep6_main_v90 m ρ c)).trans (keep3_main_v90 m ρ c)

/-! ## Against the specification -/

/-- The user gate at the return is the specification's gate of the user tables and the user weight. -/
theorem gate_user (c : Dev nD) : W9 m ρ c (Proc.devRef .tc main_v104_0) = Cert.Spec.gate (TU m ρ c) (m ((c : Thread nD τ).loc main_arg8)) :=
  (gateK_user m ρ c).trans (Cert.KernelAlgebra.gate_user _ _ _ _ _)

/-- The item gate at the return is the specification's gate of the item tables and the item weight. -/
theorem gate_item (c : Dev nD) : W9 m ρ c (Proc.devRef .tc main_v106_0) = Cert.Spec.gate (TI m ρ c) (m ((c : Thread nD τ).loc main_arg9)) :=
  (gateK_item m ρ c).trans (Cert.KernelAlgebra.gate_item _ _ _ _ _)

/-- The normalized user tables at the return are the specification's. -/
theorem norm_user (c : Dev nD) : W9 m ρ c (Proc.devRef .tc main_v124) = Cert.Spec.normed (TU m ρ c) :=
  (normK_user m ρ c).trans (Cert.KernelAlgebra.norm_user _ _ _ _)

/-- The normalized item tables at the return are the specification's. -/
theorem norm_item (c : Dev nD) : W9 m ρ c (Proc.devRef .tc main_v131) = Cert.Spec.normed (TI m ρ c) :=
  (normK_item m ρ c).trans (Cert.KernelAlgebra.norm_item _ _ _ _)

end Cert.KernelValue
end
-- ==== Proof.RefRead.lean ====
/-
  The reference's four results, read index by index, are the specification's two functions of the
  stacked tables.

  * The gate: the reference sums the four stacked tables along the stacking axis, divides by the float
    `4.0`, multiplies by the weight (a sum over the 64 shared features), and applies
    `1 / (1 + exp (-x))`, which is the logistic function by definition.
  * The normalization: the reference squares the stack, sums each column over all rows, takes the
    square root, floors it at `floor12`, and divides every entry by its column's floored norm.
  * The stack itself: the concatenation of four tables, each given a leading axis of length one, has
    table `j` at its leading coordinate `j`.

  Every step is a reading of one operation at an index: no law of arithmetic is used beyond
  `0 + x = x` for the initial value of each sum.
-/
import proofs.«110750_j39402029973982_2_alg».proof.Proof.Gen.ReferenceIdeal.Run
import proofs.«110750_j39402029973982_2_alg».proof.Proof.Spec
import proofs.«110750_j39402029973982_2_alg».proof.Proof.Algebra
import Idealize.ShloMosaic.Lib.IdealHost
import Idealize.ShloMosaic.Lib.StackMember
import Idealize.ShloMosaic.Lib.Pipeline.Value

noncomputable section

namespace Cert.RefRead

open Cert.ReferenceIdeal Cert.ReferenceIdeal.Gen Idealize.ShloMosaic Idealize.ShloMosaic.ValueIdx

/-- `1 / (1 + exp (-z))`, spelled with broadcast constants, is the logistic function of `z` at every index. -/
theorem logistic_read {s : Shape} (h1 : S_.BroadcastsInDim s ![]) (z : FVec Ideal s .f32) (i : s.Idx) :
    Host.divf (broadcastInDim s ![] h1 (constant (F := Ideal) S_ .f32 0x3F800000#32))
      (addf (broadcastInDim s ![] h1 (constant (F := Ideal) S_ .f32 0x3F800000#32)) (Host.exp (Host.negf z))) i
      = Ideal.logistic (z i) := by
  rw [hostDivf_apply, addf_apply, broadcastInDim_scalar_apply, constant_apply, Cert.Algebra.one_f32]
  rfl

/-- The host's square root at an index is the square root of the entry. -/
theorem hostSqrt_apply {s : Shape} (v : FVec Ideal s .f32) (i : s.Idx) : Host.sqrt v i = Ideal.sqrt (v i) := rfl

/-! ## The user side: 150000 rows -/

/-- The mean of the four stacked tables at row `r`, feature `k`: their sum divided by four. -/
theorem mean_user (X : FVec Ideal S4x150000x64 .f32) (r : Fin 150000) (k : Fin 64) :
    Host.divf (Host.reduceAdd X (constant (F := Ideal) S_ .f32 0x00000000#32) reducesTo_S4x150000x64_S150000x64_d0 h_S_)
      (broadcastInDim S150000x64 ![] bcast_S_S150000x64 (constant (F := Ideal) S_ .f32 0x40800000#32)) (ix2 r k)
      = Ideal.div (∑ j : Fin 4, X (ix3 j r k)) Cert.Spec.four := by
  have hR : Shape.Reduces S4x150000x64 [0] S150000x64 := by decide
  simp only [hostDivf_apply, broadcastInDim_scalar_apply, constant_apply, hostReduceAdd_apply]
  rw [Ideal.hostReduceAdd_single reducesTo_S4x150000x64_S150000x64_d0 hR, Ideal.ofBits_zero_f32, zero_add]
  refine congrArg (Ideal.div · Cert.Spec.four) (Finset.sum_congr rfl fun j _ => ?_)
  exact congrArg X (funext fun a => Fin.ext (by match a with | ⟨0, _⟩ => rfl | ⟨1, _⟩ => rfl | ⟨2, _⟩ => rfl))

/-- The product with the weight at row `r`, feature `d`: the sum over the 64 shared features. -/
theorem dot_user (L : FVec Ideal S150000x64 .f32) (w : FVec Ideal S64x64 .f32) (r : Fin 150000) (d : Fin 64) :
    Host.dotGeneral dot_S150000x64_S64x64_S150000x64_1_0_0_1_n_n none L w (ix2 r d)
      = ∑ k : Fin 64, L (ix2 r k) * w (ix2 k d) :=
  StackMember.dotGeneral_plain_apply none L w r d

/-- The reference's gate over a stack `X` and a weight `w` is the specification's. -/
theorem gate_user (X : FVec Ideal S4x150000x64 .f32) (w : FVec Ideal S64x64 .f32) :
    Host.divf (broadcastInDim S150000x64 ![] bcast_S_S150000x64 (constant (F := Ideal) S_ .f32 0x3F800000#32))
      (addf (broadcastInDim S150000x64 ![] bcast_S_S150000x64 (constant (F := Ideal) S_ .f32 0x3F800000#32))
        (Host.exp (Host.negf (Host.dotGeneral dot_S150000x64_S64x64_S150000x64_1_0_0_1_n_n none
          (Host.divf (Host.reduceAdd X (constant (F := Ideal) S_ .f32 0x00000000#32) reducesTo_S4x150000x64_S150000x64_d0 h_S_)
            (broadcastInDim S150000x64 ![] bcast_S_S150000x64 (constant (F := Ideal) S_ .f32 0x40800000#32))) w))))
      = Cert.Spec.gate (Cert.Spec.unstack X) w := by
  funext i
  obtain ⟨r, d, rfl⟩ : ∃ (r : Fin 150000) (d : Fin 64), i = ix2 r d := ⟨i 0, i 1, eq_ix2 i⟩
  refine (logistic_read _ _ _).trans (congrArg Ideal.logistic ?_)
  refine (dot_user _ w r d).trans (Finset.sum_congr rfl fun k _ => ?_)
  rw [mean_user X r k]
  rfl

/-- The floored norm of column `d` of table `j`, as the reference computes it (with the kept axis of length one). -/
theorem norm_user (X : FVec Ideal S4x150000x64 .f32) (j : Fin 4) (d : Fin 64) :
    maximumf (Host.sqrt (broadcastInDim S4x1x64 ![0, 2] bcast_S4x64_S4x1x64_0_2
        (Host.reduceAdd (mulf X X) (constant (F := Ideal) S_ .f32 0x00000000#32) reducesTo_S4x150000x64_S4x64_d1 h_S_)))
      (broadcastInDim S4x1x64 ![] bcast_S_S4x1x64 (constant (F := Ideal) S_ .f32 0x2B8CBCCC#32)) (ix3 j (0 : Fin 1) d)
      = Cert.Spec.colNorm (Cert.Spec.unstack X) j d := by
  have hR : Shape.Reduces S4x150000x64 [1] S4x64 := by decide
  unfold Cert.Spec.colNorm Cert.Spec.floor12
  rw [maximumf_apply, broadcastInDim_scalar_apply, constant_apply, hostSqrt_apply]
  refine congrArg (fun z => max (Ideal.sqrt z) (Ideal.ofBits .f32 0x2B8CBCCC#32)) ?_
  rw [broadcastInDim_apply ![0, 2] bcast_S4x64_S4x1x64_0_2 _ (ix3 j (0 : Fin 1) d) (ix2 j d)
    (fun a => by match a with | ⟨0, _⟩ => rfl | ⟨1, _⟩ => rfl)]
  rw [hostReduceAdd_apply, constant_apply, Ideal.hostReduceAdd_single reducesTo_S4x150000x64_S4x64_d1 hR,
    Ideal.ofBits_zero_f32, zero_add]
  refine Finset.sum_congr rfl fun r _ => ?_
  rw [mulf_apply]
  have e : hR.lift (ix2 j d) r = ix3 j r d :=
    funext fun a => Fin.ext (by match a with | ⟨0, _⟩ => rfl | ⟨1, _⟩ => rfl | ⟨2, _⟩ => rfl)
  rw [e]
  rfl

/-- The reference's normalization of a stack `X` is the specification's. -/
theorem normed_user (X : FVec Ideal S4x150000x64 .f32) :
    Host.divf X (broadcastInDim S4x150000x64 ![0, 1, 2] bcast_S4x1x64_S4x150000x64_0_1_2
      (maximumf (Host.sqrt (broadcastInDim S4x1x64 ![0, 2] bcast_S4x64_S4x1x64_0_2
          (Host.reduceAdd (mulf X X) (constant (F := Ideal) S_ .f32 0x00000000#32) reducesTo_S4x150000x64_S4x64_d1 h_S_)))
        (broadcastInDim S4x1x64 ![] bcast_S_S4x1x64 (constant (F := Ideal) S_ .f32 0x2B8CBCCC#32))))
      = Cert.Spec.normed (Cert.Spec.unstack X) := by
  funext i
  obtain ⟨j, r, d, rfl⟩ : ∃ (j : Fin 4) (r : Fin 150000) (d : Fin 64), i = ix3 j r d := ⟨i 0, i 1, i 2, eq_ix3 i⟩
  rw [hostDivf_apply, broadcastInDim_apply ![0, 1, 2] bcast_S4x1x64_S4x150000x64_0_1_2 _ (ix3 j r d) (ix3 j (0 : Fin 1) d)
    (fun a => by match a with | ⟨0, _⟩ => rfl | ⟨1, _⟩ => rfl | ⟨2, _⟩ => rfl), norm_user X j d]
  rfl

/-- A table given a leading axis of length one reads, at leading coordinate zero, as itself. -/
theorem lead_user (a : FVec Ideal S150000x64 .f32) (r : Fin 150000) (d : Fin 64) :
    broadcastInDim S1x150000x64 ![1, 2] bcast_S150000x64_S1x150000x64_1_2 a (ix3 (0 : Fin 1) r d) = a (ix2 r d) :=
  broadcastInDim_apply ![1, 2] bcast_S150000x64_S1x150000x64_1_2 a (ix3 (0 : Fin 1) r d) (ix2 r d)
    (fun b => by match b with | ⟨0, _⟩ => rfl | ⟨1, _⟩ => rfl)

/-- The concatenation of four tables along a new leading axis has table `j` at leading coordinate `j`. -/
theorem stack_user (a0 a1 a2 a3 : FVec Ideal S150000x64 .f32) :
    Cert.Spec.unstack (concatenate S4x150000x64 0
      [⟨S1x150000x64, broadcastInDim S1x150000x64 ![1, 2] bcast_S150000x64_S1x150000x64_1_2 a0⟩,
       ⟨S1x150000x64, broadcastInDim S1x150000x64 ![1, 2] bcast_S150000x64_S1x150000x64_1_2 a1⟩,
       ⟨S1x150000x64, broadcastInDim S1x150000x64 ![1, 2] bcast_S150000x64_S1x150000x64_1_2 a2⟩,
       ⟨S1x150000x64, broadcastInDim S1x150000x64 ![1, 2] bcast_S150000x64_S1x150000x64_1_2 a3⟩]
      concatenates_S1x150000x64_S1x150000x64_S1x150000x64_S1x150000x64_S4x150000x64_d0) = ![a0, a1, a2, a3] := by
  funext j i
  obtain ⟨r, d, rfl⟩ : ∃ (r : Fin 150000) (d : Fin 64), i = ix2 r d := ⟨i 0, i 1, eq_ix2 i⟩
  have hoff : ∀ b : Fin S1x150000x64.rank, ∀ (q : Fin 4), b.cast (rfl : S1x150000x64.rank = S4x150000x64.rank) ≠ (0 : Fin S4x150000x64.rank) →
      ((ix3 (0 : Fin 1) r d : S1x150000x64.Idx) b).val = ((ix3 q r d : S4x150000x64.Idx) (b.cast rfl)).val := fun b q hb => by
    match b with
    | ⟨0, _⟩ => exact absurd rfl hb
    | ⟨1, _⟩ => rfl
    | ⟨2, _⟩ => rfl
  match j with
  | ⟨0, _⟩ =>
    exact (concatenate_apply_piece (α := EReal) (0 : Fin S4x150000x64.rank)
      [⟨S1x150000x64, broadcastInDim S1x150000x64 ![1, 2] bcast_S150000x64_S1x150000x64_1_2 a0⟩,
       ⟨S1x150000x64, broadcastInDim S1x150000x64 ![1, 2] bcast_S150000x64_S1x150000x64_1_2 a1⟩,
       ⟨S1x150000x64, broadcastInDim S1x150000x64 ![1, 2] bcast_S150000x64_S1x150000x64_1_2 a2⟩,
       ⟨S1x150000x64, broadcastInDim S1x150000x64 ![1, 2] bcast_S150000x64_S1x150000x64_1_2 a3⟩]
      concatenates_S1x150000x64_S1x150000x64_S1x150000x64_S1x150000x64_S4x150000x64_d0
      (ix3 (0 : Fin 4) r d) 0 (by simp) S1x150000x64 _ rfl rfl 0 rfl (ix3 (0 : Fin 1) r d) (fun b hb => hoff b 0 hb) rfl).trans (lead_user a0 r d)
  | ⟨1, _⟩ =>
    exact (concatenate_apply_piece (α := EReal) (0 : Fin S4x150000x64.rank)
      [⟨S1x150000x64, broadcastInDim S1x150000x64 ![1, 2] bcast_S150000x64_S1x150000x64_1_2 a0⟩,
       ⟨S1x150000x64, broadcastInDim S1x150000x64 ![1, 2] bcast_S150000x64_S1x150000x64_1_2 a1⟩,
       ⟨S1x150000x64, broadcastInDim S1x150000x64 ![1, 2] bcast_S150000x64_S1x150000x64_1_2 a2⟩,
       ⟨S1x150000x64, broadcastInDim S1x150000x64 ![1, 2] bcast_S150000x64_S1x150000x64_1_2 a3⟩]
      concatenates_S1x150000x64_S1x150000x64_S1x150000x64_S1x150000x64_S4x150000x64_d0
      (ix3 (1 : Fin 4) r d) 1 (by simp) S1x150000x64 _ rfl rfl 1 rfl (ix3 (0 : Fin 1) r d) (fun b hb => hoff b 1 hb) rfl).trans (lead_user a1 r d)
  | ⟨2, _⟩ =>
    exact (concatenate_apply_piece (α := EReal) (0 : Fin S4x150000x64.rank)
      [⟨S1x150000x64, broadcastInDim S1x150000x64 ![1, 2] bcast_S150000x64_S1x150000x64_1_2 a0⟩,
       ⟨S1x150000x64, broadcastInDim S1x150000x64 ![1, 2] bcast_S150000x64_S1x150000x64_1_2 a1⟩,
       ⟨S1x150000x64, broadcastInDim S1x150000x64 ![1, 2] bcast_S150000x64_S1x150000x64_1_2 a2⟩,
       ⟨S1x150000x64, broadcastInDim S1x150000x64 ![1, 2] bcast_S150000x64_S1x150000x64_1_2 a3⟩]
      concatenates_S1x150000x64_S1x150000x64_S1x150000x64_S1x150000x64_S4x150000x64_d0
      (ix3 (2 : Fin 4) r d) 2 (by simp) S1x150000x64 _ rfl rfl 2 rfl (ix3 (0 : Fin 1) r d) (fun b hb => hoff b 2 hb) rfl).trans (lead_user a2 r d)
  | ⟨3, _⟩ =>
    exact (concatenate_apply_piece (α := EReal) (0 : Fin S4x150000x64.rank)
      [⟨S1x150000x64, broadcastInDim S1x150000x64 ![1, 2] bcast_S150000x64_S1x150000x64_1_2 a0⟩,
       ⟨S1x150000x64, broadcastInDim S1x150000x64 ![1, 2] bcast_S150000x64_S1x150000x64_1_2 a1⟩,
       ⟨S1x150000x64, broadcastInDim S1x150000x64 ![1, 2] bcast_S150000x64_S1x150000x64_1_2 a2⟩,
       ⟨S1x150000x64, broadcastInDim S1x150000x64 ![1, 2] bcast_S150000x64_S1x150000x64_1_2 a3⟩]
      concatenates_S1x150000x64_S1x150000x64_S1x150000x64_S1x150000x64_S4x150000x64_d0
      (ix3 (3 : Fin 4) r d) 3 (by simp) S1x150000x64 _ rfl rfl 3 rfl (ix3 (0 : Fin 1) r d) (fun b hb => hoff b 3 hb) rfl).trans (lead_user a3 r d)

/-! ## The item side: 80000 rows -/

/-- The mean of the four stacked tables at row `r`, feature `k`: their sum divided by four. -/
theorem mean_item (X : FVec Ideal S4x80000x64 .f32) (r : Fin 80000) (k : Fin 64) :
    Host.divf (Host.reduceAdd X (constant (F := Ideal) S_ .f32 0x00000000#32) reducesTo_S4x80000x64_S80000x64_d0 h_S_)
      (broadcastInDim S80000x64 ![] bcast_S_S80000x64 (constant (F := Ideal) S_ .f32 0x40800000#32)) (ix2 r k)
      = Ideal.div (∑ j : Fin 4, X (ix3 j r k)) Cert.Spec.four := by
  have hR : Shape.Reduces S4x80000x64 [0] S80000x64 := by decide
  simp only [hostDivf_apply, broadcastInDim_scalar_apply, constant_apply, hostReduceAdd_apply]
  rw [Ideal.hostReduceAdd_single reducesTo_S4x80000x64_S80000x64_d0 hR, Ideal.ofBits_zero_f32, zero_add]
  refine congrArg (Ideal.div · Cert.Spec.four) (Finset.sum_congr rfl fun j _ => ?_)
  exact congrArg X (funext fun a => Fin.ext (by match a with | ⟨0, _⟩ => rfl | ⟨1, _⟩ => rfl | ⟨2, _⟩ => rfl))

/-- The product with the weight at row `r`, feature `d`: the sum over the 64 shared features. -/
theorem dot_item (L : FVec Ideal S80000x64 .f32) (w : FVec Ideal S64x64 .f32) (r : Fin 80000) (d : Fin 64) :
    Host.dotGeneral dot_S80000x64_S64x64_S80000x64_1_0_0_1_n_n none L w (ix2 r d)
      = ∑ k : Fin 64, L (ix2 r k) * w (ix2 k d) :=
  StackMember.dotGeneral_plain_apply none L w r d

/-- The reference's gate over a stack `X` and a weight `w` is the specification's. -/
theorem gate_item (X : FVec Ideal S4x80000x64 .f32) (w : FVec Ideal S64x64 .f32) :
    Host.divf (broadcastInDim S80000x64 ![] bcast_S_S80000x64 (constant (F := Ideal) S_ .f32 0x3F800000#32))
      (addf (broadcastInDim S80000x64 ![] bcast_S_S80000x64 (constant (F := Ideal) S_ .f32 0x3F800000#32))
        (Host.exp (Host.negf (Host.dotGeneral dot_S80000x64_S64x64_S80000x64_1_0_0_1_n_n none
          (Host.divf (Host.reduceAdd X (constant (F := Ideal) S_ .f32 0x00000000#32) reducesTo_S4x80000x64_S80000x64_d0 h_S_)
            (broadcastInDim S80000x64 ![] bcast_S_S80000x64 (constant (F := Ideal) S_ .f32 0x40800000#32))) w))))
      = Cert.Spec.gate (Cert.Spec.unstack X) w := by
  funext i
  obtain ⟨r, d, rfl⟩ : ∃ (r : Fin 80000) (d : Fin 64), i = ix2 r d := ⟨i 0, i 1, eq_ix2 i⟩
  refine (logistic_read _ _ _).trans (congrArg Ideal.logistic ?_)
  refine (dot_item _ w r d).trans (Finset.sum_congr rfl fun k _ => ?_)
  rw [mean_item X r k]
  rfl

/-- The floored norm of column `d` of table `j`, as the reference computes it (with the kept axis of length one). -/
theorem norm_item (X : FVec Ideal S4x80000x64 .f32) (j : Fin 4) (d : Fin 64) :
    maximumf (Host.sqrt (broadcastInDim S4x1x64 ![0, 2] bcast_S4x64_S4x1x64_0_2
        (Host.reduceAdd (mulf X X) (constant (F := Ideal) S_ .f32 0x00000000#32) reducesTo_S4x80000x64_S4x64_d1 h_S_)))
      (broadcastInDim S4x1x64 ![] bcast_S_S4x1x64 (constant (F := Ideal) S_ .f32 0x2B8CBCCC#32)) (ix3 j (0 : Fin 1) d)
      = Cert.Spec.colNorm (Cert.Spec.unstack X) j d := by
  have hR : Shape.Reduces S4x80000x64 [1] S4x64 := by decide
  unfold Cert.Spec.colNorm Cert.Spec.floor12
  rw [maximumf_apply, broadcastInDim_scalar_apply, constant_apply, hostSqrt_apply]
  refine congrArg (fun z => max (Ideal.sqrt z) (Ideal.ofBits .f32 0x2B8CBCCC#32)) ?_
  rw [broadcastInDim_apply ![0, 2] bcast_S4x64_S4x1x64_0_2 _ (ix3 j (0 : Fin 1) d) (ix2 j d)
    (fun a => by match a with | ⟨0, _⟩ => rfl | ⟨1, _⟩ => rfl)]
  rw [hostReduceAdd_apply, constant_apply, Ideal.hostReduceAdd_single reducesTo_S4x80000x64_S4x64_d1 hR,
    Ideal.ofBits_zero_f32, zero_add]
  refine Finset.sum_congr rfl fun r _ => ?_
  rw [mulf_apply]
  have e : hR.lift (ix2 j d) r = ix3 j r d :=
    funext fun a => Fin.ext (by match a with | ⟨0, _⟩ => rfl | ⟨1, _⟩ => rfl | ⟨2, _⟩ => rfl)
  rw [e]
  rfl

/-- The reference's normalization of a stack `X` is the specification's. -/
theorem normed_item (X : FVec Ideal S4x80000x64 .f32) :
    Host.divf X (broadcastInDim S4x80000x64 ![0, 1, 2] bcast_S4x1x64_S4x80000x64_0_1_2
      (maximumf (Host.sqrt (broadcastInDim S4x1x64 ![0, 2] bcast_S4x64_S4x1x64_0_2
          (Host.reduceAdd (mulf X X) (constant (F := Ideal) S_ .f32 0x00000000#32) reducesTo_S4x80000x64_S4x64_d1 h_S_)))
        (broadcastInDim S4x1x64 ![] bcast_S_S4x1x64 (constant (F := Ideal) S_ .f32 0x2B8CBCCC#32))))
      = Cert.Spec.normed (Cert.Spec.unstack X) := by
  funext i
  obtain ⟨j, r, d, rfl⟩ : ∃ (j : Fin 4) (r : Fin 80000) (d : Fin 64), i = ix3 j r d := ⟨i 0, i 1, i 2, eq_ix3 i⟩
  rw [hostDivf_apply, broadcastInDim_apply ![0, 1, 2] bcast_S4x1x64_S4x80000x64_0_1_2 _ (ix3 j r d) (ix3 j (0 : Fin 1) d)
    (fun a => by match a with | ⟨0, _⟩ => rfl | ⟨1, _⟩ => rfl | ⟨2, _⟩ => rfl), norm_item X j d]
  rfl

/-- A table given a leading axis of length one reads, at leading coordinate zero, as itself. -/
theorem lead_item (a : FVec Ideal S80000x64 .f32) (r : Fin 80000) (d : Fin 64) :
    broadcastInDim S1x80000x64 ![1, 2] bcast_S80000x64_S1x80000x64_1_2 a (ix3 (0 : Fin 1) r d) = a (ix2 r d) :=
  broadcastInDim_apply ![1, 2] bcast_S80000x64_S1x80000x64_1_2 a (ix3 (0 : Fin 1) r d) (ix2 r d)
    (fun b => by match b with | ⟨0, _⟩ => rfl | ⟨1, _⟩ => rfl)

/-- The concatenation of four tables along a new leading axis has table `j` at leading coordinate `j`. -/
theorem stack_item (a0 a1 a2 a3 : FVec Ideal S80000x64 .f32) :
    Cert.Spec.unstack (concatenate S4x80000x64 0
      [⟨S1x80000x64, broadcastInDim S1x80000x64 ![1, 2] bcast_S80000x64_S1x80000x64_1_2 a0⟩,
       ⟨S1x80000x64, broadcastInDim S1x80000x64 ![1, 2] bcast_S80000x64_S1x80000x64_1_2 a1⟩,
       ⟨S1x80000x64, broadcastInDim S1x80000x64 ![1, 2] bcast_S80000x64_S1x80000x64_1_2 a2⟩,
       ⟨S1x80000x64, broadcastInDim S1x80000x64 ![1, 2] bcast_S80000x64_S1x80000x64_1_2 a3⟩]
      concatenates_S1x80000x64_S1x80000x64_S1x80000x64_S1x80000x64_S4x80000x64_d0) = ![a0, a1, a2, a3] := by
  funext j i
  obtain ⟨r, d, rfl⟩ : ∃ (r : Fin 80000) (d : Fin 64), i = ix2 r d := ⟨i 0, i 1, eq_ix2 i⟩
  have hoff : ∀ b : Fin S1x80000x64.rank, ∀ (q : Fin 4), b.cast (rfl : S1x80000x64.rank = S4x80000x64.rank) ≠ (0 : Fin S4x80000x64.rank) →
      ((ix3 (0 : Fin 1) r d : S1x80000x64.Idx) b).val = ((ix3 q r d : S4x80000x64.Idx) (b.cast rfl)).val := fun b q hb => by
    match b with
    | ⟨0, _⟩ => exact absurd rfl hb
    | ⟨1, _⟩ => rfl
    | ⟨2, _⟩ => rfl
  match j with
  | ⟨0, _⟩ =>
    exact (concatenate_apply_piece (α := EReal) (0 : Fin S4x80000x64.rank)
      [⟨S1x80000x64, broadcastInDim S1x80000x64 ![1, 2] bcast_S80000x64_S1x80000x64_1_2 a0⟩,
       ⟨S1x80000x64, broadcastInDim S1x80000x64 ![1, 2] bcast_S80000x64_S1x80000x64_1_2 a1⟩,
       ⟨S1x80000x64, broadcastInDim S1x80000x64 ![1, 2] bcast_S80000x64_S1x80000x64_1_2 a2⟩,
       ⟨S1x80000x64, broadcastInDim S1x80000x64 ![1, 2] bcast_S80000x64_S1x80000x64_1_2 a3⟩]
      concatenates_S1x80000x64_S1x80000x64_S1x80000x64_S1x80000x64_S4x80000x64_d0
      (ix3 (0 : Fin 4) r d) 0 (by simp) S1x80000x64 _ rfl rfl 0 rfl (ix3 (0 : Fin 1) r d) (fun b hb => hoff b 0 hb) rfl).trans (lead_item a0 r d)
  | ⟨1, _⟩ =>
    exact (concatenate_apply_piece (α := EReal) (0 : Fin S4x80000x64.rank)
      [⟨S1x80000x64, broadcastInDim S1x80000x64 ![1, 2] bcast_S80000x64_S1x80000x64_1_2 a0⟩,
       ⟨S1x80000x64, broadcastInDim S1x80000x64 ![1, 2] bcast_S80000x64_S1x80000x64_1_2 a1⟩,
       ⟨S1x80000x64, broadcastInDim S1x80000x64 ![1, 2] bcast_S80000x64_S1x80000x64_1_2 a2⟩,
       ⟨S1x80000x64, broadcastInDim S1x80000x64 ![1, 2] bcast_S80000x64_S1x80000x64_1_2 a3⟩]
      concatenates_S1x80000x64_S1x80000x64_S1x80000x64_S1x80000x64_S4x80000x64_d0
      (ix3 (1 : Fin 4) r d) 1 (by simp) S1x80000x64 _ rfl rfl 1 rfl (ix3 (0 : Fin 1) r d) (fun b hb => hoff b 1 hb) rfl).trans (lead_item a1 r d)
  | ⟨2, _⟩ =>
    exact (concatenate_apply_piece (α := EReal) (0 : Fin S4x80000x64.rank)
      [⟨S1x80000x64, broadcastInDim S1x80000x64 ![1, 2] bcast_S80000x64_S1x80000x64_1_2 a0⟩,
       ⟨S1x80000x64, broadcastInDim S1x80000x64 ![1, 2] bcast_S80000x64_S1x80000x64_1_2 a1⟩,
       ⟨S1x80000x64, broadcastInDim S1x80000x64 ![1, 2] bcast_S80000x64_S1x80000x64_1_2 a2⟩,
       ⟨S1x80000x64, broadcastInDim S1x80000x64 ![1, 2] bcast_S80000x64_S1x80000x64_1_2 a3⟩]
      concatenates_S1x80000x64_S1x80000x64_S1x80000x64_S1x80000x64_S4x80000x64_d0
      (ix3 (2 : Fin 4) r d) 2 (by simp) S1x80000x64 _ rfl rfl 2 rfl (ix3 (0 : Fin 1) r d) (fun b hb => hoff b 2 hb) rfl).trans (lead_item a2 r d)
  | ⟨3, _⟩ =>
    exact (concatenate_apply_piece (α := EReal) (0 : Fin S4x80000x64.rank)
      [⟨S1x80000x64, broadcastInDim S1x80000x64 ![1, 2] bcast_S80000x64_S1x80000x64_1_2 a0⟩,
       ⟨S1x80000x64, broadcastInDim S1x80000x64 ![1, 2] bcast_S80000x64_S1x80000x64_1_2 a1⟩,
       ⟨S1x80000x64, broadcastInDim S1x80000x64 ![1, 2] bcast_S80000x64_S1x80000x64_1_2 a2⟩,
       ⟨S1x80000x64, broadcastInDim S1x80000x64 ![1, 2] bcast_S80000x64_S1x80000x64_1_2 a3⟩]
      concatenates_S1x80000x64_S1x80000x64_S1x80000x64_S1x80000x64_S4x80000x64_d0
      (ix3 (3 : Fin 4) r d) 3 (by simp) S1x80000x64 _ rfl rfl 3 rfl (ix3 (0 : Fin 1) r d) (fun b hb => hoff b 3 hb) rfl).trans (lead_item a3 r d)

end Cert.RefRead

end
-- ==== Proof.Tables.lean ====
/-
  The eight relation tables are the same in both programs.

  Each table is a sparse aggregation: rows of one embedding table are gathered at one index list
  (negative indices wrapped), scaled by an edge weight, and summed into the rows another index list
  names, starting from zero. Both programs spell this with the same operations, in the same order,
  on the same arguments; so from memories that agree on the arguments the two programs hold equal
  tables. Nothing is computed here: each program's table is read off its own list of operations as
  one term of the arguments, the arguments are identified through the agreement, and the two terms
  are then the same term.

  The four user tables stacked (and the four item tables stacked) are therefore the kernel's four
  tables, relation by relation.
-/
import proofs.«110750_j39402029973982_2_alg».proof.Proof.Gen.KernelIdeal.Frame
import proofs.«110750_j39402029973982_2_alg».proof.Proof.Gen.ReferenceIdeal.Run
import proofs.«110750_j39402029973982_2_alg».proof.Proof.Spec
import proofs.«110750_j39402029973982_2_alg».proof.Proof.RefRead
import Idealize.ShloMosaic.Lib.StableHlo.Run

noncomputable section

namespace Cert.Tables

/-! ## Each table as one term of the arguments, in the reference's vocabulary -/

section Ref

open Cert.ReferenceIdeal Cert.ReferenceIdeal.Gen Idealize.ShloMosaic Idealize.ShloMosaic.TcCoe Idealize.SL.Sem Idealize.ShloMosaic.StableHlo

variable {F : FTy → Type} [FloatOps F]

/-- The reference's table `main_v12` as a function of the buffer contents it starts from. -/
def ref_v12 (V0 : Valuation τ sig (Elt F)) : (Proc.devRef .tc main_v12 : DevRef τ sig).ty.Contents (Elt F) :=
  Host.scatterAdd scatter_S150000x64_S2000000x1_S2000000x64_1_0_0_1 (broadcastInDim S150000x64 ![] bcast_S_S150000x64 (constant S_ .f32 0x00000000#32)) (broadcastInDim S2000000x1 ![0] bcast_S2000000_S2000000x1_0 (V0 (Proc.devRef .tc main_arg10))) (mulf (broadcastInDim S2000000x64 ![0, 1] bcast_S2000000x1_S2000000x64_0_1 (broadcastInDim S2000000x1 ![0] bcast_S2000000_S2000000x1_0 (V0 (Proc.devRef .tc main_arg12)))) (Host.gather gather_S80000x64_S2000000x1_S2000000x64_1_0_n_n_0_1_164 (V0 (Proc.devRef .tc main_arg3)) (broadcastInDim S2000000x1 ![0] bcast_S2000000_S2000000x1_0 (select (cmpi .slt (V0 (Proc.devRef .tc main_arg11)) (broadcastInDim S2000000 ![] bcast_S_S2000000 (constantI S_ 32 0#32))) (addi (V0 (Proc.devRef .tc main_arg11)) (broadcastInDim S2000000 ![] bcast_S_S2000000 (constantI S_ 32 80000#32))) (V0 (Proc.devRef .tc main_arg11))))))

/-- The reference's table `main_v25` as a function of the buffer contents it starts from. -/
def ref_v25 (V0 : Valuation τ sig (Elt F)) : (Proc.devRef .tc main_v25 : DevRef τ sig).ty.Contents (Elt F) :=
  Host.scatterAdd scatter_S150000x64_S2000000x1_S2000000x64_1_0_0_1 (broadcastInDim S150000x64 ![] bcast_S_S150000x64 (constant S_ .f32 0x00000000#32)) (broadcastInDim S2000000x1 ![0] bcast_S2000000_S2000000x1_0 (V0 (Proc.devRef .tc main_arg13))) (mulf (broadcastInDim S2000000x64 ![0, 1] bcast_S2000000x1_S2000000x64_0_1 (broadcastInDim S2000000x1 ![0] bcast_S2000000_S2000000x1_0 (V0 (Proc.devRef .tc main_arg15)))) (Host.gather gather_S80000x64_S2000000x1_S2000000x64_1_0_n_n_0_1_164 (V0 (Proc.devRef .tc main_arg5)) (broadcastInDim S2000000x1 ![0] bcast_S2000000_S2000000x1_0 (select (cmpi .slt (V0 (Proc.devRef .tc main_arg14)) (broadcastInDim S2000000 ![] bcast_S_S2000000 (constantI S_ 32 0#32))) (addi (V0 (Proc.devRef .tc main_arg14)) (broadcastInDim S2000000 ![] bcast_S_S2000000 (constantI S_ 32 80000#32))) (V0 (Proc.devRef .tc main_arg14))))))

/-- The reference's table `main_v38` as a function of the buffer contents it starts from. -/
def ref_v38 (V0 : Valuation τ sig (Elt F)) : (Proc.devRef .tc main_v38 : DevRef τ sig).ty.Contents (Elt F) :=
  Host.scatterAdd scatter_S150000x64_S2000000x1_S2000000x64_1_0_0_1 (broadcastInDim S150000x64 ![] bcast_S_S150000x64 (constant S_ .f32 0x00000000#32)) (broadcastInDim S2000000x1 ![0] bcast_S2000000_S2000000x1_0 (V0 (Proc.devRef .tc main_arg16))) (mulf (broadcastInDim S2000000x64 ![0, 1] bcast_S2000000x1_S2000000x64_0_1 (broadcastInDim S2000000x1 ![0] bcast_S2000000_S2000000x1_0 (V0 (Proc.devRef .tc main_arg18)))) (Host.gather gather_S80000x64_S2000000x1_S2000000x64_1_0_n_n_0_1_164 (V0 (Proc.devRef .tc main_arg7)) (broadcastInDim S2000000x1 ![0] bcast_S2000000_S2000000x1_0 (select (cmpi .slt (V0 (Proc.devRef .tc main_arg17)) (broadcastInDim S2000000 ![] bcast_S_S2000000 (constantI S_ 32 0#32))) (addi (V0 (Proc.devRef .tc main_arg17)) (broadcastInDim S2000000 ![] bcast_S_S2000000 (constantI S_ 32 80000#32))) (V0 (Proc.devRef .tc main_arg17))))))

/-- The reference's table `main_v51` as a function of the buffer contents it starts from. -/
def ref_v51 (V0 : Valuation τ sig (Elt F)) : (Proc.devRef .tc main_v51 : DevRef τ sig).ty.Contents (Elt F) :=
  Host.scatterAdd scatter_S150000x64_S2000000x1_S2000000x64_1_0_0_1 (broadcastInDim S150000x64 ![] bcast_S_S150000x64 (constant S_ .f32 0x00000000#32)) (broadcastInDim S2000000x1 ![0] bcast_S2000000_S2000000x1_0 (V0 (Proc.devRef .tc main_arg19))) (mulf (broadcastInDim S2000000x64 ![0, 1] bcast_S2000000x1_S2000000x64_0_1 (broadcastInDim S2000000x1 ![0] bcast_S2000000_S2000000x1_0 (V0 (Proc.devRef .tc main_arg21)))) (Host.gather gather_S80000x64_S2000000x1_S2000000x64_1_0_n_n_0_1_164 (V0 (Proc.devRef .tc main_arg1)) (broadcastInDim S2000000x1 ![0] bcast_S2000000_S2000000x1_0 (select (cmpi .slt (V0 (Proc.devRef .tc main_arg20)) (broadcastInDim S2000000 ![] bcast_S_S2000000 (constantI S_ 32 0#32))) (addi (V0 (Proc.devRef .tc main_arg20)) (broadcastInDim S2000000 ![] bcast_S_S2000000 (constantI S_ 32 80000#32))) (V0 (Proc.devRef .tc main_arg20))))))

/-- The reference's table `main_v64` as a function of the buffer contents it starts from. -/
def ref_v64 (V0 : Valuation τ sig (Elt F)) : (Proc.devRef .tc main_v64 : DevRef τ sig).ty.Contents (Elt F) :=
  Host.scatterAdd scatter_S80000x64_S2000000x1_S2000000x64_1_0_0_1 (broadcastInDim S80000x64 ![] bcast_S_S80000x64 (constant S_ .f32 0x00000000#32)) (broadcastInDim S2000000x1 ![0] bcast_S2000000_S2000000x1_0 (V0 (Proc.devRef .tc main_arg11))) (mulf (broadcastInDim S2000000x64 ![0, 1] bcast_S2000000x1_S2000000x64_0_1 (broadcastInDim S2000000x1 ![0] bcast_S2000000_S2000000x1_0 (V0 (Proc.devRef .tc main_arg12)))) (Host.gather gather_S150000x64_S2000000x1_S2000000x64_1_0_n_n_0_1_164 (V0 (Proc.devRef .tc main_arg2)) (broadcastInDim S2000000x1 ![0] bcast_S2000000_S2000000x1_0 (select (cmpi .slt (V0 (Proc.devRef .tc main_arg10)) (broadcastInDim S2000000 ![] bcast_S_S2000000 (constantI S_ 32 0#32))) (addi (V0 (Proc.devRef .tc main_arg10)) (broadcastInDim S2000000 ![] bcast_S_S2000000 (constantI S_ 32 150000#32))) (V0 (Proc.devRef .tc main_arg10))))))

/-- The reference's table `main_v77` as a function of the buffer contents it starts from. -/
def ref_v77 (V0 : Valuation τ sig (Elt F)) : (Proc.devRef .tc main_v77 : DevRef τ sig).ty.Contents (Elt F) :=
  Host.scatterAdd scatter_S80000x64_S2000000x1_S2000000x64_1_0_0_1 (broadcastInDim S80000x64 ![] bcast_S_S80000x64 (constant S_ .f32 0x00000000#32)) (broadcastInDim S2000000x1 ![0] bcast_S2000000_S2000000x1_0 (V0 (Proc.devRef .tc main_arg14))) (mulf (broadcastInDim S2000000x64 ![0, 1] bcast_S2000000x1_S2000000x64_0_1 (broadcastInDim S2000000x1 ![0] bcast_S2000000_S2000000x1_0 (V0 (Proc.devRef .tc main_arg15)))) (Host.gather gather_S150000x64_S2000000x1_S2000000x64_1_0_n_n_0_1_164 (V0 (Proc.devRef .tc main_arg4)) (broadcastInDim S2000000x1 ![0] bcast_S2000000_S2000000x1_0 (select (cmpi .slt (V0 (Proc.devRef .tc main_arg13)) (broadcastInDim S2000000 ![] bcast_S_S2000000 (constantI S_ 32 0#32))) (addi (V0 (Proc.devRef .tc main_arg13)) (broadcastInDim S2000000 ![] bcast_S_S2000000 (constantI S_ 32 150000#32))) (V0 (Proc.devRef .tc main_arg13))))))

/-- The reference's table `main_v90` as a function of the buffer contents it starts from. -/
def ref_v90 (V0 : Valuation τ sig (Elt F)) : (Proc.devRef .tc main_v90 : DevRef τ sig).ty.Contents (Elt F) :=
  Host.scatterAdd scatter_S80000x64_S2000000x1_S2000000x64_1_0_0_1 (broadcastInDim S80000x64 ![] bcast_S_S80000x64 (constant S_ .f32 0x00000000#32)) (broadcastInDim S2000000x1 ![0] bcast_S2000000_S2000000x1_0 (V0 (Proc.devRef .tc main_arg17))) (mulf (broadcastInDim S2000000x64 ![0, 1] bcast_S2000000x1_S2000000x64_0_1 (broadcastInDim S2000000x1 ![0] bcast_S2000000_S2000000x1_0 (V0 (Proc.devRef .tc main_arg18)))) (Host.gather gather_S150000x64_S2000000x1_S2000000x64_1_0_n_n_0_1_164 (V0 (Proc.devRef .tc main_arg6)) (broadcastInDim S2000000x1 ![0] bcast_S2000000_S2000000x1_0 (select (cmpi .slt (V0 (Proc.devRef .tc main_arg16)) (broadcastInDim S2000000 ![] bcast_S_S2000000 (constantI S_ 32 0#32))) (addi (V0 (Proc.devRef .tc main_arg16)) (broadcastInDim S2000000 ![] bcast_S_S2000000 (constantI S_ 32 150000#32))) (V0 (Proc.devRef .tc main_arg16))))))

/-- The reference's table `main_v103` as a function of the buffer contents it starts from. -/
def ref_v103 (V0 : Valuation τ sig (Elt F)) : (Proc.devRef .tc main_v103 : DevRef τ sig).ty.Contents (Elt F) :=
  Host.scatterAdd scatter_S80000x64_S2000000x1_S2000000x64_1_0_0_1 (broadcastInDim S80000x64 ![] bcast_S_S80000x64 (constant S_ .f32 0x00000000#32)) (broadcastInDim S2000000x1 ![0] bcast_S2000000_S2000000x1_0 (V0 (Proc.devRef .tc main_arg20))) (mulf (broadcastInDim S2000000x64 ![0, 1] bcast_S2000000x1_S2000000x64_0_1 (broadcastInDim S2000000x1 ![0] bcast_S2000000_S2000000x1_0 (V0 (Proc.devRef .tc main_arg21)))) (Host.gather gather_S150000x64_S2000000x1_S2000000x64_1_0_n_n_0_1_164 (V0 (Proc.devRef .tc main_arg0)) (broadcastInDim S2000000x1 ![0] bcast_S2000000_S2000000x1_0 (select (cmpi .slt (V0 (Proc.devRef .tc main_arg19)) (broadcastInDim S2000000 ![] bcast_S_S2000000 (constantI S_ 32 0#32))) (addi (V0 (Proc.devRef .tc main_arg19)) (broadcastInDim S2000000 ![] bcast_S_S2000000 (constantI S_ 32 150000#32))) (V0 (Proc.devRef .tc main_arg19))))))

end Ref

/-! ## The same terms in the kernel's vocabulary, and the kernel's first stretch of operations read at each table -/

section Ker

open Cert.KernelIdeal Cert.KernelIdeal.Gen Idealize.ShloMosaic Idealize.ShloMosaic.TcCoe Idealize.SL.Sem Idealize.ShloMosaic.StableHlo

variable {F : FTy → Type} [FloatOps F]

/-- The kernel's table `main_v12` as a function of the buffer contents it starts from. -/
def ker_v12 (V0 : Valuation τ sig (Elt F)) : (Proc.devRef .tc main_v12 : DevRef τ sig).ty.Contents (Elt F) :=
  Host.scatterAdd scatter_S150000x64_S2000000x1_S2000000x64_1_0_0_1 (broadcastInDim S150000x64 ![] bcast_S_S150000x64 (constant S_ .f32 0x00000000#32)) (broadcastInDim S2000000x1 ![0] bcast_S2000000_S2000000x1_0 (V0 (Proc.devRef .tc main_arg10))) (mulf (broadcastInDim S2000000x64 ![0, 1] bcast_S2000000x1_S2000000x64_0_1 (broadcastInDim S2000000x1 ![0] bcast_S2000000_S2000000x1_0 (V0 (Proc.devRef .tc main_arg12)))) (Host.gather gather_S80000x64_S2000000x1_S2000000x64_1_0_n_n_0_1_164 (V0 (Proc.devRef .tc main_arg3)) (broadcastInDim S2000000x1 ![0] bcast_S2000000_S2000000x1_0 (select (cmpi .slt (V0 (Proc.devRef .tc main_arg11)) (broadcastInDim S2000000 ![] bcast_S_S2000000 (constantI S_ 32 0#32))) (addi (V0 (Proc.devRef .tc main_arg11)) (broadcastInDim S2000000 ![] bcast_S_S2000000 (constantI S_ 32 80000#32))) (V0 (Proc.devRef .tc main_arg11))))))

set_option maxRecDepth 8192 in
set_option maxHeartbeats 4000000 in
/-- After the kernel's first stretch of operations, `main_v12` holds that term of the starting contents. -/
theorem read_v12 (V0 : Valuation τ sig (Elt F)) :
    after hostOps0 V0 (no_index (Proc.devRef .tc main_v12)) = ker_v12 V0 := by
  unfold ker_v12
  simp only [hostOps0]
  after_results_simp

/-- The kernel's table `main_v25` as a function of the buffer contents it starts from. -/
def ker_v25 (V0 : Valuation τ sig (Elt F)) : (Proc.devRef .tc main_v25 : DevRef τ sig).ty.Contents (Elt F) :=
  Host.scatterAdd scatter_S150000x64_S2000000x1_S2000000x64_1_0_0_1 (broadcastInDim S150000x64 ![] bcast_S_S150000x64 (constant S_ .f32 0x00000000#32)) (broadcastInDim S2000000x1 ![0] bcast_S2000000_S2000000x1_0 (V0 (Proc.devRef .tc main_arg13))) (mulf (broadcastInDim S2000000x64 ![0, 1] bcast_S2000000x1_S2000000x64_0_1 (broadcastInDim S2000000x1 ![0] bcast_S2000000_S2000000x1_0 (V0 (Proc.devRef .tc main_arg15)))) (Host.gather gather_S80000x64_S2000000x1_S2000000x64_1_0_n_n_0_1_164 (V0 (Proc.devRef .tc main_arg5)) (broadcastInDim S2000000x1 ![0] bcast_S2000000_S2000000x1_0 (select (cmpi .slt (V0 (Proc.devRef .tc main_arg14)) (broadcastInDim S2000000 ![] bcast_S_S2000000 (constantI S_ 32 0#32))) (addi (V0 (Proc.devRef .tc main_arg14)) (broadcastInDim S2000000 ![] bcast_S_S2000000 (constantI S_ 32 80000#32))) (V0 (Proc.devRef .tc main_arg14))))))

set_option maxRecDepth 8192 in
set_option maxHeartbeats 4000000 in
/-- After the kernel's first stretch of operations, `main_v25` holds that term of the starting contents. -/
theorem read_v25 (V0 : Valuation τ sig (Elt F)) :
    after hostOps0 V0 (no_index (Proc.devRef .tc main_v25)) = ker_v25 V0 := by
  unfold ker_v25
  simp only [hostOps0]
  after_results_simp

/-- The kernel's table `main_v38` as a function of the buffer contents it starts from. -/
def ker_v38 (V0 : Valuation τ sig (Elt F)) : (Proc.devRef .tc main_v38 : DevRef τ sig).ty.Contents (Elt F) :=
  Host.scatterAdd scatter_S150000x64_S2000000x1_S2000000x64_1_0_0_1 (broadcastInDim S150000x64 ![] bcast_S_S150000x64 (constant S_ .f32 0x00000000#32)) (broadcastInDim S2000000x1 ![0] bcast_S2000000_S2000000x1_0 (V0 (Proc.devRef .tc main_arg16))) (mulf (broadcastInDim S2000000x64 ![0, 1] bcast_S2000000x1_S2000000x64_0_1 (broadcastInDim S2000000x1 ![0] bcast_S2000000_S2000000x1_0 (V0 (Proc.devRef .tc main_arg18)))) (Host.gather gather_S80000x64_S2000000x1_S2000000x64_1_0_n_n_0_1_164 (V0 (Proc.devRef .tc main_arg7)) (broadcastInDim S2000000x1 ![0] bcast_S2000000_S2000000x1_0 (select (cmpi .slt (V0 (Proc.devRef .tc main_arg17)) (broadcastInDim S2000000 ![] bcast_S_S2000000 (constantI S_ 32 0#32))) (addi (V0 (Proc.devRef .tc main_arg17)) (broadcastInDim S2000000 ![] bcast_S_S2000000 (constantI S_ 32 80000#32))) (V0 (Proc.devRef .tc main_arg17))))))

set_option maxRecDepth 8192 in
set_option maxHeartbeats 4000000 in
/-- After the kernel's first stretch of operations, `main_v38` holds that term of the starting contents. -/
theorem read_v38 (V0 : Valuation τ sig (Elt F)) :
    after hostOps0 V0 (no_index (Proc.devRef .tc main_v38)) = ker_v38 V0 := by
  unfold ker_v38
  simp only [hostOps0]
  after_results_simp

/-- The kernel's table `main_v51` as a function of the buffer contents it starts from. -/
def ker_v51 (V0 : Valuation τ sig (Elt F)) : (Proc.devRef .tc main_v51 : DevRef τ sig).ty.Contents (Elt F) :=
  Host.scatterAdd scatter_S150000x64_S2000000x1_S2000000x64_1_0_0_1 (broadcastInDim S150000x64 ![] bcast_S_S150000x64 (constant S_ .f32 0x00000000#32)) (broadcastInDim S2000000x1 ![0] bcast_S2000000_S2000000x1_0 (V0 (Proc.devRef .tc main_arg19))) (mulf (broadcastInDim S2000000x64 ![0, 1] bcast_S2000000x1_S2000000x64_0_1 (broadcastInDim S2000000x1 ![0] bcast_S2000000_S2000000x1_0 (V0 (Proc.devRef .tc main_arg21)))) (Host.gather gather_S80000x64_S2000000x1_S2000000x64_1_0_n_n_0_1_164 (V0 (Proc.devRef .tc main_arg1)) (broadcastInDim S2000000x1 ![0] bcast_S2000000_S2000000x1_0 (select (cmpi .slt (V0 (Proc.devRef .tc main_arg20)) (broadcastInDim S2000000 ![] bcast_S_S2000000 (constantI S_ 32 0#32))) (addi (V0 (Proc.devRef .tc main_arg20)) (broadcastInDim S2000000 ![] bcast_S_S2000000 (constantI S_ 32 80000#32))) (V0 (Proc.devRef .tc main_arg20))))))

set_option maxRecDepth 8192 in
set_option maxHeartbeats 4000000 in
/-- After the kernel's first stretch of operations, `main_v51` holds that term of the starting contents. -/
theorem read_v51 (V0 : Valuation τ sig (Elt F)) :
    after hostOps0 V0 (no_index (Proc.devRef .tc main_v51)) = ker_v51 V0 := by
  unfold ker_v51
  simp only [hostOps0]
  after_results_simp

/-- The kernel's table `main_v64` as a function of the buffer contents it starts from. -/
def ker_v64 (V0 : Valuation τ sig (Elt F)) : (Proc.devRef .tc main_v64 : DevRef τ sig).ty.Contents (Elt F) :=
  Host.scatterAdd scatter_S80000x64_S2000000x1_S2000000x64_1_0_0_1 (broadcastInDim S80000x64 ![] bcast_S_S80000x64 (constant S_ .f32 0x00000000#32)) (broadcastInDim S2000000x1 ![0] bcast_S2000000_S2000000x1_0 (V0 (Proc.devRef .tc main_arg11))) (mulf (broadcastInDim S2000000x64 ![0, 1] bcast_S2000000x1_S2000000x64_0_1 (broadcastInDim S2000000x1 ![0] bcast_S2000000_S2000000x1_0 (V0 (Proc.devRef .tc main_arg12)))) (Host.gather gather_S150000x64_S2000000x1_S2000000x64_1_0_n_n_0_1_164 (V0 (Proc.devRef .tc main_arg2)) (broadcastInDim S2000000x1 ![0] bcast_S2000000_S2000000x1_0 (select (cmpi .slt (V0 (Proc.devRef .tc main_arg10)) (broadcastInDim S2000000 ![] bcast_S_S2000000 (constantI S_ 32 0#32))) (addi (V0 (Proc.devRef .tc main_arg10)) (broadcastInDim S2000000 ![] bcast_S_S2000000 (constantI S_ 32 150000#32))) (V0 (Proc.devRef .tc main_arg10))))))

set_option maxRecDepth 8192 in
set_option maxHeartbeats 4000000 in
/-- After the kernel's first stretch of operations, `main_v64` holds that term of the starting contents. -/
theorem read_v64 (V0 : Valuation τ sig (Elt F)) :
    after hostOps0 V0 (no_index (Proc.devRef .tc main_v64)) = ker_v64 V0 := by
  unfold ker_v64
  simp only [hostOps0]
  after_results_simp

/-- The kernel's table `main_v77` as a function of the buffer contents it starts from. -/
def ker_v77 (V0 : Valuation τ sig (Elt F)) : (Proc.devRef .tc main_v77 : DevRef τ sig).ty.Contents (Elt F) :=
  Host.scatterAdd scatter_S80000x64_S2000000x1_S2000000x64_1_0_0_1 (broadcastInDim S80000x64 ![] bcast_S_S80000x64 (constant S_ .f32 0x00000000#32)) (broadcastInDim S2000000x1 ![0] bcast_S2000000_S2000000x1_0 (V0 (Proc.devRef .tc main_arg14))) (mulf (broadcastInDim S2000000x64 ![0, 1] bcast_S2000000x1_S2000000x64_0_1 (broadcastInDim S2000000x1 ![0] bcast_S2000000_S2000000x1_0 (V0 (Proc.devRef .tc main_arg15)))) (Host.gather gather_S150000x64_S2000000x1_S2000000x64_1_0_n_n_0_1_164 (V0 (Proc.devRef .tc main_arg4)) (broadcastInDim S2000000x1 ![0] bcast_S2000000_S2000000x1_0 (select (cmpi .slt (V0 (Proc.devRef .tc main_arg13)) (broadcastInDim S2000000 ![] bcast_S_S2000000 (constantI S_ 32 0#32))) (addi (V0 (Proc.devRef .tc main_arg13)) (broadcastInDim S2000000 ![] bcast_S_S2000000 (constantI S_ 32 150000#32))) (V0 (Proc.devRef .tc main_arg13))))))

set_option maxRecDepth 8192 in
set_option maxHeartbeats 4000000 in
/-- After the kernel's first stretch of operations, `main_v77` holds that term of the starting contents. -/
theorem read_v77 (V0 : Valuation τ sig (Elt F)) :
    after hostOps0 V0 (no_index (Proc.devRef .tc main_v77)) = ker_v77 V0 := by
  unfold ker_v77
  simp only [hostOps0]
  after_results_simp

/-- The kernel's table `main_v90` as a function of the buffer contents it starts from. -/
def ker_v90 (V0 : Valuation τ sig (Elt F)) : (Proc.devRef .tc main_v90 : DevRef τ sig).ty.Contents (Elt F) :=
  Host.scatterAdd scatter_S80000x64_S2000000x1_S2000000x64_1_0_0_1 (broadcastInDim S80000x64 ![] bcast_S_S80000x64 (constant S_ .f32 0x00000000#32)) (broadcastInDim S2000000x1 ![0] bcast_S2000000_S2000000x1_0 (V0 (Proc.devRef .tc main_arg17))) (mulf (broadcastInDim S2000000x64 ![0, 1] bcast_S2000000x1_S2000000x64_0_1 (broadcastInDim S2000000x1 ![0] bcast_S2000000_S2000000x1_0 (V0 (Proc.devRef .tc main_arg18)))) (Host.gather gather_S150000x64_S2000000x1_S2000000x64_1_0_n_n_0_1_164 (V0 (Proc.devRef .tc main_arg6)) (broadcastInDim S2000000x1 ![0] bcast_S2000000_S2000000x1_0 (select (cmpi .slt (V0 (Proc.devRef .tc main_arg16)) (broadcastInDim S2000000 ![] bcast_S_S2000000 (constantI S_ 32 0#32))) (addi (V0 (Proc.devRef .tc main_arg16)) (broadcastInDim S2000000 ![] bcast_S_S2000000 (constantI S_ 32 150000#32))) (V0 (Proc.devRef .tc main_arg16))))))

set_option maxRecDepth 8192 in
set_option maxHeartbeats 4000000 in
/-- After the kernel's first stretch of operations, `main_v90` holds that term of the starting contents. -/
theorem read_v90 (V0 : Valuation τ sig (Elt F)) :
    after hostOps0 V0 (no_index (Proc.devRef .tc main_v90)) = ker_v90 V0 := by
  unfold ker_v90
  simp only [hostOps0]
  after_results_simp

/-- The kernel's table `main_v103` as a function of the buffer contents it starts from. -/
def ker_v103 (V0 : Valuation τ sig (Elt F)) : (Proc.devRef .tc main_v103 : DevRef τ sig).ty.Contents (Elt F) :=
  Host.scatterAdd scatter_S80000x64_S2000000x1_S2000000x64_1_0_0_1 (broadcastInDim S80000x64 ![] bcast_S_S80000x64 (constant S_ .f32 0x00000000#32)) (broadcastInDim S2000000x1 ![0] bcast_S2000000_S2000000x1_0 (V0 (Proc.devRef .tc main_arg20))) (mulf (broadcastInDim S2000000x64 ![0, 1] bcast_S2000000x1_S2000000x64_0_1 (broadcastInDim S2000000x1 ![0] bcast_S2000000_S2000000x1_0 (V0 (Proc.devRef .tc main_arg21)))) (Host.gather gather_S150000x64_S2000000x1_S2000000x64_1_0_n_n_0_1_164 (V0 (Proc.devRef .tc main_arg0)) (broadcastInDim S2000000x1 ![0] bcast_S2000000_S2000000x1_0 (select (cmpi .slt (V0 (Proc.devRef .tc main_arg19)) (broadcastInDim S2000000 ![] bcast_S_S2000000 (constantI S_ 32 0#32))) (addi (V0 (Proc.devRef .tc main_arg19)) (broadcastInDim S2000000 ![] bcast_S_S2000000 (constantI S_ 32 150000#32))) (V0 (Proc.devRef .tc main_arg19))))))

set_option maxRecDepth 8192 in
set_option maxHeartbeats 4000000 in
/-- After the kernel's first stretch of operations, `main_v103` holds that term of the starting contents. -/
theorem read_v103 (V0 : Valuation τ sig (Elt F)) :
    after hostOps0 V0 (no_index (Proc.devRef .tc main_v103)) = ker_v103 V0 := by
  unfold ker_v103
  simp only [hostOps0]
  after_results_simp

end Ker

/-! ## The two programs' tables are equal, from memories that agree on the arguments -/

section Join

open Idealize.ShloMosaic Idealize.ShloMosaic.TcCoe Idealize.SL.Sem Idealize.ShloMosaic.StableHlo

variable {F : FTy → Type} [FloatOps F]

/-- The two launch memories agree on every argument, device by device. -/
abbrev Agree (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)

variable (m : (ℓ : Loc Cert.KernelIdeal.nD Cert.KernelIdeal.τ Cert.KernelIdeal.sig) → Buf (Elt F) ℓ)
  (ρ : Dev Cert.KernelIdeal.nD → PrngReg)
  (m' : (ℓ : Loc Cert.ReferenceIdeal.nD Cert.ReferenceIdeal.τ Cert.ReferenceIdeal.sig) → Buf (Elt F) ℓ)
  (c : Dev Cert.KernelIdeal.nD)

/-- The reference's `main_v12` term over its launch contents is the kernel's over its own. -/
theorem join_v12 (hag : Agree m m') :
    ref_v12 (launchContents m' c) = ker_v12 (Cert.KernelIdeal.Gen.W0 m ρ c) := by
  obtain ⟨h0, h1, h2, h3, h4, h5, h6, h7, h8, h9, h10, h11, h12, h13, h14, h15, h16, h17, h18, h19, h20, h21⟩ := hag c
  have e10 : launchContents m' c (Proc.devRef .tc Cert.ReferenceIdeal.main_arg10)
      = Cert.KernelIdeal.Gen.W0 m ρ c (Proc.devRef .tc Cert.KernelIdeal.main_arg10) := h10
  have e12 : launchContents m' c (Proc.devRef .tc Cert.ReferenceIdeal.main_arg12)
      = Cert.KernelIdeal.Gen.W0 m ρ c (Proc.devRef .tc Cert.KernelIdeal.main_arg12) := h12
  have e3 : launchContents m' c (Proc.devRef .tc Cert.ReferenceIdeal.main_arg3)
      = Cert.KernelIdeal.Gen.W0 m ρ c (Proc.devRef .tc Cert.KernelIdeal.main_arg3) := h3
  have e11 : launchContents m' c (Proc.devRef .tc Cert.ReferenceIdeal.main_arg11)
      = Cert.KernelIdeal.Gen.W0 m ρ c (Proc.devRef .tc Cert.KernelIdeal.main_arg11) := h11
  unfold ref_v12 ker_v12
  rw [e10, e12, e3, e11]
  rfl

/-- The reference's `main_v12` is what the kernel holds in its own `main_v12` when its first region is entered. -/
theorem table_v12 (hag : Agree m m') :
    ref_v12 (launchContents m' c) = Cert.KernelIdeal.Gen.W1 m ρ c (Proc.devRef .tc Cert.KernelIdeal.main_v12) :=
  (join_v12 m ρ m' c hag).trans (read_v12 (Cert.KernelIdeal.Gen.W0 m ρ c)).symm

/-- The reference's `main_v25` term over its launch contents is the kernel's over its own. -/
theorem join_v25 (hag : Agree m m') :
    ref_v25 (launchContents m' c) = ker_v25 (Cert.KernelIdeal.Gen.W0 m ρ c) := by
  obtain ⟨h0, h1, h2, h3, h4, h5, h6, h7, h8, h9, h10, h11, h12, h13, h14, h15, h16, h17, h18, h19, h20, h21⟩ := hag c
  have e13 : launchContents m' c (Proc.devRef .tc Cert.ReferenceIdeal.main_arg13)
      = Cert.KernelIdeal.Gen.W0 m ρ c (Proc.devRef .tc Cert.KernelIdeal.main_arg13) := h13
  have e15 : launchContents m' c (Proc.devRef .tc Cert.ReferenceIdeal.main_arg15)
      = Cert.KernelIdeal.Gen.W0 m ρ c (Proc.devRef .tc Cert.KernelIdeal.main_arg15) := h15
  have e5 : launchContents m' c (Proc.devRef .tc Cert.ReferenceIdeal.main_arg5)
      = Cert.KernelIdeal.Gen.W0 m ρ c (Proc.devRef .tc Cert.KernelIdeal.main_arg5) := h5
  have e14 : launchContents m' c (Proc.devRef .tc Cert.ReferenceIdeal.main_arg14)
      = Cert.KernelIdeal.Gen.W0 m ρ c (Proc.devRef .tc Cert.KernelIdeal.main_arg14) := h14
  unfold ref_v25 ker_v25
  rw [e13, e15, e5, e14]
  rfl

/-- The reference's `main_v25` is what the kernel holds in its own `main_v25` when its first region is entered. -/
theorem table_v25 (hag : Agree m m') :
    ref_v25 (launchContents m' c) = Cert.KernelIdeal.Gen.W1 m ρ c (Proc.devRef .tc Cert.KernelIdeal.main_v25) :=
  (join_v25 m ρ m' c hag).trans (read_v25 (Cert.KernelIdeal.Gen.W0 m ρ c)).symm

/-- The reference's `main_v38` term over its launch contents is the kernel's over its own. -/
theorem join_v38 (hag : Agree m m') :
    ref_v38 (launchContents m' c) = ker_v38 (Cert.KernelIdeal.Gen.W0 m ρ c) := by
  obtain ⟨h0, h1, h2, h3, h4, h5, h6, h7, h8, h9, h10, h11, h12, h13, h14, h15, h16, h17, h18, h19, h20, h21⟩ := hag c
  have e16 : launchContents m' c (Proc.devRef .tc Cert.ReferenceIdeal.main_arg16)
      = Cert.KernelIdeal.Gen.W0 m ρ c (Proc.devRef .tc Cert.KernelIdeal.main_arg16) := h16
  have e18 : launchContents m' c (Proc.devRef .tc Cert.ReferenceIdeal.main_arg18)
      = Cert.KernelIdeal.Gen.W0 m ρ c (Proc.devRef .tc Cert.KernelIdeal.main_arg18) := h18
  have e7 : launchContents m' c (Proc.devRef .tc Cert.ReferenceIdeal.main_arg7)
      = Cert.KernelIdeal.Gen.W0 m ρ c (Proc.devRef .tc Cert.KernelIdeal.main_arg7) := h7
  have e17 : launchContents m' c (Proc.devRef .tc Cert.ReferenceIdeal.main_arg17)
      = Cert.KernelIdeal.Gen.W0 m ρ c (Proc.devRef .tc Cert.KernelIdeal.main_arg17) := h17
  unfold ref_v38 ker_v38
  rw [e16, e18, e7, e17]
  rfl

/-- The reference's `main_v38` is what the kernel holds in its own `main_v38` when its first region is entered. -/
theorem table_v38 (hag : Agree m m') :
    ref_v38 (launchContents m' c) = Cert.KernelIdeal.Gen.W1 m ρ c (Proc.devRef .tc Cert.KernelIdeal.main_v38) :=
  (join_v38 m ρ m' c hag).trans (read_v38 (Cert.KernelIdeal.Gen.W0 m ρ c)).symm

/-- The reference's `main_v51` term over its launch contents is the kernel's over its own. -/
theorem join_v51 (hag : Agree m m') :
    ref_v51 (launchContents m' c) = ker_v51 (Cert.KernelIdeal.Gen.W0 m ρ c) := by
  obtain ⟨h0, h1, h2, h3, h4, h5, h6, h7, h8, h9, h10, h11, h12, h13, h14, h15, h16, h17, h18, h19, h20, h21⟩ := hag c
  have e19 : launchContents m' c (Proc.devRef .tc Cert.ReferenceIdeal.main_arg19)
      = Cert.KernelIdeal.Gen.W0 m ρ c (Proc.devRef .tc Cert.KernelIdeal.main_arg19) := h19
  have e21 : launchContents m' c (Proc.devRef .tc Cert.ReferenceIdeal.main_arg21)
      = Cert.KernelIdeal.Gen.W0 m ρ c (Proc.devRef .tc Cert.KernelIdeal.main_arg21) := h21
  have e1 : launchContents m' c (Proc.devRef .tc Cert.ReferenceIdeal.main_arg1)
      = Cert.KernelIdeal.Gen.W0 m ρ c (Proc.devRef .tc Cert.KernelIdeal.main_arg1) := h1
  have e20 : launchContents m' c (Proc.devRef .tc Cert.ReferenceIdeal.main_arg20)
      = Cert.KernelIdeal.Gen.W0 m ρ c (Proc.devRef .tc Cert.KernelIdeal.main_arg20) := h20
  unfold ref_v51 ker_v51
  rw [e19, e21, e1, e20]
  rfl

/-- The reference's `main_v51` is what the kernel holds in its own `main_v51` when its first region is entered. -/
theorem table_v51 (hag : Agree m m') :
    ref_v51 (launchContents m' c) = Cert.KernelIdeal.Gen.W1 m ρ c (Proc.devRef .tc Cert.KernelIdeal.main_v51) :=
  (join_v51 m ρ m' c hag).trans (read_v51 (Cert.KernelIdeal.Gen.W0 m ρ c)).symm

/-- The reference's `main_v64` term over its launch contents is the kernel's over its own. -/
theorem join_v64 (hag : Agree m m') :
    ref_v64 (launchContents m' c) = ker_v64 (Cert.KernelIdeal.Gen.W0 m ρ c) := by
  obtain ⟨h0, h1, h2, h3, h4, h5, h6, h7, h8, h9, h10, h11, h12, h13, h14, h15, h16, h17, h18, h19, h20, h21⟩ := hag c
  have e11 : launchContents m' c (Proc.devRef .tc Cert.ReferenceIdeal.main_arg11)
      = Cert.KernelIdeal.Gen.W0 m ρ c (Proc.devRef .tc Cert.KernelIdeal.main_arg11) := h11
  have e12 : launchContents m' c (Proc.devRef .tc Cert.ReferenceIdeal.main_arg12)
      = Cert.KernelIdeal.Gen.W0 m ρ c (Proc.devRef .tc Cert.KernelIdeal.main_arg12) := h12
  have e2 : launchContents m' c (Proc.devRef .tc Cert.ReferenceIdeal.main_arg2)
      = Cert.KernelIdeal.Gen.W0 m ρ c (Proc.devRef .tc Cert.KernelIdeal.main_arg2) := h2
  have e10 : launchContents m' c (Proc.devRef .tc Cert.ReferenceIdeal.main_arg10)
      = Cert.KernelIdeal.Gen.W0 m ρ c (Proc.devRef .tc Cert.KernelIdeal.main_arg10) := h10
  unfold ref_v64 ker_v64
  rw [e11, e12, e2, e10]
  rfl

/-- The reference's `main_v64` is what the kernel holds in its own `main_v64` when its first region is entered. -/
theorem table_v64 (hag : Agree m m') :
    ref_v64 (launchContents m' c) = Cert.KernelIdeal.Gen.W1 m ρ c (Proc.devRef .tc Cert.KernelIdeal.main_v64) :=
  (join_v64 m ρ m' c hag).trans (read_v64 (Cert.KernelIdeal.Gen.W0 m ρ c)).symm

/-- The reference's `main_v77` term over its launch contents is the kernel's over its own. -/
theorem join_v77 (hag : Agree m m') :
    ref_v77 (launchContents m' c) = ker_v77 (Cert.KernelIdeal.Gen.W0 m ρ c) := by
  obtain ⟨h0, h1, h2, h3, h4, h5, h6, h7, h8, h9, h10, h11, h12, h13, h14, h15, h16, h17, h18, h19, h20, h21⟩ := hag c
  have e14 : launchContents m' c (Proc.devRef .tc Cert.ReferenceIdeal.main_arg14)
      = Cert.KernelIdeal.Gen.W0 m ρ c (Proc.devRef .tc Cert.KernelIdeal.main_arg14) := h14
  have e15 : launchContents m' c (Proc.devRef .tc Cert.ReferenceIdeal.main_arg15)
      = Cert.KernelIdeal.Gen.W0 m ρ c (Proc.devRef .tc Cert.KernelIdeal.main_arg15) := h15
  have e4 : launchContents m' c (Proc.devRef .tc Cert.ReferenceIdeal.main_arg4)
      = Cert.KernelIdeal.Gen.W0 m ρ c (Proc.devRef .tc Cert.KernelIdeal.main_arg4) := h4
  have e13 : launchContents m' c (Proc.devRef .tc Cert.ReferenceIdeal.main_arg13)
      = Cert.KernelIdeal.Gen.W0 m ρ c (Proc.devRef .tc Cert.KernelIdeal.main_arg13) := h13
  unfold ref_v77 ker_v77
  rw [e14, e15, e4, e13]
  rfl

/-- The reference's `main_v77` is what the kernel holds in its own `main_v77` when its first region is entered. -/
theorem table_v77 (hag : Agree m m') :
    ref_v77 (launchContents m' c) = Cert.KernelIdeal.Gen.W1 m ρ c (Proc.devRef .tc Cert.KernelIdeal.main_v77) :=
  (join_v77 m ρ m' c hag).trans (read_v77 (Cert.KernelIdeal.Gen.W0 m ρ c)).symm

/-- The reference's `main_v90` term over its launch contents is the kernel's over its own. -/
theorem join_v90 (hag : Agree m m') :
    ref_v90 (launchContents m' c) = ker_v90 (Cert.KernelIdeal.Gen.W0 m ρ c) := by
  obtain ⟨h0, h1, h2, h3, h4, h5, h6, h7, h8, h9, h10, h11, h12, h13, h14, h15, h16, h17, h18, h19, h20, h21⟩ := hag c
  have e17 : launchContents m' c (Proc.devRef .tc Cert.ReferenceIdeal.main_arg17)
      = Cert.KernelIdeal.Gen.W0 m ρ c (Proc.devRef .tc Cert.KernelIdeal.main_arg17) := h17
  have e18 : launchContents m' c (Proc.devRef .tc Cert.ReferenceIdeal.main_arg18)
      = Cert.KernelIdeal.Gen.W0 m ρ c (Proc.devRef .tc Cert.KernelIdeal.main_arg18) := h18
  have e6 : launchContents m' c (Proc.devRef .tc Cert.ReferenceIdeal.main_arg6)
      = Cert.KernelIdeal.Gen.W0 m ρ c (Proc.devRef .tc Cert.KernelIdeal.main_arg6) := h6
  have e16 : launchContents m' c (Proc.devRef .tc Cert.ReferenceIdeal.main_arg16)
      = Cert.KernelIdeal.Gen.W0 m ρ c (Proc.devRef .tc Cert.KernelIdeal.main_arg16) := h16
  unfold ref_v90 ker_v90
  rw [e17, e18, e6, e16]
  rfl

/-- The reference's `main_v90` is what the kernel holds in its own `main_v90` when its first region is entered. -/
theorem table_v90 (hag : Agree m m') :
    ref_v90 (launchContents m' c) = Cert.KernelIdeal.Gen.W1 m ρ c (Proc.devRef .tc Cert.KernelIdeal.main_v90) :=
  (join_v90 m ρ m' c hag).trans (read_v90 (Cert.KernelIdeal.Gen.W0 m ρ c)).symm

/-- The reference's `main_v103` term over its launch contents is the kernel's over its own. -/
theorem join_v103 (hag : Agree m m') :
    ref_v103 (launchContents m' c) = ker_v103 (Cert.KernelIdeal.Gen.W0 m ρ c) := by
  obtain ⟨h0, h1, h2, h3, h4, h5, h6, h7, h8, h9, h10, h11, h12, h13, h14, h15, h16, h17, h18, h19, h20, h21⟩ := hag c
  have e20 : launchContents m' c (Proc.devRef .tc Cert.ReferenceIdeal.main_arg20)
      = Cert.KernelIdeal.Gen.W0 m ρ c (Proc.devRef .tc Cert.KernelIdeal.main_arg20) := h20
  have e21 : launchContents m' c (Proc.devRef .tc Cert.ReferenceIdeal.main_arg21)
      = Cert.KernelIdeal.Gen.W0 m ρ c (Proc.devRef .tc Cert.KernelIdeal.main_arg21) := h21
  have e0 : launchContents m' c (Proc.devRef .tc Cert.ReferenceIdeal.main_arg0)
      = Cert.KernelIdeal.Gen.W0 m ρ c (Proc.devRef .tc Cert.KernelIdeal.main_arg0) := h0
  have e19 : launchContents m' c (Proc.devRef .tc Cert.ReferenceIdeal.main_arg19)
      = Cert.KernelIdeal.Gen.W0 m ρ c (Proc.devRef .tc Cert.KernelIdeal.main_arg19) := h19
  unfold ref_v103 ker_v103
  rw [e20, e21, e0, e19]
  rfl

/-- The reference's `main_v103` is what the kernel holds in its own `main_v103` when its first region is entered. -/
theorem table_v103 (hag : Agree m m') :
    ref_v103 (launchContents m' c) = Cert.KernelIdeal.Gen.W1 m ρ c (Proc.devRef .tc Cert.KernelIdeal.main_v103) :=
  (join_v103 m ρ m' c hag).trans (read_v103 (Cert.KernelIdeal.Gen.W0 m ρ c)).symm

end Join

/-! ## The stacked tables -/

section Stacks

open Idealize.ShloMosaic Idealize.ShloMosaic.TcCoe Idealize.SL.Sem Idealize.ShloMosaic.StableHlo

/-- Four equal entries make equal vectors. -/
theorem vec4 {α : Type} {a b c d a' b' c' d' : α} (h0 : a = a') (h1 : b = b') (h2 : c = c') (h3 : d = d') :
    ![a, b, c, d] = ![a', b', c', d'] := by subst h0 h1 h2 h3; rfl

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's stack of user tables, relation by relation, is the kernel's four user tables. -/
theorem tables_user (hag : Agree m m') :
    Cert.Spec.unstack (Cert.ReferenceIdeal.Value.res_main_v108 (launchContents m' c))
      = ![Cert.KernelIdeal.Gen.W1 m ρ c (Proc.devRef .tc Cert.KernelIdeal.main_v12),
          Cert.KernelIdeal.Gen.W1 m ρ c (Proc.devRef .tc Cert.KernelIdeal.main_v25),
          Cert.KernelIdeal.Gen.W1 m ρ c (Proc.devRef .tc Cert.KernelIdeal.main_v38),
          Cert.KernelIdeal.Gen.W1 m ρ c (Proc.devRef .tc Cert.KernelIdeal.main_v51)] := by
  unfold Cert.ReferenceIdeal.Value.res_main_v108
  exact (Cert.RefRead.stack_user _ _ _ _).trans
    (vec4 (table_v12 m ρ m' c hag) (table_v25 m ρ m' c hag) (table_v38 m ρ m' c hag) (table_v51 m ρ m' c hag))

/-- The reference's stack of item tables, relation by relation, is the kernel's four item tables. -/
theorem tables_item (hag : Agree m m') :
    Cert.Spec.unstack (Cert.ReferenceIdeal.Value.res_main_v113 (launchContents m' c))
      = ![Cert.KernelIdeal.Gen.W1 m ρ c (Proc.devRef .tc Cert.KernelIdeal.main_v64),
          Cert.KernelIdeal.Gen.W1 m ρ c (Proc.devRef .tc Cert.KernelIdeal.main_v77),
          Cert.KernelIdeal.Gen.W1 m ρ c (Proc.devRef .tc Cert.KernelIdeal.main_v90),
          Cert.KernelIdeal.Gen.W1 m ρ c (Proc.devRef .tc Cert.KernelIdeal.main_v103)] := by
  unfold Cert.ReferenceIdeal.Value.res_main_v113
  exact (Cert.RefRead.stack_item _ _ _ _).trans
    (vec4 (table_v64 m ρ m' c hag) (table_v77 m ρ m' c hag) (table_v90 m ρ m' c hag) (table_v103 m ρ m' c hag))

end Stacks

end Cert.Tables

end
-- ==== Proof.lean ====
/-
  A multi-relation message-passing layer: both programs aggregate eight relation tables by the same sparse
  gather / scatter-add operations, and return (i) for users and for items the logistic function of the mean of
  the four tables times a weight, (ii) the four tables each divided by its columns' L2 norms over all rows,
  floored at the float nearest 1e-12, and (iii) six of the tables themselves.

  The kernel program computes (i) and (ii) in four launches — a fused "mean, product, logistic" pass over row
  tiles that also emits per-tile sums of squares, and a lane-dense scaling pass over the tables paired two rows to
  a 128-lane row — with the norms finished on the host between them; the reference computes them by whole-array
  host operations on the tables stacked.  On the extended reals the two agree exactly: multiplying by the float
  0.25 is dividing by the float 4; a sum over all rows is the sum over the tiles of the tiles' sums; and
  `x · (1 / n)` is `x / n` for the floored norm `n`, which is never zero.  No input needs to be finite for any of
  this, so the precondition is not opened.
-/
import proofs.«110750_j39402029973982_2_alg».proof.Defs
import proofs.«110750_j39402029973982_2_alg».proof.Proof.Gen.Kernel
import proofs.«110750_j39402029973982_2_alg».proof.Proof.Gen.Kernel.Skeleton
import proofs.«110750_j39402029973982_2_alg».proof.Proof.Gen.Kernel.Launch
import proofs.«110750_j39402029973982_2_alg».proof.Proof.Gen.Kernel.Points
import proofs.«110750_j39402029973982_2_alg».proof.Proof.Gen.Kernel.Frame
import proofs.«110750_j39402029973982_2_alg».proof.Proof.Gen.KernelIdeal
import proofs.«110750_j39402029973982_2_alg».proof.Proof.Gen.KernelIdeal.Skeleton
import proofs.«110750_j39402029973982_2_alg».proof.Proof.Gen.KernelIdeal.Launch
import proofs.«110750_j39402029973982_2_alg».proof.Proof.Gen.KernelIdeal.Points
import proofs.«110750_j39402029973982_2_alg».proof.Proof.Gen.KernelIdeal.Frame
import proofs.«110750_j39402029973982_2_alg».proof.Proof.Gen.ReferenceIdeal
import proofs.«110750_j39402029973982_2_alg».proof.Proof.Gen.ReferenceIdeal.Run
import proofs.«110750_j39402029973982_2_alg».proof.Proof.Gen.Pre_finite_inputs
import proofs.«110750_j39402029973982_2_alg».proof.Proof.KernelRun
import proofs.«110750_j39402029973982_2_alg».proof.Proof.KernelValue
import proofs.«110750_j39402029973982_2_alg».proof.Proof.RefRead
import proofs.«110750_j39402029973982_2_alg».proof.Proof.Tables
import Idealize.ShloMosaic.Adequacy
import Idealize.ShloMosaic.Init

set_option maxRecDepth 16384

noncomputable section

namespace Cert.Proof

open Idealize.ShloMosaic Idealize.ShloMosaic.TcCoe Idealize.SL.Sem

/-! ## The reference's results over the kernel program's tables -/

section Join

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))

include hag

/-- The reference's user gate, over its own stacked tables and weight, is the gate of the kernel program's user tables
    and weight: the tables are the same functions of the agreeing arguments, and the weights agree. -/
theorem join_gate_user (c : Dev Cert.KernelIdeal.nD) :
    Cert.Spec.gate (Cert.Spec.unstack (Cert.ReferenceIdeal.Value.res_main_v108 (StableHlo.launchContents m' c))) ((StableHlo.launchContents m' c) (Proc.devRef .tc Cert.ReferenceIdeal.main_arg8))
      = Cert.Spec.gate (Cert.KernelValue.TU m ρ c) (m ((c.tc : Thread Cert.KernelIdeal.nD Cert.KernelIdeal.τ).loc Cert.KernelIdeal.main_arg8)) := by
  rw [Cert.Tables.tables_user m ρ m' c hag]
  exact congrArg (Cert.Spec.gate _) ((hag c).2.2.2.2.2.2.2.2.1)

theorem join_gate_item (c : Dev Cert.KernelIdeal.nD) :
    Cert.Spec.gate (Cert.Spec.unstack (Cert.ReferenceIdeal.Value.res_main_v113 (StableHlo.launchContents m' c))) ((StableHlo.launchContents m' c) (Proc.devRef .tc Cert.ReferenceIdeal.main_arg9))
      = Cert.Spec.gate (Cert.KernelValue.TI m ρ c) (m ((c.tc : Thread Cert.KernelIdeal.nD Cert.KernelIdeal.τ).loc Cert.KernelIdeal.main_arg9)) := by
  rw [Cert.Tables.tables_item m ρ m' c hag]
  exact congrArg (Cert.Spec.gate _) ((hag c).2.2.2.2.2.2.2.2.2.1)

theorem join_norm_user (c : Dev Cert.KernelIdeal.nD) :
    Cert.Spec.normed (Cert.Spec.unstack (Cert.ReferenceIdeal.Value.res_main_v108 (StableHlo.launchContents m' c))) = Cert.Spec.normed (Cert.KernelValue.TU m ρ c) := by
  rw [Cert.Tables.tables_user m ρ m' c hag]; rfl

theorem join_norm_item (c : Dev Cert.KernelIdeal.nD) :
    Cert.Spec.normed (Cert.Spec.unstack (Cert.ReferenceIdeal.Value.res_main_v113 (StableHlo.launchContents m' c))) = Cert.Spec.normed (Cert.KernelValue.TI m ρ c) := by
  rw [Cert.Tables.tables_item m ρ m' c hag]; rfl

end Join

/-! ## The claims -/

theorem frame_k : Cert.frame_Kernel := fun m ρ _ => Cert.Kernel.Gen.frame m ρ
theorem frame_ki : Cert.frame_KernelIdeal := fun m ρ _ => Cert.KernelIdeal.Gen.frame m ρ
/-- The reference is host operations only: its frame is its run with the results dropped. -/
theorem frame_ri : Cert.frame_ReferenceIdeal := fun m ρ _ =>
  (θ_run Cert.ReferenceIdeal.defs _ _).mono (fun _ h c => (h c).2.2.2.2.2.2.2.2.2.2) (Cert.ReferenceIdeal.Value.run (F := Ideal) m ρ)

/-- No operation of the kernel program is rewritten on the way to the extended reals, so there is nothing to
    preserve: the claim is `True`. -/
theorem preserves : Cert.preserves_Kernel_KernelIdeal := trivial

/-- From memories agreeing on the arguments both programs end with the specification's two gates and two
    normalizations of the same eight tables, and six of the tables. -/
theorem algebraic : Cert.algebraic_KernelIdeal_ReferenceIdeal := by
  intro m ρ m' ρ' _ hag
  refine ⟨fun c => Cert.Spec.gate (Cert.KernelValue.TU m ρ c) (m ((c.tc : Thread Cert.KernelIdeal.nD Cert.KernelIdeal.τ).loc Cert.KernelIdeal.main_arg8)),
    fun c => Cert.Spec.gate (Cert.KernelValue.TI m ρ c) (m ((c.tc : Thread Cert.KernelIdeal.nD Cert.KernelIdeal.τ).loc Cert.KernelIdeal.main_arg9)),
    fun c => Cert.Spec.normed (Cert.KernelValue.TU m ρ c), fun c => Cert.Spec.normed (Cert.KernelValue.TI m ρ c),
    fun c => Cert.KernelIdeal.Gen.W1 m ρ c (Proc.devRef .tc Cert.KernelIdeal.main_v12), fun c => Cert.KernelIdeal.Gen.W1 m ρ c (Proc.devRef .tc Cert.KernelIdeal.main_v64),
    fun c => Cert.KernelIdeal.Gen.W1 m ρ c (Proc.devRef .tc Cert.KernelIdeal.main_v25), fun c => Cert.KernelIdeal.Gen.W1 m ρ c (Proc.devRef .tc Cert.KernelIdeal.main_v77),
    fun c => Cert.KernelIdeal.Gen.W1 m ρ c (Proc.devRef .tc Cert.KernelIdeal.main_v38), fun c => Cert.KernelIdeal.Gen.W1 m ρ c (Proc.devRef .tc Cert.KernelIdeal.main_v90), ?_, ?_⟩
  · exact (θ_run Cert.KernelIdeal.defs _ _).mono (fun r h c => ⟨
      (h c _ (Cert.KernelIdeal.Gen.mem_uc Cert.KernelIdeal.main_v104_0 (by decide))).trans (Cert.KernelValue.gate_user m ρ c),
      (h c _ (Cert.KernelIdeal.Gen.mem_uc Cert.KernelIdeal.main_v106_0 (by decide))).trans (Cert.KernelValue.gate_item m ρ c),
      (h c _ (Cert.KernelIdeal.Gen.mem_uc Cert.KernelIdeal.main_v124 (by decide))).trans (Cert.KernelValue.norm_user m ρ c),
      (h c _ (Cert.KernelIdeal.Gen.mem_uc Cert.KernelIdeal.main_v131 (by decide))).trans (Cert.KernelValue.norm_item m ρ c),
      (h c _ (Cert.KernelIdeal.Gen.mem_uc Cert.KernelIdeal.main_v12 (by decide))).trans (Cert.KernelValue.pass_v12 m ρ c),
      (h c _ (Cert.KernelIdeal.Gen.mem_uc Cert.KernelIdeal.main_v64 (by decide))).trans (Cert.KernelValue.pass_v64 m ρ c),
      (h c _ (Cert.KernelIdeal.Gen.mem_uc Cert.KernelIdeal.main_v25 (by decide))).trans (Cert.KernelValue.pass_v25 m ρ c),
      (h c _ (Cert.KernelIdeal.Gen.mem_uc Cert.KernelIdeal.main_v77 (by decide))).trans (Cert.KernelValue.pass_v77 m ρ c),
      (h c _ (Cert.KernelIdeal.Gen.mem_uc Cert.KernelIdeal.main_v38 (by decide))).trans (Cert.KernelValue.pass_v38 m ρ c),
      (h c _ (Cert.KernelIdeal.Gen.mem_uc Cert.KernelIdeal.main_v90 (by decide))).trans (Cert.KernelValue.pass_v90 m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c),
      (h c _ (Cert.KernelIdeal.Gen.mem_uc Cert.KernelIdeal.main_arg9 (by decide))).trans (Cert.KernelIdeal.Gen.W9_main_arg9 m ρ c),
      (h c _ (Cert.KernelIdeal.Gen.mem_uc Cert.KernelIdeal.main_arg10 (by decide))).trans (Cert.KernelIdeal.Gen.W9_main_arg10 m ρ c),
      (h c _ (Cert.KernelIdeal.Gen.mem_uc Cert.KernelIdeal.main_arg11 (by decide))).trans (Cert.KernelIdeal.Gen.W9_main_arg11 m ρ c),
      (h c _ (Cert.KernelIdeal.Gen.mem_uc Cert.KernelIdeal.main_arg12 (by decide))).trans (Cert.KernelIdeal.Gen.W9_main_arg12 m ρ c),
      (h c _ (Cert.KernelIdeal.Gen.mem_uc Cert.KernelIdeal.main_arg13 (by decide))).trans (Cert.KernelIdeal.Gen.W9_main_arg13 m ρ c),
      (h c _ (Cert.KernelIdeal.Gen.mem_uc Cert.KernelIdeal.main_arg14 (by decide))).trans (Cert.KernelIdeal.Gen.W9_main_arg14 m ρ c),
      (h c _ (Cert.KernelIdeal.Gen.mem_uc Cert.KernelIdeal.main_arg15 (by decide))).trans (Cert.KernelIdeal.Gen.W9_main_arg15 m ρ c),
      (h c _ (Cert.KernelIdeal.Gen.mem_uc Cert.KernelIdeal.main_arg16 (by decide))).trans (Cert.KernelIdeal.Gen.W9_main_arg16 m ρ c),
      (h c _ (Cert.KernelIdeal.Gen.mem_uc Cert.KernelIdeal.main_arg17 (by decide))).trans (Cert.KernelIdeal.Gen.W9_main_arg17 m ρ c),
      (h c _ (Cert.KernelIdeal.Gen.mem_uc Cert.KernelIdeal.main_arg18 (by decide))).trans (Cert.KernelIdeal.Gen.W9_main_arg18 m ρ c),
      (h c _ (Cert.KernelIdeal.Gen.mem_uc Cert.KernelIdeal.main_arg19 (by decide))).trans (Cert.KernelIdeal.Gen.W9_main_arg19 m ρ c),
      (h c _ (Cert.KernelIdeal.Gen.mem_uc Cert.KernelIdeal.main_arg20 (by decide))).trans (Cert.KernelIdeal.Gen.W9_main_arg20 m ρ c),
      (h c _ (Cert.KernelIdeal.Gen.mem_uc Cert.KernelIdeal.main_arg21 (by decide))).trans (Cert.KernelIdeal.Gen.W9_main_arg21 m ρ c)⟩)
      (Cert.KernelRun.run_all (F := Ideal) m ρ)
  · exact (θ_run Cert.ReferenceIdeal.defs _ _).mono (fun r h c => ⟨
      ((h c).1).trans ((Cert.RefRead.gate_user _ _).trans (join_gate_user m ρ m' hag c)),
      ((h c).2.1).trans ((Cert.RefRead.gate_item _ _).trans (join_gate_item m ρ m' hag c)),
      ((h c).2.2.1).trans ((Cert.RefRead.normed_user _).trans (join_norm_user m ρ m' hag c)),
      ((h c).2.2.2.1).trans ((Cert.RefRead.normed_item _).trans (join_norm_item m ρ m' hag c)),
      ((h c).2.2.2.2.1).trans (Cert.Tables.table_v12 m ρ m' c hag),
      ((h c).2.2.2.2.2.1).trans (Cert.Tables.table_v64 m ρ m' c hag),
      ((h c).2.2.2.2.2.2.1).trans (Cert.Tables.table_v25 m ρ m' c hag),
      ((h c).2.2.2.2.2.2.2.1).trans (Cert.Tables.table_v77 m ρ m' c hag),
      ((h c).2.2.2.2.2.2.2.2.1).trans (Cert.Tables.table_v38 m ρ m' c hag),
      ((h c).2.2.2.2.2.2.2.2.2.1).trans (Cert.Tables.table_v90 m ρ m' c hag),
      (h c).2.2.2.2.2.2.2.2.2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
